-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S8x4 : Shape := ⟨2, ![8, 4]⟩
abbrev S4 : Shape := ⟨1, ![4]⟩
abbrev S4x2 : Shape := ⟨2, ![4, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S4x2 .f32) (main_arg9 : FVec F S2 .f32) (main_arg10 : FVec F S4x2 .f32) (main_arg11 : FVec F S2 .f32) (main_v33 : IVec S_ 1) : IVec S_ 1 :=
  let main_v34 : FVec F S4x2 .f32 := Host.absf main_arg8
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S4x2 .f32 := Host.absf main_arg10
  let main_cst_16 : FVec F S_ .f32 := constant S_ .f32 0x7F800000#32
  let main_v45 : FVec F S4x2 .f32 := broadcastInDim S4x2 ![] bcast_S_S4x2 main_cst_16
  let main_v46 : IVec S4x2 1 := cmpf .olt main_v44 main_v45
  let main_c_17 : IVec S_ 1 := constantI S_ 1 1#1
  let main_v47 : IVec S_ 1 := (fun x v => Host.reduce IntOp.andi x v reducesTo_S4x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S8 .f32) (main_arg6 : FVec F S8x4 .f32) (main_arg7 : FVec F S4 .f32) (main_arg8 : FVec F S4x2 .f32) (main_arg9 : FVec F S2 .f32) (main_arg10 : FVec F S4x2 .f32) (main_arg11 : FVec F S2 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x4 .f32 := Host.absf main_arg6
  let main_cst_8 : FVec F S_ .f32 := constant S_ .f32 0x7F800000#32
  let main_v25 : FVec F S8x4 .f32 := broadcastInDim S8x4 ![] bcast_S_S8x4 main_cst_8
  let main_v26 : IVec S8x4 1 := cmpf .olt main_v24 main_v25
  let main_c_9 : IVec S_ 1 := constantI S_ 1 1#1
  let main_v27 : IVec S_ 1 := (fun x v => Host.reduce IntOp.andi x v reducesTo_S8x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x512 .f32) (main_arg1 : IVec S2x3200000 32) (main_arg2 : FVec F S512x64 .f32) (main_arg3 : FVec F S64 .f32) (main_arg4 : FVec F S64x8 .f32) (main_arg5 : FVec F S8 .f32) (main_arg6 : FVec F S8x4 .f32) (main_arg7 : FVec F S4 .f32) (main_arg8 : FVec F S4x2 .f32) (main_arg9 : FVec F S2 .f32) (main_arg10 : FVec F S4x2 .f32) (main_arg11 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_arg6 main_arg7 main_arg8 main_arg9 main_arg10 main_arg11 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S8x4 : Shape := ⟨2, ![8, 4]⟩
abbrev S4 : Shape := ⟨1, ![4]⟩
abbrev S4x2 : Shape := ⟨2, ![4, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S512 : Shape := ⟨1, ![512]⟩
abbrev S1x512 : Shape := ⟨2, ![1, 512]⟩
abbrev S100000x64 : Shape := ⟨2, ![100000, 64]⟩
abbrev S2000x512 : Shape := ⟨2, ![2000, 512]⟩
abbrev S2000x64 : Shape := ⟨2, ![2000, 64]⟩
abbrev S3300000x64 : Shape := ⟨2, ![3300000, 64]⟩
abbrev S1x64 : Shape := ⟨2, ![1, 64]⟩
abbrev S100000x8 : Shape := ⟨2, ![100000, 8]⟩
abbrev S2000x8 : Shape := ⟨2, ![2000, 8]⟩
abbrev S3300000x8 : Shape := ⟨2, ![3300000, 8]⟩
abbrev S1x8 : Shape := ⟨2, ![1, 8]⟩
abbrev S100000x4 : Shape := ⟨2, ![100000, 4]⟩
abbrev S2000x4 : Shape := ⟨2, ![2000, 4]⟩
abbrev S3300000x4 : Shape := ⟨2, ![3300000, 4]⟩
abbrev S1x4 : Shape := ⟨2, ![1, 4]⟩
abbrev S100000x2 : Shape := ⟨2, ![100000, 2]⟩
abbrev S2000x2 : Shape := ⟨2, ![2000, 2]⟩
abbrev S3300000x2 : Shape := ⟨2, ![3300000, 2]⟩
abbrev S1x2 : Shape := ⟨2, ![1, 2]⟩

abbrev nBuf : Space → Nat
  | .hbm => 153
  | .vmem => 30
  | .smem => 0
  | _ => 0

abbrev hbmTy0_0 (i : Nat) : BufTy := match i % 128 with
  | 0 => ⟨S100000x512, .f32⟩
  | 1 => ⟨S2x3200000, .i32⟩
  | 2 => ⟨S512x64, .f32⟩
  | 3 => ⟨S64, .f32⟩
  | 4 => ⟨S64x8, .f32⟩
  | 5 => ⟨S8, .f32⟩
  | 6 => ⟨S8x4, .f32⟩
  | 7 => ⟨S4, .f32⟩
  | 8 => ⟨S4x2, .f32⟩
  | 9 => ⟨S2, .f32⟩
  | 10 => ⟨S4x2, .f32⟩
  | 11 => ⟨S2, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .f32⟩
  | 56 => ⟨S512, .f32⟩
  | 57 => ⟨S1x512, .f32⟩
  | 58 => ⟨S100000x64, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x64, .f32⟩
  | 68 => ⟨S3300000x1, .f32⟩
  | 69 => ⟨S3300000x64, .f32⟩
  | 70 => ⟨S3300000x64, .f32⟩
  | 71 => ⟨S_, .f32⟩
  | 72 => ⟨S100000x64, .f32⟩
  | 73 => ⟨S3300000x1, .i32⟩
  | 74 => ⟨S100000x64, .f32⟩
  | 75 => ⟨S1x64, .f32⟩
  | 76 => ⟨S100000x8, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x8, .f32⟩
  | 86 => ⟨S3300000x1, .f32⟩
  | 87 => ⟨S3300000x8, .f32⟩
  | 88 => ⟨S3300000x8, .f32⟩
  | 89 => ⟨S_, .f32⟩
  | 90 => ⟨S100000x8, .f32⟩
  | 91 => ⟨S3300000x1, .i32⟩
  | 92 => ⟨S100000x8, .f32⟩
  | 93 => ⟨S1x8, .f32⟩
  | 94 => ⟨S100000x4, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x4, .f32⟩
  | 104 => ⟨S3300000x1, .f32⟩
  | 105 => ⟨S3300000x4, .f32⟩
  | 106 => ⟨S3300000x4, .f32⟩
  | 107 => ⟨S_, .f32⟩
  | 108 => ⟨S100000x4, .f32⟩
  | 109 => ⟨S3300000x1, .i32⟩
  | 110 => ⟨S100000x4, .f32⟩
  | 111 => ⟨S1x4, .f32⟩
  | 112 => ⟨S100000x2, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x2, .f32⟩
  | 122 => ⟨S3300000x1, .f32⟩
  | 123 => ⟨S3300000x2, .f32⟩
  | 124 => ⟨S3300000x2, .f32⟩
  | 125 => ⟨S_, .f32⟩
  | 126 => ⟨S100000x2, .f32⟩
  | 127 => ⟨S3300000x1, .i32⟩
  | _ => ⟨S100000x512, .f32⟩

abbrev hbmTy0_1 (i : Nat) : BufTy := match i % 128 with
  | 0 => ⟨S100000x2, .f32⟩
  | 1 => ⟨S1x4, .f32⟩
  | 2 => ⟨S100000x2, .f32⟩
  | 3 => ⟨S_, .i32⟩
  | 4 => ⟨S3300000, .i32⟩
  | 5 => ⟨S3300000, .i1⟩
  | 6 => ⟨S_, .i32⟩
  | 7 => ⟨S3300000, .i32⟩
  | 8 => ⟨S3300000, .i32⟩
  | 9 => ⟨S3300000, .i32⟩
  | 10 => ⟨S3300000x1, .i32⟩
  | 11 => ⟨S3300000x2, .f32⟩
  | 12 => ⟨S3300000x1, .f32⟩
  | 13 => ⟨S3300000x2, .f32⟩
  | 14 => ⟨S3300000x2, .f32⟩
  | 15 => ⟨S_, .f32⟩
  | 16 => ⟨S100000x2, .f32⟩
  | 17 => ⟨S3300000x1, .i32⟩
  | 18 => ⟨S100000x2, .f32⟩
  | 19 => ⟨S1x2, .f32⟩
  | 20 => ⟨S100000x2, .f32⟩
  | 21 => ⟨S100000x2, .f32⟩
  | 22 => ⟨S1x2, .f32⟩
  | 23 => ⟨S100000x2, .f32⟩
  | 24 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S1x512, .f32⟩
  | .local _ .vmem, ⟨3, _⟩ => ⟨S512x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S1x64, .f32⟩
  | .local _ .vmem, ⟨9, _⟩ => ⟨S64x8, .f32⟩
  | .local _ .vmem, ⟨10, _⟩ => ⟨S2000x8, .f32⟩
  | .local _ .vmem, ⟨11, _⟩ => ⟨S2000x8, .f32⟩
  | .local _ .vmem, ⟨12, _⟩ => ⟨S2000x8, .f32⟩
  | .local _ .vmem, ⟨13, _⟩ => ⟨S2000x8, .f32⟩
  | .local _ .vmem, ⟨14, _⟩ => ⟨S1x8, .f32⟩
  | .local _ .vmem, ⟨15, _⟩ => ⟨S8x4, .f32⟩
  | .local _ .vmem, ⟨16, _⟩ => ⟨S2000x4, .f32⟩
  | .local _ .vmem, ⟨17, _⟩ => ⟨S2000x4, .f32⟩
  | .local _ .vmem, ⟨18, _⟩ => ⟨S2000x4, .f32⟩
  | .local _ .vmem, ⟨19, _⟩ => ⟨S2000x4, .f32⟩
  | .local _ .vmem, ⟨20, _⟩ => ⟨S1x4, .f32⟩
  | .local _ .vmem, ⟨21, _⟩ => ⟨S4x2, .f32⟩
  | .local _ .vmem, ⟨22, _⟩ => ⟨S2000x2, .f32⟩
  | .local _ .vmem, ⟨23, _⟩ => ⟨S2000x2, .f32⟩
  | .local _ .vmem, ⟨24, _⟩ => ⟨S2000x4, .f32⟩
  | .local _ .vmem, ⟨25, _⟩ => ⟨S2000x4, .f32⟩
  | .local _ .vmem, ⟨26, _⟩ => ⟨S1x4, .f32⟩
  | .local _ .vmem, ⟨27, _⟩ => ⟨S4x2, .f32⟩
  | .local _ .vmem, ⟨28, _⟩ => ⟨S2000x2, .f32⟩
  | .local _ .vmem, ⟨29, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_20 : Ref sig .tc := ⟨.hbm, 131, rfl⟩
abbrev main_v95 : Ref sig .tc := ⟨.hbm, 132, rfl⟩
abbrev main_v96 : Ref sig .tc := ⟨.hbm, 133, rfl⟩
abbrev main_c_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_22 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S512 : S_.BroadcastsInDim S512 (![] : Fin 0 → Fin S512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x8_S64x8_0_0 : ∀ a, (![0, 0] : Fin 2 → Nat) a + S64x8.size a ≤ S64x8.size a
  h_S64x8 : 0 < S64x8.numel
  inb_S2000x8_S2000x8_0_0 : ∀ a, (![0, 0] : Fin 2 → Nat) a + S2000x8.size a ≤ S2000x8.size a
  h_S2000x8 : 0 < S2000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S2000x8_S2000x8 : S2000x8.ShapeCasts S2000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S8x4_S8x4_0_0 : ∀ a, (![0, 0] : Fin 2 → Nat) a + S8x4.size a ≤ S8x4.size a
  h_S8x4 : 0 < S8x4.numel
  inb_S2000x4_S2000x4_0_0 : ∀ a, (![0, 0] : Fin 2 → Nat) a + S2000x4.size a ≤ S2000x4.size a
  h_S2000x4 : 0 < S2000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S2000x4_S2000x4 : S2000x4.ShapeCasts S2000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S4x2_S4x2_0_0 : ∀ a, (![0, 0] : Fin 2 → Nat) a + S4x2.size a ≤ S4x2.size a
  h_S4x2 : 0 < S4x2.numel
  inb_S2000x2_S2000x2_0_0 : ∀ a, (![0, 0] : Fin 2 → Nat) a + S2000x2.size a ≤ S2000x2.size a
  h_S2000x2 : 0 < S2000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x64_S2000x64_1_0_0_1_n_n_wf : DotDims.WF S2000x512 S512x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x8_S2000x8_1_0_0_1_n_n_wf : DotDims.WF S2000x64 S64x8 S2000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S2000x8_S8x4_S2000x4_1_0_0_1_n_n_wf : DotDims.WF S2000x8 S8x4 S2000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S2000x4_S4x2_S2000x2_1_0_0_1_n_n_wf : DotDims.WF S2000x4 S4x2 S2000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S64x8.size a
  hwx1_2 : ∀ i : grid1.Coords, EltTy.bits .f32 = 32 ∨ (Rect.block (s := S64x8) S64x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x8.size a ≤ S100000x8.size a
  hwx1_3 : ∀ i : grid1.Coords, EltTy.bits .f32 = 32 ∨ (Rect.block (s := S100000x8) S2000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S100000x8.size a
  hwx2_0 : ∀ i : grid2.Coords, EltTy.bits .f32 = 32 ∨ (Rect.block (s := S100000x8) S2000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x4.size a ≤ S8x4.size a
  hwx2_2 : ∀ i : grid2.Coords, EltTy.bits .f32 = 32 ∨ (Rect.block (s := S8x4) S8x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x4.size a ≤ S100000x4.size a
  hwx2_3 : ∀ i : grid2.Coords, EltTy.bits .f32 = 32 ∨ (Rect.block (s := S100000x4) S2000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x4.size a ≤ S100000x4.size a
  hwx3_0 : ∀ i : grid3.Coords, EltTy.bits .f32 = 32 ∨ (Rect.block (s := S100000x4) S2000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x2.size a ≤ S4x2.size a
  hwx3_2 : ∀ i : grid3.Coords, EltTy.bits .f32 = 32 ∨ (Rect.block (s := S4x2) S4x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S100000x2.size a
  hwx3_3 : ∀ i : grid3.Coords, EltTy.bits .f32 = 32 ∨ (Rect.block (s := S100000x2) S2000x2.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x4.size a ≤ S100000x4.size a
  hwx4_0 : ∀ i : grid4.Coords, EltTy.bits .f32 = 32 ∨ (Rect.block (s := S100000x4) S2000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x4.size a ≤ S1x4.size a
  hwx4_1 : ∀ i : grid4.Coords, EltTy.bits .f32 = 32 ∨ (Rect.block (s := S1x4) S1x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4x2.size a ≤ S4x2.size a
  hwx4_2 : ∀ i : grid4.Coords, EltTy.bits .f32 = 32 ∨ (Rect.block (s := S4x2) S4x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x2.size a ≤ S100000x2.size a
  hwx4_3 : ∀ i : grid4.Coords, EltTy.bits .f32 = 32 ∨ (Rect.block (s := S100000x2) S2000x2.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S2000x8_S8x4_S2000x4_1_0_0_1_n_n : DotDims S2000x8 S8x4 S2000x4 where
  lhsContracting := [1]
  rhsContracting := [0]
  lhsNonContracting := [0]
  rhsNonContracting := [1]
  lhsBatch := []
  rhsBatch := []
  wf := dot_S2000x8_S8x4_S2000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S2000x4_S4x2_S2000x2_1_0_0_1_n_n : DotDims S2000x4 S4x2 S2000x2 where
  lhsContracting := [1]
  rhsContracting := [0]
  lhsNonContracting := [0]
  rhsNonContracting := [1]
  lhsBatch := []
  rhsBatch := []
  wf := dot_S2000x4_S4x2_S2000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S8x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S2000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S4x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S2000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S2000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S1x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S4x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S2000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S8x4 : Shape := ⟨2, ![8, 4]⟩
abbrev S4 : Shape := ⟨1, ![4]⟩
abbrev S4x2 : Shape := ⟨2, ![4, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x8 : Shape := ⟨2, ![100000, 8]⟩
abbrev S3300000x8 : Shape := ⟨2, ![3300000, 8]⟩
abbrev S1x8 : Shape := ⟨2, ![1, 8]⟩
abbrev S100000x4 : Shape := ⟨2, ![100000, 4]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 240
  | .vmem => 0
  | .smem => 0
  | _ => 0

abbrev hbmTy0_0 (i : Nat) : BufTy := match i % 128 with
  | 0 => ⟨S100000x512, .f32⟩
  | 1 => ⟨S2x3200000, .i32⟩
  | 2 => ⟨S512x64, .f32⟩
  | 3 => ⟨S64, .f32⟩
  | 4 => ⟨S64x8, .f32⟩
  | 5 => ⟨S8, .f32⟩
  | 6 => ⟨S8x4, .f32⟩
  | 7 => ⟨S4, .f32⟩
  | 8 => ⟨S4x2, .f32⟩
  | 9 => ⟨S2, .f32⟩
  | 10 => ⟨S4x2, .f32⟩
  | 11 => ⟨S2, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x64, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S3300000, .f32⟩
  | 56 => ⟨S3300000x1, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x64, .f32⟩
  | 67 => ⟨S3300000x64, .f32⟩
  | 68 => ⟨S_, .f32⟩
  | 69 => ⟨S100000x64, .f32⟩
  | 70 => ⟨S3300000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x8, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S3300000x1, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x8, .f32⟩
  | 108 => ⟨S3300000x8, .f32⟩
  | 109 => ⟨S3300000x8, .f32⟩
  | 110 => ⟨S_, .f32⟩
  | 111 => ⟨S100000x8, .f32⟩
  | 112 => ⟨S3300000x1, .i32⟩
  | 113 => ⟨S100000x8, .f32⟩
  | 114 => ⟨S1x8, .f32⟩
  | 115 => ⟨S100000x8, .f32⟩
  | 116 => ⟨S100000x8, .f32⟩
  | 117 => ⟨S_, .f32⟩
  | 118 => ⟨S100000x8, .f32⟩
  | 119 => ⟨S100000x8, .f32⟩
  | 120 => ⟨S100000x4, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x512, .f32⟩

abbrev hbmTy0_1 (i : Nat) : BufTy := match i % 128 with
  | 0 => ⟨S3300000x1, .i32⟩
  | 1 => ⟨S3300000, .f32⟩
  | 2 => ⟨S_, .i32⟩
  | 3 => ⟨S3300000, .i32⟩
  | 4 => ⟨S3300000, .i1⟩
  | 5 => ⟨S_, .i32⟩
  | 6 => ⟨S3300000, .i32⟩
  | 7 => ⟨S3300000, .i32⟩
  | 8 => ⟨S3300000, .i32⟩
  | 9 => ⟨S3300000x1, .i32⟩
  | 10 => ⟨S3300000, .f32⟩
  | 11 => ⟨S3300000, .f32⟩
  | 12 => ⟨S3300000x1, .f32⟩
  | 13 => ⟨S_, .i32⟩
  | 14 => ⟨S3300000, .i32⟩
  | 15 => ⟨S3300000, .i1⟩
  | 16 => ⟨S_, .i32⟩
  | 17 => ⟨S3300000, .i32⟩
  | 18 => ⟨S3300000, .i32⟩
  | 19 => ⟨S3300000, .i32⟩
  | 20 => ⟨S3300000x1, .i32⟩
  | 21 => ⟨S3300000x4, .f32⟩
  | 22 => ⟨S3300000x4, .f32⟩
  | 23 => ⟨S3300000x4, .f32⟩
  | 24 => ⟨S_, .f32⟩
  | 25 => ⟨S100000x4, .f32⟩
  | 26 => ⟨S3300000x1, .i32⟩
  | 27 => ⟨S100000x4, .f32⟩
  | 28 => ⟨S1x4, .f32⟩
  | 29 => ⟨S100000x4, .f32⟩
  | 30 => ⟨S100000x4, .f32⟩
  | 31 => ⟨S_, .f32⟩
  | 32 => ⟨S100000x4, .f32⟩
  | 33 => ⟨S100000x4, .f32⟩
  | 34 => ⟨S100000x2, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S3300000x1, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x2, .f32⟩
  | 64 => ⟨S3300000x2, .f32⟩
  | 65 => ⟨S3300000x2, .f32⟩
  | 66 => ⟨S_, .f32⟩
  | 67 => ⟨S100000x2, .f32⟩
  | 68 => ⟨S3300000x1, .i32⟩
  | 69 => ⟨S100000x2, .f32⟩
  | 70 => ⟨S1x2, .f32⟩
  | 71 => ⟨S100000x2, .f32⟩
  | 72 => ⟨S100000x2, .f32⟩
  | 73 => ⟨S100000x2, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S3300000x1, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x2, .f32⟩
  | 103 => ⟨S3300000x2, .f32⟩
  | 104 => ⟨S3300000x2, .f32⟩
  | 105 => ⟨S_, .f32⟩
  | 106 => ⟨S100000x2, .f32⟩
  | 107 => ⟨S3300000x1, .i32⟩
  | 108 => ⟨S100000x2, .f32⟩
  | 109 => ⟨S1x2, .f32⟩
  | 110 => ⟨S100000x2, .f32⟩
  | 111 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_c_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_c_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_21 : Ref sig .tc := ⟨.hbm, 141, rfl⟩
abbrev main_v100 : Ref sig .tc := ⟨.hbm, 142, rfl⟩
abbrev main_v101 : Ref sig .tc := ⟨.hbm, 143, rfl⟩
abbrev main_c_22 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call3_cst : Ref sig .tc := ⟨.hbm, 159, rfl⟩
abbrev main_call3_v0 : Ref sig .tc := ⟨.hbm, 160, rfl⟩
abbrev main_v115 : Ref sig .tc := ⟨.hbm, 161, rfl⟩
abbrev main_v116 : Ref sig .tc := ⟨.hbm, 162, rfl⟩
abbrev main_c_24 : Ref sig .tc := ⟨.hbm, 163, rfl⟩
abbrev main_v117 : Ref sig .tc := ⟨.hbm, 164, rfl⟩
abbrev main_v118 : Ref sig .tc := ⟨.hbm, 165, rfl⟩
abbrev main_c_25 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_c_26 : Ref sig .tc := ⟨.hbm, 172, rfl⟩
abbrev main_v124 : Ref sig .tc := ⟨.hbm, 173, rfl⟩
abbrev main_v125 : Ref sig .tc := ⟨.hbm, 174, rfl⟩
abbrev main_c_27 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_28 : Ref sig .tc := ⟨.hbm, 183, rfl⟩
abbrev main_v133 : Ref sig .tc := ⟨.hbm, 184, rfl⟩
abbrev main_v134 : Ref sig .tc := ⟨.hbm, 185, rfl⟩
abbrev main_c_29 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_30 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_31 : Ref sig .tc := ⟨.hbm, 202, rfl⟩
abbrev main_v149 : Ref sig .tc := ⟨.hbm, 203, rfl⟩
abbrev main_v150 : Ref sig .tc := ⟨.hbm, 204, rfl⟩
abbrev main_c_32 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_33 : Ref sig .tc := ⟨.hbm, 211, rfl⟩
abbrev main_v156 : Ref sig .tc := ⟨.hbm, 212, rfl⟩
abbrev main_v157 : Ref sig .tc := ⟨.hbm, 213, rfl⟩
abbrev main_c_34 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_35 : Ref sig .tc := ⟨.hbm, 222, rfl⟩
abbrev main_v165 : Ref sig .tc := ⟨.hbm, 223, rfl⟩
abbrev main_v166 : Ref sig .tc := ⟨.hbm, 224, rfl⟩
abbrev main_c_36 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_37 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  dot_S100000x512_S512x64_S100000x64_1_0_0_1_n_n_wf : DotDims.WF S100000x512 S512x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x8_S100000x8_1_0_0_1_n_n_wf : DotDims.WF S100000x64 S64x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x4_S100000x4_1_0_0_1_n_n_wf : DotDims.WF S100000x8 S8x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run, with its two results named.

  The program is five matrix-product regions among stretches of host operations. Every weakly fair execution ends, and
  in the final memory every buffer that no region stages holds what the fold of the segments leaves there: the last
  boundary's contents. Read at the two result buffers this names the results; read at the argument buffers it says they
  are unchanged.
-/
import proofs.«153102_j63814624084747_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the two result buffers at the last boundary's contents and the
    arguments as launched. -/
theorem run_results : θ_run defs (onTc (τ := τ) (main (F := F))) ⟨m, fun _ => 0, ρ⟩ (fun r => ∀ c : Dev nD,
      r.2.mem ((c.tc : Thread nD τ).loc main_v110) = W13 m ρ c (Proc.devRef .tc main_v110)
      ∧ r.2.mem ((c.tc : Thread nD τ).loc main_v113) = W13 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v110 (by decide)),
       h c _ (mem_uc main_v113 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Gen

end
-- ==== Proof.Spec.lean ====
/-
  The graph-convolution network both programs compute, as functions of whole arrays.

  A layer is: a linear map of the node features; for every edge (the given edges, then one self loop per node) the
  source node's row scaled by the edge's normalisation 1/√(deg src)·1/√(deg dst); the sum of those rows into the edge's
  destination node; then the bias, and between layers max(·, 0). The degrees count, per node, the edges that end in it.
  Each step is spelt with the host operations both printed programs use, so that either program's value at a stage
  is one of these functions of the arguments by unfolding.
-/
import proofs.«153102_j63814624084747_1_alg».proof.Proof.Gen.KernelIdeal
import proofs.«153102_j63814624084747_1_alg».proof.Proof.Gen.ReferenceIdeal
import Idealize.ShloMosaic.PureOps.Ideal

noncomputable section

namespace Cert.Gcn

open Idealize.ShloMosaic Idealize.ShloMosaic.TcCoe
open Cert.KernelIdeal Cert.KernelIdeal.Facts₀ Cert.KernelIdeal.Facts

/-- An array of 32-bit integers of shape `s`. -/
abbrev IArr (s : Shape) : Type := IVec s 32
/-- An array of floats of shape `s`, at the extended reals. -/
abbrev FArr (s : Shape) : Type := FVec Ideal s .f32

/-- Row `k` of the edge list, then the nodes 0 … 99999 (the self loops). -/
def srcOf (e : IArr S2x3200000) : IArr S3300000 :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0
def dstOf (e : IArr S2x3200000) : IArr S3300000 :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- The number of edges that end in each node. -/
def degOf (dst : IArr S3300000) : FArr S100000 :=
  Host.scatterAdd (F := Ideal) (φ := .f32) scatter_S100000_S3300000x1_S3300000_n_0_0_1 (broadcastInDim S100000 ![] bcast_S_S100000 (constant (F := Ideal) S_ .f32 0x00000000#32))
    (broadcastInDim S3300000x1 ![0] bcast_S3300000_S3300000x1_0 dst) (broadcastInDim S3300000 ![] bcast_S_S3300000 (constant (F := Ideal) S_ .f32 0x3F800000#32))

/-- 1/√(max(deg, 1)) where the degree is positive, 0 elsewhere. -/
def dinvOf (dst : IArr S3300000) : FArr S100000 :=
  select (cmpf (F := Ideal) .ogt (degOf dst) (broadcastInDim S100000 ![] bcast_S_S100000 (constant (F := Ideal) S_ .f32 0x00000000#32)))
    (Host.rsqrt (F := Ideal) (φ := .f32) (maximumf (F := Ideal) (φ := .f32) (degOf dst) (broadcastInDim S100000 ![] bcast_S_S100000 (constant (F := Ideal) S_ .f32 0x3F800000#32))))
    (broadcastInDim S100000 ![] bcast_S_S100000 (id (constant (F := Ideal) S_ .f32 0x00000000#32) : FArr S_))

/-- A list of node numbers as a column of gather / scatter positions, a negative number counted from the end. -/
def wrap (i : IArr S3300000) : IArr S3300000x1 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- The normalisation of every edge: dinv at its source times dinv at its destination. -/
def normOf (dinv : FArr S100000) (src dst : IArr S3300000) : FArr S3300000 :=
  mulf (F := Ideal) (φ := .f32) (Host.gather gather_S100000_S3300000x1_S3300000_n_0_n_n_0_1_1 dinv (wrap src))
    (Host.gather gather_S100000_S3300000x1_S3300000_n_0_n_n_0_1_1 dinv (wrap dst))

/-- Over features of width 64: each edge's source row times the edge's normalisation, summed into the edge's destination row. -/
def agg64 (h : FArr S100000x64) (src dst : IArr S3300000) (nrm : FArr S3300000) : FArr S100000x64 :=
  Host.scatterAdd (F := Ideal) (φ := .f32) scatter_S100000x64_S3300000x1_S3300000x64_1_0_0_1 (broadcastInDim S100000x64 ![] bcast_S_S100000x64 (constant (F := Ideal) S_ .f32 0x00000000#32))
    (broadcastInDim S3300000x1 ![0] bcast_S3300000_S3300000x1_0 dst)
    (mulf (F := Ideal) (φ := .f32) (Host.gather gather_S100000x64_S3300000x1_S3300000x64_1_0_n_n_0_1_164 h (wrap src))
      (broadcastInDim S3300000x64 ![0, 1] bcast_S3300000x1_S3300000x64_0_1 (broadcastInDim S3300000x1 ![0] bcast_S3300000_S3300000x1_0 nrm)))

/-- Over features of width 8: each edge's source row times the edge's normalisation, summed into the edge's destination row. -/
def agg8 (h : FArr S100000x8) (src dst : IArr S3300000) (nrm : FArr S3300000) : FArr S100000x8 :=
  Host.scatterAdd (F := Ideal) (φ := .f32) scatter_S100000x8_S3300000x1_S3300000x8_1_0_0_1 (broadcastInDim S100000x8 ![] bcast_S_S100000x8 (constant (F := Ideal) S_ .f32 0x00000000#32))
    (broadcastInDim S3300000x1 ![0] bcast_S3300000_S3300000x1_0 dst)
    (mulf (F := Ideal) (φ := .f32) (Host.gather gather_S100000x8_S3300000x1_S3300000x8_1_0_n_n_0_1_18 h (wrap src))
      (broadcastInDim S3300000x8 ![0, 1] bcast_S3300000x1_S3300000x8_0_1 (broadcastInDim S3300000x1 ![0] bcast_S3300000_S3300000x1_0 nrm)))

/-- Over features of width 4: each edge's source row times the edge's normalisation, summed into the edge's destination row. -/
def agg4 (h : FArr S100000x4) (src dst : IArr S3300000) (nrm : FArr S3300000) : FArr S100000x4 :=
  Host.scatterAdd (F := Ideal) (φ := .f32) scatter_S100000x4_S3300000x1_S3300000x4_1_0_0_1 (broadcastInDim S100000x4 ![] bcast_S_S100000x4 (constant (F := Ideal) S_ .f32 0x00000000#32))
    (broadcastInDim S3300000x1 ![0] bcast_S3300000_S3300000x1_0 dst)
    (mulf (F := Ideal) (φ := .f32) (Host.gather gather_S100000x4_S3300000x1_S3300000x4_1_0_n_n_0_1_14 h (wrap src))
      (broadcastInDim S3300000x4 ![0, 1] bcast_S3300000x1_S3300000x4_0_1 (broadcastInDim S3300000x1 ![0] bcast_S3300000_S3300000x1_0 nrm)))

/-- Over features of width 2: each edge's source row times the edge's normalisation, summed into the edge's destination row. -/
def agg2 (h : FArr S100000x2) (src dst : IArr S3300000) (nrm : FArr S3300000) : FArr S100000x2 :=
  Host.scatterAdd (F := Ideal) (φ := .f32) scatter_S100000x2_S3300000x1_S3300000x2_1_0_0_1 (broadcastInDim S100000x2 ![] bcast_S_S100000x2 (constant (F := Ideal) S_ .f32 0x00000000#32))
    (broadcastInDim S3300000x1 ![0] bcast_S3300000_S3300000x1_0 dst)
    (mulf (F := Ideal) (φ := .f32) (Host.gather gather_S100000x2_S3300000x1_S3300000x2_1_0_n_n_0_1_12 h (wrap src))
      (broadcastInDim S3300000x2 ![0, 1] bcast_S3300000x1_S3300000x2_0_1 (broadcastInDim S3300000x1 ![0] bcast_S3300000_S3300000x1_0 nrm)))

/-- The first layer's linear map. -/
def lin0 (x : FArr S100000x512) (w : FArr S512x64) : FArr S100000x64 :=
  Host.dotGeneral (F := Ideal) (φ₁ := .f32) (φ₂ := .f32) Cert.ReferenceIdeal.dot_S100000x512_S512x64_S100000x64_1_0_0_1_n_n none x w

/-- Bias, then max(·, 0), over features of width 64. -/
def act64 (a : FArr S100000x64) (b : FArr S64) : FArr S100000x64 :=
  maximumf (F := Ideal) (φ := .f32) (addf (F := Ideal) (φ := .f32) a (broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b)))
    (broadcastInDim Cert.ReferenceIdeal.S100000x64 ![] Cert.ReferenceIdeal.Facts₀.bcast_S_S100000x64 (constant (F := Ideal) Cert.ReferenceIdeal.S_ .f32 0x00000000#32))

/-- Bias, max(·, 0), then the linear map 64 → 8. -/
def lin1 (a : FArr S100000x64) (b : FArr S64) (w : FArr S64x8) : FArr S100000x8 :=
  Host.dotGeneral (F := Ideal) (φ₁ := .f32) (φ₂ := .f32) Cert.ReferenceIdeal.dot_S100000x64_S64x8_S100000x8_1_0_0_1_n_n none (act64 a b) w

/-- Bias, then max(·, 0), over features of width 8. -/
def act8 (a : FArr S100000x8) (b : FArr S8) : FArr S100000x8 :=
  maximumf (F := Ideal) (φ := .f32) (addf (F := Ideal) (φ := .f32) a (broadcastInDim Cert.ReferenceIdeal.S100000x8 ![0, 1] Cert.ReferenceIdeal.Facts₀.bcast_S1x8_S100000x8_0_1
      (broadcastInDim Cert.ReferenceIdeal.S1x8 ![1] Cert.ReferenceIdeal.Facts₀.bcast_S8_S1x8_1 b)))
    (broadcastInDim Cert.ReferenceIdeal.S100000x8 ![] Cert.ReferenceIdeal.Facts₀.bcast_S_S100000x8 (constant (F := Ideal) Cert.ReferenceIdeal.S_ .f32 0x00000000#32))

/-- Bias, max(·, 0), then the linear map 8 → 4. -/
def lin2 (a : FArr S100000x8) (b : FArr S8) (w : FArr S8x4) : FArr S100000x4 :=
  Host.dotGeneral (F := Ideal) (φ₁ := .f32) (φ₂ := .f32) Cert.ReferenceIdeal.dot_S100000x8_S8x4_S100000x4_1_0_0_1_n_n none (act8 a b) w

/-- Bias, then max(·, 0), over features of width 4. -/
def act4 (a : FArr S100000x4) (b : FArr S4) : FArr S100000x4 :=
  maximumf (F := Ideal) (φ := .f32) (addf (F := Ideal) (φ := .f32) a (broadcastInDim Cert.ReferenceIdeal.S100000x4 ![0, 1] Cert.ReferenceIdeal.Facts₀.bcast_S1x4_S100000x4_0_1
      (broadcastInDim Cert.ReferenceIdeal.S1x4 ![1] Cert.ReferenceIdeal.Facts₀.bcast_S4_S1x4_1 b)))
    (broadcastInDim Cert.ReferenceIdeal.S100000x4 ![] Cert.ReferenceIdeal.Facts₀.bcast_S_S100000x4 (constant (F := Ideal) Cert.ReferenceIdeal.S_ .f32 0x00000000#32))

/-- Bias, max(·, 0), then the linear map 4 → 2. -/
def lin3 (a : FArr S100000x4) (b : FArr S4) (w : FArr S4x2) : FArr S100000x2 :=
  Host.dotGeneral (F := Ideal) (φ₁ := .f32) (φ₂ := .f32) Cert.ReferenceIdeal.dot_S100000x4_S4x2_S100000x2_1_0_0_1_n_n none (act4 a b) w

/-- The last bias. -/
def addBias2 (a : FArr S100000x2) (b : FArr S2) : FArr S100000x2 :=
  addf (F := Ideal) (φ := .f32) a (broadcastInDim S100000x2 ![0, 1] bcast_S1x2_S100000x2_0_1 (broadcastInDim S1x2 ![1] bcast_S2_S1x2_1 b))

/-- The node features entering the two output heads: three layers. -/
def hidden (x : FArr S100000x512) (e : IArr S2x3200000) (w1 : FArr S512x64) (b1 : FArr S64) (w2 : FArr S64x8) (b2 : FArr S8)
    (w3 : FArr S8x4) : FArr S100000x4 :=
  let s := srcOf e
  let d := dstOf e
  let n := normOf (dinvOf d) s d
  agg4 (lin2 (agg8 (lin1 (agg64 (lin0 x w1) s d n) b1 w2) s d n) b2 w3) s d n

/-- An output head: bias of the third layer, max(·, 0), the head's linear map, its aggregation, its bias. -/
def head (x : FArr S100000x512) (e : IArr S2x3200000) (w1 : FArr S512x64) (b1 : FArr S64) (w2 : FArr S64x8) (b2 : FArr S8)
    (w3 : FArr S8x4) (b3 : FArr S4) (wh : FArr S4x2) (bh : FArr S2) : FArr S100000x2 :=
  addBias2 (agg2 (lin3 (hidden x e w1 b1 w2 b2 w3) b3 wh) (srcOf e) (dstOf e) (normOf (dinvOf (dstOf e)) (srcOf e) (dstOf e))) bh

end Cert.Gcn

end
-- ==== Proof.KernelStretches.lean ====
/-
  The kernel program's stretches of host operations, each read as one function of the buffers it finds.

  Before the first region: the edge lists, the degree mask and inverse square root, the edge normalisation, and the
  all-zero bias row of the first layer. Between regions: the aggregation of the region's output over the edges, and the
  next bias as a row. After the last region: the last aggregation and the two output biases.
-/
import proofs.«153102_j63814624084747_1_alg».proof.Proof.Gen.KernelIdeal.Frame
import proofs.«153102_j63814624084747_1_alg».proof.Proof.Spec
set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Gcn

variable (V : Valuation τ sig (Elt Ideal))

set_option maxHeartbeats 2000000 in
theorem k_src : StableHlo.after hostOps0 V (Proc.devRef .tc main_v3) = srcOf (V (Proc.devRef .tc main_arg1)) := by
  after_results_simp
  try rfl

set_option maxHeartbeats 2000000 in
theorem k_dst : StableHlo.after hostOps0 V (Proc.devRef .tc main_v6) = dstOf (V (Proc.devRef .tc main_arg1)) := by
  after_results_simp
  try rfl

set_option maxHeartbeats 2000000 in
theorem k_mask : StableHlo.after hostOps0 V (Proc.devRef .tc main_v12) = cmpf (F := Ideal) .ogt (degOf (dstOf (V (Proc.devRef .tc main_arg1)))) (broadcastInDim S100000 ![] Cert.KernelIdeal.Facts₀.bcast_S_S100000 (constant (F := Ideal) S_ .f32 0x00000000#32)) := by
  after_results_simp
  try rfl

set_option maxHeartbeats 2000000 in
theorem k_rsqrt : StableHlo.after hostOps0 V (Proc.devRef .tc main_v15) = Host.rsqrt (F := Ideal) (φ := .f32) (maximumf (F := Ideal) (φ := .f32) (degOf (dstOf (V (Proc.devRef .tc main_arg1)))) (broadcastInDim S100000 ![] Cert.KernelIdeal.Facts₀.bcast_S_S100000 (constant (F := Ideal) S_ .f32 0x3F800000#32))) := by
  after_results_simp
  try rfl

set_option maxHeartbeats 2000000 in
theorem k_zero : StableHlo.after hostOps0 V (Proc.devRef .tc main_cst_3) = constant (F := Ideal) S_ .f32 0x00000000#32 := by
  after_results_simp
  try rfl

set_option maxHeartbeats 2000000 in
theorem k_dinv : StableHlo.after hostOps0_1 V (Proc.devRef .tc main_v16) = select (V (Proc.devRef .tc main_v12)) (V (Proc.devRef .tc main_v15)) (broadcastInDim S100000 ![] Cert.KernelIdeal.Facts₀.bcast_S_S100000 (id (V (Proc.devRef .tc main_cst_3)))) := by
  after_results_simp
  try rfl

set_option maxHeartbeats 2000000 in
theorem k_norm : StableHlo.after hostOps0_2 V (Proc.devRef .tc main_v31) = normOf (V (Proc.devRef .tc main_v16)) (V (Proc.devRef .tc main_v3)) (V (Proc.devRef .tc main_v6)) := by
  after_results_simp
  try rfl

set_option maxHeartbeats 2000000 in
theorem k_zrow : StableHlo.after hostOps0_2 V (Proc.devRef .tc main_v33) = shapeCast S1x512 (broadcastInDim S512 ![] Cert.KernelIdeal.Facts₀.bcast_S_S512 (constant (F := Ideal) S_ .f32 0x00000000#32)) Cert.KernelIdeal.Facts₀.shapeCasts_S512_S1x512 := by
  after_results_simp
  try rfl

set_option maxHeartbeats 2000000 in
theorem k_agg1 : StableHlo.after hostOps1 V (Proc.devRef .tc main_v47) = agg64 (V (Proc.devRef .tc main_v34)) (V (Proc.devRef .tc main_v3)) (V (Proc.devRef .tc main_v6)) (V (Proc.devRef .tc main_v31)) := by
  after_results_simp
  try rfl

set_option maxHeartbeats 2000000 in
theorem k_row1 : StableHlo.after hostOps1 V (Proc.devRef .tc main_v48) = shapeCast S1x64 (V (Proc.devRef .tc main_arg3)) Cert.KernelIdeal.Facts₀.shapeCasts_S64_S1x64 := by
  after_results_simp
  try rfl

set_option maxHeartbeats 2000000 in
theorem k_agg2 : StableHlo.after hostOps2 V (Proc.devRef .tc main_v62) = agg8 (V (Proc.devRef .tc main_v49)) (V (Proc.devRef .tc main_v3)) (V (Proc.devRef .tc main_v6)) (V (Proc.devRef .tc main_v31)) := by
  after_results_simp
  try rfl

set_option maxHeartbeats 2000000 in
theorem k_row2 : StableHlo.after hostOps2 V (Proc.devRef .tc main_v63) = shapeCast S1x8 (V (Proc.devRef .tc main_arg5)) Cert.KernelIdeal.Facts₀.shapeCasts_S8_S1x8 := by
  after_results_simp
  try rfl

set_option maxHeartbeats 2000000 in
theorem k_agg3 : StableHlo.after hostOps3 V (Proc.devRef .tc main_v77) = agg4 (V (Proc.devRef .tc main_v64)) (V (Proc.devRef .tc main_v3)) (V (Proc.devRef .tc main_v6)) (V (Proc.devRef .tc main_v31)) := by
  after_results_simp
  try rfl

set_option maxHeartbeats 2000000 in
theorem k_row3 : StableHlo.after hostOps3 V (Proc.devRef .tc main_v78) = shapeCast S1x4 (V (Proc.devRef .tc main_arg7)) Cert.KernelIdeal.Facts₀.shapeCasts_S4_S1x4 := by
  after_results_simp
  try rfl

set_option maxHeartbeats 2000000 in
theorem k_agg4 : StableHlo.after hostOps4 V (Proc.devRef .tc main_v92) = agg2 (V (Proc.devRef .tc main_v79)) (V (Proc.devRef .tc main_v3)) (V (Proc.devRef .tc main_v6)) (V (Proc.devRef .tc main_v31)) := by
  after_results_simp
  try rfl

set_option maxHeartbeats 2000000 in
theorem k_row4 : StableHlo.after hostOps4 V (Proc.devRef .tc main_v93) = shapeCast S1x4 (V (Proc.devRef .tc main_arg7)) Cert.KernelIdeal.Facts₀.shapeCasts_S4_S1x4 := by
  after_results_simp
  try rfl

set_option maxHeartbeats 2000000 in
theorem k_out0 : StableHlo.after hostOps5 V (Proc.devRef .tc main_v110) = addBias2 (V (Proc.devRef .tc main_v92)) (V (Proc.devRef .tc main_arg9)) := by
  after_results_simp
  try rfl

set_option maxHeartbeats 2000000 in
theorem k_out1 : StableHlo.after hostOps5 V (Proc.devRef .tc main_v113) = addBias2 (agg2 (V (Proc.devRef .tc main_v94)) (V (Proc.devRef .tc main_v3)) (V (Proc.devRef .tc main_v6)) (V (Proc.devRef .tc main_v31))) (V (Proc.devRef .tc main_arg11)) := by
  after_results_simp
  try rfl

end Cert.KernelIdeal.Chain

end
-- ==== Proof.Keep.lean ====
/-
  What the host operations between the matrix-product regions leave untouched.

  Each stretch of host operations writes a fixed list of buffers, one per operation. A buffer outside that list holds
  after the stretch what it held before. The edge lists (sources and destinations with the self loops appended), the
  per-edge normalisation and the twelve arguments are written once, before the first region, or never; so they are
  carried unchanged across every later stretch.
-/
import proofs.«153102_j63814624084747_1_alg».proof.Proof.Gen.KernelIdeal.Frame

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]

/-- An operation that writes one listed buffer writes only listed buffers. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers the stretch `hostOps0` writes, in order. -/
def written0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]

theorem writes_sub0 : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep0 (V : Valuation τ sig (Elt F)) (r : Ref sig .tc) (hr : r ∉ written0) :
    StableHlo.after hostOps0 V (Proc.devRef .tc r) = V (Proc.devRef .tc r) :=
  StableHlo.after_of_writes_sub hostOps0 V writes_sub0 hr

/-- The buffers the stretch `hostOps0_1` writes, in order. -/
def written0_1 : List (Ref sig .tc) := [main_call0_v0, main_call0_v1, main_v16]

theorem writes_sub0_1 : (hostOps0_1 : List (HloOp τ sig (Elt F))).Forall fun op => op.writes ⊆ ((written0_1).map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep0_1 (V : Valuation τ sig (Elt F)) (r : Ref sig .tc) (hr : r ∉ written0_1) :
    StableHlo.after hostOps0_1 V (Proc.devRef .tc r) = V (Proc.devRef .tc r) :=
  StableHlo.after_of_writes_sub hostOps0_1 V writes_sub0_1 hr

/-- The buffers the stretch `hostOps0_2` writes, in order. -/
def written0_2 : List (Ref sig .tc) := [main_c, main_v17, main_v18, main_c_4, main_v19, main_v20, main_v21, main_v22, main_v23, main_c_5, main_v24, main_v25, main_c_6, main_v26, main_v27, main_v28, main_v29, main_v30, main_v31, main_cst_7, main_v32, main_v33]

theorem writes_sub0_2 : (hostOps0_2 : List (HloOp τ sig (Elt F))).Forall fun op => op.writes ⊆ ((written0_2).map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep0_2 (V : Valuation τ sig (Elt F)) (r : Ref sig .tc) (hr : r ∉ written0_2) :
    StableHlo.after hostOps0_2 V (Proc.devRef .tc r) = V (Proc.devRef .tc r) :=
  StableHlo.after_of_writes_sub hostOps0_2 V writes_sub0_2 hr

/-- The buffers the stretch `hostOps1` writes, in order. -/
def written1 : List (Ref sig .tc) := [main_c_8, main_v35, main_v36, main_c_9, main_v37, main_v38, main_v39, main_v40, main_v41, main_v42, main_v43, main_v44, main_cst_10, main_v45, main_v46, main_v47, main_v48]

theorem writes_sub1 : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep1 (V : Valuation τ sig (Elt F)) (r : Ref sig .tc) (hr : r ∉ written1) :
    StableHlo.after hostOps1 V (Proc.devRef .tc r) = V (Proc.devRef .tc r) :=
  StableHlo.after_of_writes_sub hostOps1 V writes_sub1 hr

/-- The buffers the stretch `hostOps2` writes, in order. -/
def written2 : List (Ref sig .tc) := [main_c_11, main_v50, main_v51, main_c_12, main_v52, main_v53, main_v54, main_v55, main_v56, main_v57, main_v58, main_v59, main_cst_13, main_v60, main_v61, main_v62, main_v63]

theorem writes_sub2 : (hostOps2 : List (HloOp τ sig (Elt F))).Forall fun op => op.writes ⊆ ((written2).map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep2 (V : Valuation τ sig (Elt F)) (r : Ref sig .tc) (hr : r ∉ written2) :
    StableHlo.after hostOps2 V (Proc.devRef .tc r) = V (Proc.devRef .tc r) :=
  StableHlo.after_of_writes_sub hostOps2 V writes_sub2 hr

/-- The buffers the stretch `hostOps3` writes, in order. -/
def written3 : List (Ref sig .tc) := [main_c_14, main_v65, main_v66, main_c_15, main_v67, main_v68, main_v69, main_v70, main_v71, main_v72, main_v73, main_v74, main_cst_16, main_v75, main_v76, main_v77, main_v78]

theorem writes_sub3 : (hostOps3 : List (HloOp τ sig (Elt F))).Forall fun op => op.writes ⊆ ((written3).map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep3 (V : Valuation τ sig (Elt F)) (r : Ref sig .tc) (hr : r ∉ written3) :
    StableHlo.after hostOps3 V (Proc.devRef .tc r) = V (Proc.devRef .tc r) :=
  StableHlo.after_of_writes_sub hostOps3 V writes_sub3 hr

/-- The buffers the stretch `hostOps4` writes, in order. -/
def written4 : List (Ref sig .tc) := [main_c_17, main_v80, main_v81, main_c_18, main_v82, main_v83, main_v84, main_v85, main_v86, main_v87, main_v88, main_v89, main_cst_19, main_v90, main_v91, main_v92, main_v93]

theorem writes_sub4 : (hostOps4 : List (HloOp τ sig (Elt F))).Forall fun op => op.writes ⊆ ((written4).map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep4 (V : Valuation τ sig (Elt F)) (r : Ref sig .tc) (hr : r ∉ written4) :
    StableHlo.after hostOps4 V (Proc.devRef .tc r) = V (Proc.devRef .tc r) :=
  StableHlo.after_of_writes_sub hostOps4 V writes_sub4 hr

/-- The buffers the stretch `hostOps5` writes, in order. -/
def written5 : List (Ref sig .tc) := [main_c_20, main_v95, main_v96, main_c_21, main_v97, main_v98, main_v99, main_v100, main_v101, main_v102, main_v103, main_v104, main_cst_22, main_v105, main_v106, main_v107, main_v108, main_v109, main_v110, main_v111, main_v112, main_v113]

theorem writes_sub5 : (hostOps5 : List (HloOp τ sig (Elt F))).Forall fun op => op.writes ⊆ ((written5).map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep5 (V : Valuation τ sig (Elt F)) (r : Ref sig .tc) (hr : r ∉ written5) :
    StableHlo.after hostOps5 V (Proc.devRef .tc r) = V (Proc.devRef .tc r) :=
  StableHlo.after_of_writes_sub hostOps5 V writes_sub5 hr

end Cert.KernelIdeal.Chain

end
-- ==== Proof.Carried.lean ====
/-
  The values every segment boundary carries.

  Three arrays computed before the first region — the source and destination node of every edge (the given edges, then
  one self loop per node) and the symmetric normalisation 1/√(deg src · deg dst) of every edge — and the twelve
  arguments are read by every later layer and written by none. At every boundary between segments they are still what
  they were when computed.
-/
import proofs.«153102_j63814624084747_1_alg».proof.Proof.Keep
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The buffers carried across every boundary. -/
def carried : List (Ref sig .tc) := [main_v3, main_v6, main_v31, main_arg0, main_arg1, main_arg2, main_arg3, main_arg4, main_arg5, main_arg6, main_arg7, main_arg8, main_arg9, main_arg10, main_arg11]

/-- At the contents `W` of core `c`'s buffers: the edge sources, the edge destinations and the edge normalisation are
    the given arrays, and every argument is as launched. -/
structure Kept (s d : (⟨S3300000, .i32⟩ : BufTy).Contents (Elt Ideal)) (n : (⟨S3300000, .f32⟩ : BufTy).Contents (Elt Ideal))
    (W : Valuation τ sig (Elt Ideal)) : Prop where
  src : W (Proc.devRef .tc main_v3) = s
  dst : W (Proc.devRef .tc main_v6) = d
  norm : W (Proc.devRef .tc main_v31) = n
  a0 : W (Proc.devRef .tc main_arg0) = m ((c.tc : Thread nD τ).loc main_arg0)
  a1 : W (Proc.devRef .tc main_arg1) = m ((c.tc : Thread nD τ).loc main_arg1)
  a2 : W (Proc.devRef .tc main_arg2) = m ((c.tc : Thread nD τ).loc main_arg2)
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)
  a8 : W (Proc.devRef .tc main_arg8) = m ((c.tc : Thread nD τ).loc main_arg8)
  a9 : W (Proc.devRef .tc main_arg9) = m ((c.tc : Thread nD τ).loc main_arg9)
  a10 : W (Proc.devRef .tc main_arg10) = m ((c.tc : Thread nD τ).loc main_arg10)
  a11 : W (Proc.devRef .tc main_arg11) = m ((c.tc : Thread nD τ).loc main_arg11)

variable {m c}
variable {s d : (⟨S3300000, .i32⟩ : BufTy).Contents (Elt Ideal)} {n : (⟨S3300000, .f32⟩ : BufTy).Contents (Elt Ideal)}

/-- A stretch of host operations that writes none of the carried buffers keeps them. -/
theorem Kept.host {W : Valuation τ sig (Elt Ideal)} (h : Kept m c s d n W) (ops : List (HloOp τ sig (Elt Ideal))) (w : List (Ref sig .tc))
    (hw : ops.Forall fun op => op.writes ⊆ (w.map (Proc.devRef (τ := τ) .tc)).toFinset) (hfree : ∀ r ∈ carried, r ∉ w) :
    Kept m c s d n (StableHlo.after ops W) where
  src := (StableHlo.after_of_writes_sub ops W hw (hfree main_v3 (by decide))).trans h.src
  dst := (StableHlo.after_of_writes_sub ops W hw (hfree main_v6 (by decide))).trans h.dst
  norm := (StableHlo.after_of_writes_sub ops W hw (hfree main_v31 (by decide))).trans h.norm
  a0 := (StableHlo.after_of_writes_sub ops W hw (hfree main_arg0 (by decide))).trans h.a0
  a1 := (StableHlo.after_of_writes_sub ops W hw (hfree main_arg1 (by decide))).trans h.a1
  a2 := (StableHlo.after_of_writes_sub ops W hw (hfree main_arg2 (by decide))).trans h.a2
  a3 := (StableHlo.after_of_writes_sub ops W hw (hfree main_arg3 (by decide))).trans h.a3
  a4 := (StableHlo.after_of_writes_sub ops W hw (hfree main_arg4 (by decide))).trans h.a4
  a5 := (StableHlo.after_of_writes_sub ops W hw (hfree main_arg5 (by decide))).trans h.a5
  a6 := (StableHlo.after_of_writes_sub ops W hw (hfree main_arg6 (by decide))).trans h.a6
  a7 := (StableHlo.after_of_writes_sub ops W hw (hfree main_arg7 (by decide))).trans h.a7
  a8 := (StableHlo.after_of_writes_sub ops W hw (hfree main_arg8 (by decide))).trans h.a8
  a9 := (StableHlo.after_of_writes_sub ops W hw (hfree main_arg9 (by decide))).trans h.a9
  a10 := (StableHlo.after_of_writes_sub ops W hw (hfree main_arg10 (by decide))).trans h.a10
  a11 := (StableHlo.after_of_writes_sub ops W hw (hfree main_arg11 (by decide))).trans h.a11

theorem Kept.host1 {W : Valuation τ sig (Elt Ideal)} (h : Kept m c s d n W) : Kept m c s d n (StableHlo.after hostOps1 W) :=
  h.host hostOps1 written1 writes_sub1 (by decide)

theorem Kept.host2 {W : Valuation τ sig (Elt Ideal)} (h : Kept m c s d n W) : Kept m c s d n (StableHlo.after hostOps2 W) :=
  h.host hostOps2 written2 writes_sub2 (by decide)

theorem Kept.host3 {W : Valuation τ sig (Elt Ideal)} (h : Kept m c s d n W) : Kept m c s d n (StableHlo.after hostOps3 W) :=
  h.host hostOps3 written3 writes_sub3 (by decide)

theorem Kept.host4 {W : Valuation τ sig (Elt Ideal)} (h : Kept m c s d n W) : Kept m c s d n (StableHlo.after hostOps4 W) :=
  h.host hostOps4 written4 writes_sub4 (by decide)

theorem Kept.host5 {W : Valuation τ sig (Elt Ideal)} (h : Kept m c s d n W) : Kept m c s d n (StableHlo.after hostOps5 W) :=
  h.host hostOps5 written5 writes_sub5 (by decide)

/-- Region 0 writes its output array only; its input arrays end as entered. -/
theorem Kept.region0 (h : Kept m c s d n (W3 m ρ c)) : Kept m c s d n (W4 m ρ c) where
  src := (W4_of_ne m ρ c main_v3 (by decide)).trans h.src
  dst := (W4_of_ne m ρ c main_v6 (by decide)).trans h.dst
  norm := (W4_of_ne m ρ c main_v31 (by decide)).trans h.norm
  a0 := ((W4_arr m ρ c 0).trans (((dat0 (V3 m ρ) c).arrAt_in 0 rfl _).trans (A_eq0 (V3 m ρ) c 0))).trans h.a0
  a1 := (W4_of_ne m ρ c main_arg1 (by decide)).trans h.a1
  a2 := ((W4_arr m ρ c 2).trans (((dat0 (V3 m ρ) c).arrAt_in 2 rfl _).trans (A_eq0 (V3 m ρ) c 2))).trans h.a2
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a7 := (W4_of_ne m ρ c main_arg7 (by decide)).trans h.a7
  a8 := (W4_of_ne m ρ c main_arg8 (by decide)).trans h.a8
  a9 := (W4_of_ne m ρ c main_arg9 (by decide)).trans h.a9
  a10 := (W4_of_ne m ρ c main_arg10 (by decide)).trans h.a10
  a11 := (W4_of_ne m ρ c main_arg11 (by decide)).trans h.a11

/-- Region 1 writes its output array only; its input arrays end as entered. -/
theorem Kept.region1 (h : Kept m c s d n (W5 m ρ c)) : Kept m c s d n (W6 m ρ c) where
  src := (W6_of_ne m ρ c main_v3 (by decide)).trans h.src
  dst := (W6_of_ne m ρ c main_v6 (by decide)).trans h.dst
  norm := (W6_of_ne m ρ c main_v31 (by decide)).trans h.norm
  a0 := (W6_of_ne m ρ c main_arg0 (by decide)).trans h.a0
  a1 := (W6_of_ne m ρ c main_arg1 (by decide)).trans h.a1
  a2 := (W6_of_ne m ρ c main_arg2 (by decide)).trans h.a2
  a3 := (W6_of_ne m ρ c main_arg3 (by decide)).trans h.a3
  a4 := ((W6_arr m ρ c 2).trans (((dat1 (V5 m ρ) c).arrAt_in 2 rfl _).trans (A_eq1 (V5 m ρ) c 2))).trans h.a4
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  a9 := (W6_of_ne m ρ c main_arg9 (by decide)).trans h.a9
  a10 := (W6_of_ne m ρ c main_arg10 (by decide)).trans h.a10
  a11 := (W6_of_ne m ρ c main_arg11 (by decide)).trans h.a11

/-- Region 2 writes its output array only; its input arrays end as entered. -/
theorem Kept.region2 (h : Kept m c s d n (W7 m ρ c)) : Kept m c s d n (W8 m ρ c) where
  src := (W8_of_ne m ρ c main_v3 (by decide)).trans h.src
  dst := (W8_of_ne m ρ c main_v6 (by decide)).trans h.dst
  norm := (W8_of_ne m ρ c main_v31 (by decide)).trans h.norm
  a0 := (W8_of_ne m ρ c main_arg0 (by decide)).trans h.a0
  a1 := (W8_of_ne m ρ c main_arg1 (by decide)).trans h.a1
  a2 := (W8_of_ne m ρ c main_arg2 (by decide)).trans h.a2
  a3 := (W8_of_ne m ρ c main_arg3 (by decide)).trans h.a3
  a4 := (W8_of_ne m ρ c main_arg4 (by decide)).trans h.a4
  a5 := (W8_of_ne m ρ c main_arg5 (by decide)).trans h.a5
  a6 := ((W8_arr m ρ c 2).trans (((dat2 (V7 m ρ) c).arrAt_in 2 rfl _).trans (A_eq2 (V7 m ρ) c 2))).trans h.a6
  a7 := (W8_of_ne m ρ c main_arg7 (by decide)).trans h.a7
  a8 := (W8_of_ne m ρ c main_arg8 (by decide)).trans h.a8
  a9 := (W8_of_ne m ρ c main_arg9 (by decide)).trans h.a9
  a10 := (W8_of_ne m ρ c main_arg10 (by decide)).trans h.a10
  a11 := (W8_of_ne m ρ c main_arg11 (by decide)).trans h.a11

/-- Region 3 writes its output array only; its input arrays end as entered. -/
theorem Kept.region3 (h : Kept m c s d n (W9 m ρ c)) : Kept m c s d n (W10 m ρ c) where
  src := (W10_of_ne m ρ c main_v3 (by decide)).trans h.src
  dst := (W10_of_ne m ρ c main_v6 (by decide)).trans h.dst
  norm := (W10_of_ne m ρ c main_v31 (by decide)).trans h.norm
  a0 := (W10_of_ne m ρ c main_arg0 (by decide)).trans h.a0
  a1 := (W10_of_ne m ρ c main_arg1 (by decide)).trans h.a1
  a2 := (W10_of_ne m ρ c main_arg2 (by decide)).trans h.a2
  a3 := (W10_of_ne m ρ c main_arg3 (by decide)).trans h.a3
  a4 := (W10_of_ne m ρ c main_arg4 (by decide)).trans h.a4
  a5 := (W10_of_ne m ρ c main_arg5 (by decide)).trans h.a5
  a6 := (W10_of_ne m ρ c main_arg6 (by decide)).trans h.a6
  a7 := (W10_of_ne m ρ c main_arg7 (by decide)).trans h.a7
  a8 := ((W10_arr m ρ c 2).trans (((dat3 (V9 m ρ) c).arrAt_in 2 rfl _).trans (A_eq3 (V9 m ρ) c 2))).trans h.a8
  a9 := (W10_of_ne m ρ c main_arg9 (by decide)).trans h.a9
  a10 := (W10_of_ne m ρ c main_arg10 (by decide)).trans h.a10
  a11 := (W10_of_ne m ρ c main_arg11 (by decide)).trans h.a11

/-- Region 4 writes its output array only; its input arrays end as entered. -/
theorem Kept.region4 (h : Kept m c s d n (W11 m ρ c)) : Kept m c s d n (W12 m ρ c) where
  src := (W12_of_ne m ρ c main_v3 (by decide)).trans h.src
  dst := (W12_of_ne m ρ c main_v6 (by decide)).trans h.dst
  norm := (W12_of_ne m ρ c main_v31 (by decide)).trans h.norm
  a0 := (W12_of_ne m ρ c main_arg0 (by decide)).trans h.a0
  a1 := (W12_of_ne m ρ c main_arg1 (by decide)).trans h.a1
  a2 := (W12_of_ne m ρ c main_arg2 (by decide)).trans h.a2
  a3 := (W12_of_ne m ρ c main_arg3 (by decide)).trans h.a3
  a4 := (W12_of_ne m ρ c main_arg4 (by decide)).trans h.a4
  a5 := (W12_of_ne m ρ c main_arg5 (by decide)).trans h.a5
  a6 := (W12_of_ne m ρ c main_arg6 (by decide)).trans h.a6
  a7 := (W12_of_ne m ρ c main_arg7 (by decide)).trans h.a7
  a8 := (W12_of_ne m ρ c main_arg8 (by decide)).trans h.a8
  a9 := (W12_of_ne m ρ c main_arg9 (by decide)).trans h.a9
  a10 := ((W12_arr m ρ c 2).trans (((dat4 (V11 m ρ) c).arrAt_in 2 rfl _).trans (A_eq4 (V11 m ρ) c 2))).trans h.a10
  a11 := (W12_of_ne m ρ c main_arg11 (by decide)).trans h.a11

end Cert.KernelIdeal.Chain

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«153102_j63814624084747_1_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.LibLinearEntry.lean ====
/-
  A biased, rectified linear layer read at one entry.

  Two spellings of one layer: a block of rows computed on the matrix unit (the operands narrowed to bf16, a product into a
  zero accumulator) and the whole array computed by a plain host product. At the extended reals a change of format is the
  identity, so both read, at entry (p, q), the sum over the contracted coordinate k of
  max (x (p, k) + b (0, k)) 0 · w (k, q); without the rectifier, of (x (p, k) + b (0, k)) · w (k, q).
  The last lemmas compare a block with the whole array: when row p of the block is row P of the array and the
  bias row and the weights are the array's, entry (p, q) of the block is entry (P, q) of the array.
-/
import Idealize.ShloMosaic.PureOps.Ideal
import Idealize.ShloMosaic.PureOps.Ideal.Laws
import Idealize.ShloMosaic.Lib.ValueIdx
import Idealize.ShloMosaic.Lib.Pipeline.Value
import proofs.«153102_j63814624084747_1_alg».proof.Proof.LibPlainDot

noncomputable section

open scoped BigOperators

namespace Cert.LinearEntry

open Idealize.ShloMosaic Idealize.ShloMosaic.ValueIdx Cert.LibPlainDot

variable {n N K M : Nat}

/-- A bias row broadcast down the rows, read at (p, k), is the row's entry k. -/
theorem biasRow_apply (b : (⟨2, ![1, K]⟩ : Shape).Idx → EReal)
    (hbc : (⟨2, ![1, K]⟩ : Shape).Broadcasts ⟨2, ![n, K]⟩) (p : Fin n) (k : Fin K) :
    broadcastTo ⟨2, ![n, K]⟩ b hbc (ix2 p k) = b (ix2 0 k) :=
  broadcastTo_apply b hbc (ix2 p k) (ix2 0 k) (fun a => by
    match a with
    | ⟨0, _⟩ => rfl
    | ⟨1, _⟩ =>
      show k.val = if K = 1 then 0 else k.val
      have hk : k.val < K := k.isLt
      split_ifs with e
      · omega
      · rfl)

/-- The host's broadcast of the bias row along axis 0, read at (P, k), is the row's entry k. -/
theorem biasRowHost_apply (B : (⟨2, ![1, K]⟩ : Shape).Idx → EReal)
    (hb : (⟨2, ![1, K]⟩ : Shape).BroadcastsInDim ⟨2, ![N, K]⟩ ![0, 1]) (P : Fin N) (k : Fin K) :
    broadcastInDim ⟨2, ![N, K]⟩ ![0, 1] hb B (ix2 P k) = B (ix2 0 k) :=
  broadcastInDim_apply ![0, 1] hb B (ix2 P k) (ix2 0 k) (fun a => by
    match a with
    | ⟨0, _⟩ => rfl
    | ⟨1, _⟩ =>
      show k.val = if K = 1 then 0 else k.val
      have hk : k.val < K := k.isLt
      split_ifs with e
      · omega
      · rfl)

/-- A block of the rectified layer on the matrix unit, at entry (p, q). -/
theorem blockRelu_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = ∑ k : Fin K, max (x (ix2 p k) + b (ix2 0 k)) 0 * w (ix2 k q) := by
  refine (matmul_zero_apply h none _ _ p q).trans ?_
  refine Finset.sum_congr rfl fun k _ => ?_
  rw [truncf_apply, truncf_apply, maximumf_apply, addf_apply, broadcast_apply, shapeCast_self, shapeCast_self,
    biasRow_apply b hbc p k]
  show max _ (Ideal.ofBits .f32 0x00000000#32) * _ = _
  rw [Ideal.ofBits_zero_f32]

/-- A block of the layer without a rectifier on the matrix unit, at entry (p, q). -/
theorem blockLinear_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = ∑ k : Fin K, (x (ix2 p k) + b (ix2 0 k)) * w (ix2 k q) := by
  refine (matmul_zero_apply h none _ _ p q).trans ?_
  refine Finset.sum_congr rfl fun k _ => ?_
  rw [truncf_apply, truncf_apply, addf_apply, shapeCast_self, biasRow_apply b hbc p k]

/-- The host's rectified layer, at entry (P, q). -/
theorem hostRelu_apply (D : DotDims ⟨2, ![N, K]⟩ ⟨2, ![K, M]⟩ ⟨2, ![N, M]⟩) (h : Plain D)
    (X : FVec Ideal ⟨2, ![N, K]⟩ .f32) (B : FVec Ideal ⟨2, ![1, K]⟩ .f32) (W : FVec Ideal ⟨2, ![K, M]⟩ .f32)
    (hb : (⟨2, ![1, K]⟩ : Shape).BroadcastsInDim ⟨2, ![N, K]⟩ ![0, 1])
    (hz : (⟨0, ![]⟩ : Shape).BroadcastsInDim ⟨2, ![N, K]⟩ ![]) (P : Fin N) (q : Fin M) :
    Host.dotGeneral (F := Ideal) D none
        (maximumf (addf X (broadcastInDim ⟨2, ![N, K]⟩ ![0, 1] hb B))
          (broadcastInDim ⟨2, ![N, K]⟩ ![] hz (constant (F := Ideal) ⟨0, ![]⟩ .f32 0x00000000#32)))
        W (ix2 P q)
      = ∑ k : Fin K, max (X (ix2 P k) + B (ix2 0 k)) 0 * W (ix2 k q) := by
  refine (hostDot_apply h none _ _ P q).trans ?_
  refine Finset.sum_congr rfl fun k _ => ?_
  rw [maximumf_apply, addf_apply, biasRowHost_apply B hb P k]
  show max _ (Ideal.ofBits .f32 0x00000000#32) * _ = _
  rw [Ideal.ofBits_zero_f32]

/-- Block against array, rectified: when row p of the block `x` is row P of the array `X`, and the block's bias row and
    column q of its weights are the array's, entry (p, q) of the block of the layer is entry (P, q) of the host's layer of
    the whole array. -/
theorem blockRelu_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (B : FVec Ideal ⟨2, ![1, K]⟩ .f32) (W : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (hbi : (⟨2, ![1, K]⟩ : Shape).BroadcastsInDim ⟨2, ![N, K]⟩ ![0, 1])
    (hz : (⟨0, ![]⟩ : Shape).BroadcastsInDim ⟨2, ![N, K]⟩ ![])
    (p : Fin n) (P : Fin N) (q : Fin M) (hrow : ∀ k : Fin K, x (ix2 p k) = X (ix2 P k))
    (hbias : ∀ k : Fin K, b (ix2 0 k) = B (ix2 0 k)) (hcol : ∀ k : Fin K, w (ix2 k q) = W (ix2 k q)) :
    matmul Dk none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = Host.dotGeneral (F := Ideal) Dh none
        (maximumf (addf X (broadcastInDim ⟨2, ![N, K]⟩ ![0, 1] hbi B))
          (broadcastInDim ⟨2, ![N, K]⟩ ![] hz (constant (F := Ideal) ⟨0, ![]⟩ .f32 0x00000000#32)))
        W (ix2 P q) := by
  rw [blockRelu_apply Dk hk x b w hx hb hbc ht p q, hostRelu_apply Dh hh X B W hbi hz P q]
  exact Finset.sum_congr rfl fun k _ => by rw [hrow k, hbias k, hcol k]

/-- Block against array, no rectifier and a zero bias row: entry (p, q) of the block of the layer is entry (P, q) of the
    host's plain product of the whole array. -/
theorem blockLinear_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (W : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (p : Fin n) (P : Fin N) (q : Fin M) (hrow : ∀ k : Fin K, x (ix2 p k) = X (ix2 P k))
    (hzero : ∀ k : Fin K, b (ix2 0 k) = 0) (hcol : ∀ k : Fin K, w (ix2 k q) = W (ix2 k q)) :
    matmul Dk none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = Host.dotGeneral (F := Ideal) Dh none X W (ix2 P q) := by
  rw [blockLinear_apply Dk hk x b w hb hbc ht p q, hostDot_apply hh none X W P q]
  exact Finset.sum_congr rfl fun k _ => by rw [hrow k, hzero k, add_zero, hcol k]

end Cert.LinearEntry

end
-- ==== Proof.Region0.lean ====
/-
  Region 0: the first layer's output array.

  The region's pipeline visits 50 points; point t fetches rows 2000·t … 2000·t + 1999 of the input array, the whole bias
  row and the whole weight matrix, and writes back the same rows of the output array. What the body leaves at a point is
  the product, on the matrix unit, of its input block plus the bias row with the weights, and the bias row is zero, so entry (y, q) of the block written at t is entry (2000·t + y, q) of
  the host's plain product of the whole arrays; the 50 blocks cover the output
  array, which therefore ends holding that array.
-/
import proofs.«153102_j63814624084747_1_alg».proof.Proof.Gen.KernelIdeal.Frame
import proofs.«153102_j63814624084747_1_alg».proof.Proof.Gen.ReferenceIdeal
import Idealize.ShloMosaic.PureOps.Ideal
import Idealize.ShloMosaic.Lib.Pipeline.Value
import proofs.«153102_j63814624084747_1_alg».proof.Proof.LibLinearEntry

noncomputable section

namespace Cert.KernelIdeal.RegionValue

open Idealize.ShloMosaic Idealize.ShloMosaic.TcCoe Idealize.SL.Sem Cert.KernelIdeal Cert.KernelIdeal.Gen
open Cert.KernelIdeal.Facts₀ Cert.KernelIdeal.Facts
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeroOffsets0 : (![0, 0] : Fin 2 → Nat) = fun _ => 0 := funext fun a => by fin_cases a <;> rfl

/-- The block product's and the host product's dimension numbers are plain. -/
theorem plainBlock0 : Cert.LibPlainDot.Plain dot_S2000x512_S512x64_S2000x64_1_0_0_1_n_n := ⟨rfl, rfl, rfl, rfl, rfl, rfl⟩
theorem plainHost0 : Cert.LibPlainDot.Plain Cert.ReferenceIdeal.dot_S100000x512_S512x64_S100000x64_1_0_0_1_n_n := ⟨rfl, rfl, rfl, rfl, rfl, rfl⟩

/-- The host's layer of the whole arrays. -/
def layer0 (X : FVec Ideal S100000x512 .f32) (B : FVec Ideal S1x512 .f32) (W : FVec Ideal S512x64 .f32) : FVec Ideal S100000x64 .f32 :=
  Host.dotGeneral (F := Ideal) (φ₁ := .f32) (φ₂ := .f32) Cert.ReferenceIdeal.dot_S100000x512_S512x64_S100000x64_1_0_0_1_n_n none X W

/-- Entry (p, q) of the block the body computes is entry (P, q) of the host's layer, when row p of the block is row P of the
    array and the block's bias row and weights are the array's. -/
theorem pay0_apply (x : Vec Ideal S2000x512 .f32) (b : Vec Ideal S1x512 .f32) (w : Vec Ideal S512x64 .f32)
    (X : FVec Ideal S100000x512 .f32) (B : FVec Ideal S1x512 .f32) (W : FVec Ideal S512x64 .f32)
    (p : Fin 2000) (P : Fin 100000) (q : Fin 64) (hrow : ∀ k : Fin 512, x (ix2 p k) = X (ix2 P k))
    (hzero : ∀ k : Fin 512, b (ix2 0 k) = 0) (hcol : ∀ k : Fin 512, w (ix2 k q) = W (ix2 k q)) :
    k0_pay1 x b w (ix2 p q) = layer0 X B W (ix2 P q) := by
  unfold k0_pay1 layer0
  exact Cert.LinearEntry.blockLinear_eq_host _ plainBlock0 _ plainHost0 x b w X W _ _ _ p P q hrow hzero hcol

/-- The printed index maps, decided over the grid: the input and the output move together down the rows, at block index
    the point's number; the bias row and the weights stay. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the host's layer of the arrays as the region finds them. -/
theorem flushed0_eq (c : Dev nD) (t : Fin cfg0.N) (hz : ∀ j, (V c main_v33 : FVec Ideal S1x512 .f32) j = (0 : EReal)) :
    (dat0 (F := Ideal) V c).flushed 3 t
      = ((cfg0.win 3).blk t).view.read (Elt Ideal) (layer0 (V c main_arg0) (V c main_v33) (V c main_arg2)) := by
  show (cfg0.win 3).cut (grid0.coords t) ((dat0 (F := Ideal) V c).after 3 t) = _
  rw [after0_3]
  unfold out0_3
  rw [View.canon_unit_zero zeroOffsets0]
  simp only [View.ld_unit_zero (S := S2000x512) zeroOffsets0, View.ld_unit_zero (S := S1x512) zeroOffsets0,
    View.ld_unit_zero (S := S512x64) zeroOffsets0]
  obtain ⟨e0, e1, e2, e3, e4, e5, e6, e7⟩ := blockIndex0 t
  have ht : t.val < 50 := t.isLt
  funext j
  have hj0 : (j 0).val < 2000 := (j 0).isLt
  have hj1 : (j 1).val < 64 := (j 1).isLt
  show k0_pay1 (iblk0 V c 0 t) (iblk0 V c 1 t) (iblk0 V c 2 t) (j : S2000x64.Idx)
    = layer0 (V c main_arg0) (V c main_v33) (V c main_arg2) (((cfg0.win 3).blk t).view.emb j)
  have ej : (j : S2000x64.Idx) = ix2 (⟨(j 0).val, hj0⟩ : Fin 2000) (⟨(j 1).val, hj1⟩ : Fin 64) := by
    funext a
    match a with
    | ⟨0, _⟩ => rfl
    | ⟨1, _⟩ => rfl
  have ei : ((cfg0.win 3).blk t).view.emb j
      = ix2 (⟨t.val * 2000 + (j 0).val, by omega⟩ : Fin 100000) (⟨(j 1).val, hj1⟩ : Fin 64) := by
    funext a; apply Fin.ext
    match a with
    | ⟨0, _⟩ => show win0_3.index t (0 : Fin 2) * 2000 + 1 * (j 0).val = t.val * 2000 + (j 0).val; omega
    | ⟨1, _⟩ => show win0_3.index t (1 : Fin 2) * 64 + 1 * (j 1).val = (j 1).val; omega
  refine (congrArg (k0_pay1 (iblk0 V c 0 t) (iblk0 V c 1 t) (iblk0 V c 2 t)) ej).trans ?_
  refine Eq.trans ?_ (congrArg (layer0 (V c main_arg0) (V c main_v33) (V c main_arg2)) ei.symm)
  refine pay0_apply (iblk0 V c 0 t) (iblk0 V c 1 t) (iblk0 V c 2 t) (V c main_arg0) (V c main_v33) (V c main_arg2) _ _ _ (fun k => ?_) (fun k => ?_) (fun k => ?_)
  · have hk : k.val < 512 := k.isLt
    show V c main_arg0 (((cfg0.win 0).blk t).view.emb (ix2 (⟨(j 0).val, hj0⟩ : Fin 2000) k)) = _
    refine congrArg (V c main_arg0) (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 512 + 1 * k.val = k.val; omega
  · have hk : k.val < 512 := k.isLt
    show V c main_v33 (((cfg0.win 1).blk t).view.emb (ix2 (0 : Fin 1) k)) = _
    refine Eq.trans ?_ (hz (ix2 (0 : Fin 1) k))
    refine congrArg (V c main_v33) (funext fun a => Fin.ext ?_)
    match a with
    | ⟨0, _⟩ => show win0_1.index t (0 : Fin 2) * 1 + 1 * 0 = 0; omega
    | ⟨1, _⟩ => show win0_1.index t (1 : Fin 2) * 512 + 1 * k.val = k.val; omega
  · have hk : k.val < 512 := k.isLt
    show V c main_arg2 (((cfg0.win 2).blk t).view.emb (ix2 k (⟨(j 1).val, hj1⟩ : Fin 64))) = _
    refine congrArg (V c main_arg2) (funext fun a => Fin.ext ?_)
    match a with
    | ⟨0, _⟩ => show win0_2.index t (0 : Fin 2) * 512 + 1 * k.val = k.val; omega
    | ⟨1, _⟩ => show win0_2.index t (1 : Fin 2) * 64 + 1 * (j 1).val = (j 1).val; omega

/-- An index of the output array is in point t's block iff each coordinate is in the block's range on its axis. -/
theorem mem_block0 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v34).slice (win0_3.rect t)).set ↔ _
  rw [View.set_slice_whole, Rect.mem_set_unit]
  exact Iff.rfl

/-- Row r of the output array is in the block of point r / 2000, which writes back. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 2000 < cfg0.N := by show (i 0).val / 2000 < 50; omega
  obtain ⟨-, -, -, -, -, -, e6, e7⟩ := blockIndex0 ⟨(i 0).val / 2000, hlt⟩
  refine ⟨⟨(i 0).val / 2000, hlt⟩, flush0_3 _, ?_⟩
  rw [mem_block0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    have e6' : win0_3.index ⟨(i 0).val / 2000, hlt⟩ (0 : Fin 2) = (i 0).val / 2000 := e6
    omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    omega

/-- The output array after the region: the host's layer of the arrays as the region finds them. -/
theorem region0 (c : Dev nD) (hz : ∀ j, (V c main_v33 : FVec Ideal S1x512 .f32) j = (0 : EReal)) :
    ((dat0 (F := Ideal) V c).arrAt 3 cfg0.N : FVec Ideal S100000x64 .f32) =
      Host.dotGeneral (F := Ideal) (φ₁ := .f32) (φ₂ := .f32) Cert.ReferenceIdeal.dot_S100000x512_S512x64_S100000x64_1_0_0_1_n_n none (V c main_arg0 : FVec Ideal S100000x512 .f32) (V c main_arg2 : FVec Ideal S512x64 .f32) :=
  (dat0 (F := Ideal) V c).arrAt_eq_of_cover 3 (layer0 (V c main_arg0) (V c main_v33) (V c main_arg2))
    (fun t _ => flushed0_eq V c t hz) (cover0)

end Cert.KernelIdeal.RegionValue

end
-- ==== Proof.Region1.lean ====
/-
  Region 1: the second layer's output array.

  The region's pipeline visits 50 points; point t fetches rows 2000·t … 2000·t + 1999 of the input array, the whole bias
  row and the whole weight matrix, and writes back the same rows of the output array. What the body leaves at a point is
  the rectified, biased product of its input block with the weights on the matrix unit, so entry (y, q) of the block written at t is entry (2000·t + y, q) of
  the host's rectified, biased product of the whole arrays; the 50 blocks cover the output
  array, which therefore ends holding that array.
-/
import proofs.«153102_j63814624084747_1_alg».proof.Proof.Gen.KernelIdeal.Frame
import proofs.«153102_j63814624084747_1_alg».proof.Proof.Gen.ReferenceIdeal
import Idealize.ShloMosaic.PureOps.Ideal
import Idealize.ShloMosaic.Lib.Pipeline.Value
import proofs.«153102_j63814624084747_1_alg».proof.Proof.LibLinearEntry

noncomputable section

namespace Cert.KernelIdeal.RegionValue

open Idealize.ShloMosaic Idealize.ShloMosaic.TcCoe Idealize.SL.Sem Cert.KernelIdeal Cert.KernelIdeal.Gen
open Cert.KernelIdeal.Facts₀ Cert.KernelIdeal.Facts
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeroOffsets1 : (![0, 0] : Fin 2 → Nat) = fun _ => 0 := funext fun a => by fin_cases a <;> rfl

/-- The block product's and the host product's dimension numbers are plain. -/
theorem plainBlock1 : Cert.LibPlainDot.Plain dot_S2000x64_S64x8_S2000x8_1_0_0_1_n_n := ⟨rfl, rfl, rfl, rfl, rfl, rfl⟩
theorem plainHost1 : Cert.LibPlainDot.Plain Cert.ReferenceIdeal.dot_S100000x64_S64x8_S100000x8_1_0_0_1_n_n := ⟨rfl, rfl, rfl, rfl, rfl, rfl⟩

/-- The host's layer of the whole arrays. -/
def layer1 (X : FVec Ideal S100000x64 .f32) (B : FVec Ideal S1x64 .f32) (W : FVec Ideal S64x8 .f32) : FVec Ideal S100000x8 .f32 :=
  Host.dotGeneral (F := Ideal) (φ₁ := .f32) (φ₂ := .f32) Cert.ReferenceIdeal.dot_S100000x64_S64x8_S100000x8_1_0_0_1_n_n none
        (maximumf (addf X (broadcastInDim Cert.ReferenceIdeal.S100000x64 ![0, 1] Cert.ReferenceIdeal.Facts₀.bcast_S1x64_S100000x64_0_1 B))
          (broadcastInDim Cert.ReferenceIdeal.S100000x64 ![] Cert.ReferenceIdeal.Facts₀.bcast_S_S100000x64 (constant (F := Ideal) Cert.ReferenceIdeal.S_ .f32 0x00000000#32)))
        W

/-- Entry (p, q) of the block the body computes is entry (P, q) of the host's layer, when row p of the block is row P of the
    array and the block's bias row and weights are the array's. -/
theorem pay1_apply (x : Vec Ideal S2000x64 .f32) (b : Vec Ideal S1x64 .f32) (w : Vec Ideal S64x8 .f32)
    (X : FVec Ideal S100000x64 .f32) (B : FVec Ideal S1x64 .f32) (W : FVec Ideal S64x8 .f32)
    (p : Fin 2000) (P : Fin 100000) (q : Fin 8) (hrow : ∀ k : Fin 64, x (ix2 p k) = X (ix2 P k))
    (hbias : ∀ k : Fin 64, b (ix2 0 k) = B (ix2 0 k)) (hcol : ∀ k : Fin 64, w (ix2 k q) = W (ix2 k q)) :
    k1_pay1 x b w (ix2 p q) = layer1 X B W (ix2 P q) := by
  unfold k1_pay1 layer1
  exact Cert.LinearEntry.blockRelu_eq_host _ plainBlock1 _ plainHost1 x b w X B W _ _ _ _ _ _ p P q hrow hbias hcol

/-- The printed index maps, decided over the grid: the input and the output move together down the rows, at block index
    the point's number; the bias row and the weights stay. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the host's layer of the arrays as the region finds them. -/
theorem flushed1_eq (c : Dev nD) (t : Fin cfg1.N) :
    (dat1 (F := Ideal) V c).flushed 3 t
      = ((cfg1.win 3).blk t).view.read (Elt Ideal) (layer1 (V c main_v47) (V c main_v48) (V c main_arg4)) := by
  show (cfg1.win 3).cut (grid1.coords t) ((dat1 (F := Ideal) V c).after 3 t) = _
  rw [after1_3]
  unfold out1_3
  rw [View.canon_unit_zero zeroOffsets1]
  simp only [View.ld_unit_zero (S := S2000x64) zeroOffsets1, View.ld_unit_zero (S := S1x64) zeroOffsets1,
    View.ld_unit_zero (S := S64x8) zeroOffsets1]
  obtain ⟨e0, e1, e2, e3, e4, e5, e6, e7⟩ := blockIndex1 t
  have ht : t.val < 50 := t.isLt
  funext j
  have hj0 : (j 0).val < 2000 := (j 0).isLt
  have hj1 : (j 1).val < 8 := (j 1).isLt
  show k1_pay1 (iblk1 V c 0 t) (iblk1 V c 1 t) (iblk1 V c 2 t) (j : S2000x8.Idx)
    = layer1 (V c main_v47) (V c main_v48) (V c main_arg4) (((cfg1.win 3).blk t).view.emb j)
  have ej : (j : S2000x8.Idx) = ix2 (⟨(j 0).val, hj0⟩ : Fin 2000) (⟨(j 1).val, hj1⟩ : Fin 8) := by
    funext a
    match a with
    | ⟨0, _⟩ => rfl
    | ⟨1, _⟩ => rfl
  have ei : ((cfg1.win 3).blk t).view.emb j
      = ix2 (⟨t.val * 2000 + (j 0).val, by omega⟩ : Fin 100000) (⟨(j 1).val, hj1⟩ : Fin 8) := by
    funext a; apply Fin.ext
    match a with
    | ⟨0, _⟩ => show win1_3.index t (0 : Fin 2) * 2000 + 1 * (j 0).val = t.val * 2000 + (j 0).val; omega
    | ⟨1, _⟩ => show win1_3.index t (1 : Fin 2) * 8 + 1 * (j 1).val = (j 1).val; omega
  refine (congrArg (k1_pay1 (iblk1 V c 0 t) (iblk1 V c 1 t) (iblk1 V c 2 t)) ej).trans ?_
  refine Eq.trans ?_ (congrArg (layer1 (V c main_v47) (V c main_v48) (V c main_arg4)) ei.symm)
  refine pay1_apply (iblk1 V c 0 t) (iblk1 V c 1 t) (iblk1 V c 2 t) (V c main_v47) (V c main_v48) (V c main_arg4) _ _ _ (fun k => ?_) (fun k => ?_) (fun k => ?_)
  · have hk : k.val < 64 := k.isLt
    show V c main_v47 (((cfg1.win 0).blk t).view.emb (ix2 (⟨(j 0).val, hj0⟩ : Fin 2000) k)) = _
    refine congrArg (V c main_v47) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 64 + 1 * k.val = k.val; omega
  · have hk : k.val < 64 := k.isLt
    show V c main_v48 (((cfg1.win 1).blk t).view.emb (ix2 (0 : Fin 1) k)) = _
    refine congrArg (V c main_v48) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · have hk : k.val < 64 := k.isLt
    show V c main_arg4 (((cfg1.win 2).blk t).view.emb (ix2 k (⟨(j 1).val, hj1⟩ : Fin 8))) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 8 + 1 * (j 1).val = (j 1).val; omega

/-- An index of the output array is in point t's block iff each coordinate is in the block's range on its axis. -/
theorem mem_block1 (t : Fin cfg1.N) (i : S100000x8.Idx) :
    i ∈ ((cfg1.win 3).blk t).view.set ↔ ∀ a : Fin 2, win1_3.index t a * S2000x8.size a ≤ (i a).val
      ∧ (i a).val < win1_3.index t a * S2000x8.size a + S2000x8.size a := by
  show i ∈ ((View.whole main_v49).slice (win1_3.rect t)).set ↔ _
  rw [View.set_slice_whole, Rect.mem_set_unit]
  exact Iff.rfl

/-- Row r of the output array is in the block of point r / 2000, which writes back. -/
theorem cover1 (i : S100000x8.Idx) :
    ∃ t : Fin cfg1.N, (cfg1.win 3).flush t = true ∧ i ∈ ((cfg1.win 3).blk t).view.set := by
  have hi0 : (i 0).val < 100000 := (i 0).isLt
  have hi1 : (i 1).val < 8 := (i 1).isLt
  have hlt : (i 0).val / 2000 < cfg1.N := by show (i 0).val / 2000 < 50; omega
  obtain ⟨-, -, -, -, -, -, e6, e7⟩ := blockIndex1 ⟨(i 0).val / 2000, hlt⟩
  refine ⟨⟨(i 0).val / 2000, hlt⟩, flush1_3 _, ?_⟩
  rw [mem_block1]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    have e6' : win1_3.index ⟨(i 0).val / 2000, hlt⟩ (0 : Fin 2) = (i 0).val / 2000 := e6
    omega
  | ⟨1, _⟩ =>
    show win1_3.index ⟨(i 0).val / 2000, hlt⟩ (1 : Fin 2) * 8 ≤ (i 1).val
      ∧ (i 1).val < win1_3.index ⟨(i 0).val / 2000, hlt⟩ (1 : Fin 2) * 8 + 8
    omega

/-- The output array after the region: the host's layer of the arrays as the region finds them. -/
theorem region1 (c : Dev nD) :
    ((dat1 (F := Ideal) V c).arrAt 3 cfg1.N : FVec Ideal S100000x8 .f32) =
      Host.dotGeneral (F := Ideal) (φ₁ := .f32) (φ₂ := .f32) Cert.ReferenceIdeal.dot_S100000x64_S64x8_S100000x8_1_0_0_1_n_n none
        (maximumf (addf (V c main_v47 : FVec Ideal S100000x64 .f32) (broadcastInDim Cert.ReferenceIdeal.S100000x64 ![0, 1] Cert.ReferenceIdeal.Facts₀.bcast_S1x64_S100000x64_0_1 (V c main_v48 : FVec Ideal S1x64 .f32)))
          (broadcastInDim Cert.ReferenceIdeal.S100000x64 ![] Cert.ReferenceIdeal.Facts₀.bcast_S_S100000x64 (constant (F := Ideal) Cert.ReferenceIdeal.S_ .f32 0x00000000#32)))
        (V c main_arg4 : FVec Ideal S64x8 .f32) :=
  (dat1 (F := Ideal) V c).arrAt_eq_of_cover 3 (layer1 (V c main_v47) (V c main_v48) (V c main_arg4))
    (fun t _ => flushed1_eq V c t) (cover1)

end Cert.KernelIdeal.RegionValue

end
-- ==== Proof.Region2.lean ====
/-
  Region 2: the third layer's output array.

  The region's pipeline visits 50 points; point t fetches rows 2000·t … 2000·t + 1999 of the input array, the whole bias
  row and the whole weight matrix, and writes back the same rows of the output array. What the body leaves at a point is
  the rectified, biased product of its input block with the weights on the matrix unit, so entry (y, q) of the block written at t is entry (2000·t + y, q) of
  the host's rectified, biased product of the whole arrays; the 50 blocks cover the output
  array, which therefore ends holding that array.
-/
import proofs.«153102_j63814624084747_1_alg».proof.Proof.Gen.KernelIdeal.Frame
import proofs.«153102_j63814624084747_1_alg».proof.Proof.Gen.ReferenceIdeal
import Idealize.ShloMosaic.PureOps.Ideal
import Idealize.ShloMosaic.Lib.Pipeline.Value
import proofs.«153102_j63814624084747_1_alg».proof.Proof.LibLinearEntry

noncomputable section

namespace Cert.KernelIdeal.RegionValue

open Idealize.ShloMosaic Idealize.ShloMosaic.TcCoe Idealize.SL.Sem Cert.KernelIdeal Cert.KernelIdeal.Gen
open Cert.KernelIdeal.Facts₀ Cert.KernelIdeal.Facts
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeroOffsets2 : (![0, 0] : Fin 2 → Nat) = fun _ => 0 := funext fun a => by fin_cases a <;> rfl

/-- The block product's and the host product's dimension numbers are plain. -/
theorem plainBlock2 : Cert.LibPlainDot.Plain dot_S2000x8_S8x4_S2000x4_1_0_0_1_n_n := ⟨rfl, rfl, rfl, rfl, rfl, rfl⟩
theorem plainHost2 : Cert.LibPlainDot.Plain Cert.ReferenceIdeal.dot_S100000x8_S8x4_S100000x4_1_0_0_1_n_n := ⟨rfl, rfl, rfl, rfl, rfl, rfl⟩

/-- The host's layer of the whole arrays. -/
def layer2 (X : FVec Ideal S100000x8 .f32) (B : FVec Ideal S1x8 .f32) (W : FVec Ideal S8x4 .f32) : FVec Ideal S100000x4 .f32 :=
  Host.dotGeneral (F := Ideal) (φ₁ := .f32) (φ₂ := .f32) Cert.ReferenceIdeal.dot_S100000x8_S8x4_S100000x4_1_0_0_1_n_n none
        (maximumf (addf X (broadcastInDim Cert.ReferenceIdeal.S100000x8 ![0, 1] Cert.ReferenceIdeal.Facts₀.bcast_S1x8_S100000x8_0_1 B))
          (broadcastInDim Cert.ReferenceIdeal.S100000x8 ![] Cert.ReferenceIdeal.Facts₀.bcast_S_S100000x8 (constant (F := Ideal) Cert.ReferenceIdeal.S_ .f32 0x00000000#32)))
        W

/-- Entry (p, q) of the block the body computes is entry (P, q) of the host's layer, when row p of the block is row P of the
    array and the block's bias row and weights are the array's. -/
theorem pay2_apply (x : Vec Ideal S2000x8 .f32) (b : Vec Ideal S1x8 .f32) (w : Vec Ideal S8x4 .f32)
    (X : FVec Ideal S100000x8 .f32) (B : FVec Ideal S1x8 .f32) (W : FVec Ideal S8x4 .f32)
    (p : Fin 2000) (P : Fin 100000) (q : Fin 4) (hrow : ∀ k : Fin 8, x (ix2 p k) = X (ix2 P k))
    (hbias : ∀ k : Fin 8, b (ix2 0 k) = B (ix2 0 k)) (hcol : ∀ k : Fin 8, w (ix2 k q) = W (ix2 k q)) :
    k2_pay1 x b w (ix2 p q) = layer2 X B W (ix2 P q) := by
  unfold k2_pay1 layer2
  exact Cert.LinearEntry.blockRelu_eq_host _ plainBlock2 _ plainHost2 x b w X B W _ _ _ _ _ _ p P q hrow hbias hcol

/-- The printed index maps, decided over the grid: the input and the output move together down the rows, at block index
    the point's number; the bias row and the weights stay. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the host's layer of the arrays as the region finds them. -/
theorem flushed2_eq (c : Dev nD) (t : Fin cfg2.N) :
    (dat2 (F := Ideal) V c).flushed 3 t
      = ((cfg2.win 3).blk t).view.read (Elt Ideal) (layer2 (V c main_v62) (V c main_v63) (V c main_arg6)) := by
  show (cfg2.win 3).cut (grid2.coords t) ((dat2 (F := Ideal) V c).after 3 t) = _
  rw [after2_3]
  unfold out2_3
  rw [View.canon_unit_zero zeroOffsets2]
  simp only [View.ld_unit_zero (S := S2000x8) zeroOffsets2, View.ld_unit_zero (S := S1x8) zeroOffsets2,
    View.ld_unit_zero (S := S8x4) zeroOffsets2]
  obtain ⟨e0, e1, e2, e3, e4, e5, e6, e7⟩ := blockIndex2 t
  have ht : t.val < 50 := t.isLt
  funext j
  have hj0 : (j 0).val < 2000 := (j 0).isLt
  have hj1 : (j 1).val < 4 := (j 1).isLt
  show k2_pay1 (iblk2 V c 0 t) (iblk2 V c 1 t) (iblk2 V c 2 t) (j : S2000x4.Idx)
    = layer2 (V c main_v62) (V c main_v63) (V c main_arg6) (((cfg2.win 3).blk t).view.emb j)
  have ej : (j : S2000x4.Idx) = ix2 (⟨(j 0).val, hj0⟩ : Fin 2000) (⟨(j 1).val, hj1⟩ : Fin 4) := by
    funext a
    match a with
    | ⟨0, _⟩ => rfl
    | ⟨1, _⟩ => rfl
  have ei : ((cfg2.win 3).blk t).view.emb j
      = ix2 (⟨t.val * 2000 + (j 0).val, by omega⟩ : Fin 100000) (⟨(j 1).val, hj1⟩ : Fin 4) := by
    funext a; apply Fin.ext
    match a with
    | ⟨0, _⟩ => show win2_3.index t (0 : Fin 2) * 2000 + 1 * (j 0).val = t.val * 2000 + (j 0).val; omega
    | ⟨1, _⟩ => show win2_3.index t (1 : Fin 2) * 4 + 1 * (j 1).val = (j 1).val; omega
  refine (congrArg (k2_pay1 (iblk2 V c 0 t) (iblk2 V c 1 t) (iblk2 V c 2 t)) ej).trans ?_
  refine Eq.trans ?_ (congrArg (layer2 (V c main_v62) (V c main_v63) (V c main_arg6)) ei.symm)
  refine pay2_apply (iblk2 V c 0 t) (iblk2 V c 1 t) (iblk2 V c 2 t) (V c main_v62) (V c main_v63) (V c main_arg6) _ _ _ (fun k => ?_) (fun k => ?_) (fun k => ?_)
  · have hk : k.val < 8 := k.isLt
    show V c main_v62 (((cfg2.win 0).blk t).view.emb (ix2 (⟨(j 0).val, hj0⟩ : Fin 2000) k)) = _
    refine congrArg (V c main_v62) (funext fun a => Fin.ext ?_)
    match a with
    | ⟨0, _⟩ => show win2_0.index t (0 : Fin 2) * 2000 + 1 * (j 0).val = t.val * 2000 + (j 0).val; omega
    | ⟨1, _⟩ => show win2_0.index t (1 : Fin 2) * 8 + 1 * k.val = k.val; omega
  · have hk : k.val < 8 := k.isLt
    show V c main_v63 (((cfg2.win 1).blk t).view.emb (ix2 (0 : Fin 1) k)) = _
    refine congrArg (V c main_v63) (funext fun a => Fin.ext ?_)
    match a with
    | ⟨0, _⟩ => show win2_1.index t (0 : Fin 2) * 1 + 1 * 0 = 0; omega
    | ⟨1, _⟩ => show win2_1.index t (1 : Fin 2) * 8 + 1 * k.val = k.val; omega
  · have hk : k.val < 8 := k.isLt
    show V c main_arg6 (((cfg2.win 2).blk t).view.emb (ix2 k (⟨(j 1).val, hj1⟩ : Fin 4))) = _
    refine congrArg (V c main_arg6) (funext fun a => Fin.ext ?_)
    match a with
    | ⟨0, _⟩ => show win2_2.index t (0 : Fin 2) * 8 + 1 * k.val = k.val; omega
    | ⟨1, _⟩ => show win2_2.index t (1 : Fin 2) * 4 + 1 * (j 1).val = (j 1).val; omega

/-- An index of the output array is in point t's block iff each coordinate is in the block's range on its axis. -/
theorem mem_block2 (t : Fin cfg2.N) (i : S100000x4.Idx) :
    i ∈ ((cfg2.win 3).blk t).view.set ↔ ∀ a : Fin 2, win2_3.index t a * S2000x4.size a ≤ (i a).val
      ∧ (i a).val < win2_3.index t a * S2000x4.size a + S2000x4.size a := by
  show i ∈ ((View.whole main_v64).slice (win2_3.rect t)).set ↔ _
  rw [View.set_slice_whole, Rect.mem_set_unit]
  exact Iff.rfl

/-- Row r of the output array is in the block of point r / 2000, which writes back. -/
theorem cover2 (i : S100000x4.Idx) :
    ∃ t : Fin cfg2.N, (cfg2.win 3).flush t = true ∧ i ∈ ((cfg2.win 3).blk t).view.set := by
  have hi0 : (i 0).val < 100000 := (i 0).isLt
  have hi1 : (i 1).val < 4 := (i 1).isLt
  have hlt : (i 0).val / 2000 < cfg2.N := by show (i 0).val / 2000 < 50; omega
  obtain ⟨-, -, -, -, -, -, e6, e7⟩ := blockIndex2 ⟨(i 0).val / 2000, hlt⟩
  refine ⟨⟨(i 0).val / 2000, hlt⟩, flush2_3 _, ?_⟩
  rw [mem_block2]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    have e6' : win2_3.index ⟨(i 0).val / 2000, hlt⟩ (0 : Fin 2) = (i 0).val / 2000 := e6
    omega
  | ⟨1, _⟩ =>
    show win2_3.index ⟨(i 0).val / 2000, hlt⟩ (1 : Fin 2) * 4 ≤ (i 1).val
      ∧ (i 1).val < win2_3.index ⟨(i 0).val / 2000, hlt⟩ (1 : Fin 2) * 4 + 4
    omega

/-- The output array after the region: the host's layer of the arrays as the region finds them. -/
theorem region2 (c : Dev nD) :
    ((dat2 (F := Ideal) V c).arrAt 3 cfg2.N : FVec Ideal S100000x4 .f32) =
      Host.dotGeneral (F := Ideal) (φ₁ := .f32) (φ₂ := .f32) Cert.ReferenceIdeal.dot_S100000x8_S8x4_S100000x4_1_0_0_1_n_n none
        (maximumf (addf (V c main_v62 : FVec Ideal S100000x8 .f32) (broadcastInDim Cert.ReferenceIdeal.S100000x8 ![0, 1] Cert.ReferenceIdeal.Facts₀.bcast_S1x8_S100000x8_0_1 (V c main_v63 : FVec Ideal S1x8 .f32)))
          (broadcastInDim Cert.ReferenceIdeal.S100000x8 ![] Cert.ReferenceIdeal.Facts₀.bcast_S_S100000x8 (constant (F := Ideal) Cert.ReferenceIdeal.S_ .f32 0x00000000#32)))
        (V c main_arg6 : FVec Ideal S8x4 .f32) :=
  (dat2 (F := Ideal) V c).arrAt_eq_of_cover 3 (layer2 (V c main_v62) (V c main_v63) (V c main_arg6))
    (fun t _ => flushed2_eq V c t) (cover2)

end Cert.KernelIdeal.RegionValue

end
-- ==== Proof.Region3.lean ====
/-
  Region 3: the fourth layer's first output array.

  The region's pipeline visits 50 points; point t fetches rows 2000·t … 2000·t + 1999 of the input array, the whole bias
  row and the whole weight matrix, and writes back the same rows of the output array. What the body leaves at a point is
  the rectified, biased product of its input block with the weights on the matrix unit, so entry (y, q) of the block written at t is entry (2000·t + y, q) of
  the host's rectified, biased product of the whole arrays; the 50 blocks cover the output
  array, which therefore ends holding that array.
-/
import proofs.«153102_j63814624084747_1_alg».proof.Proof.Gen.KernelIdeal.Frame
import proofs.«153102_j63814624084747_1_alg».proof.Proof.Gen.ReferenceIdeal
import Idealize.ShloMosaic.PureOps.Ideal
import Idealize.ShloMosaic.Lib.Pipeline.Value
import proofs.«153102_j63814624084747_1_alg».proof.Proof.LibLinearEntry

noncomputable section

namespace Cert.KernelIdeal.RegionValue

open Idealize.ShloMosaic Idealize.ShloMosaic.TcCoe Idealize.SL.Sem Cert.KernelIdeal Cert.KernelIdeal.Gen
open Cert.KernelIdeal.Facts₀ Cert.KernelIdeal.Facts
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeroOffsets3 : (![0, 0] : Fin 2 → Nat) = fun _ => 0 := funext fun a => by fin_cases a <;> rfl

/-- The block product's and the host product's dimension numbers are plain. -/
theorem plainBlock3 : Cert.LibPlainDot.Plain dot_S2000x4_S4x2_S2000x2_1_0_0_1_n_n := ⟨rfl, rfl, rfl, rfl, rfl, rfl⟩
theorem plainHost3 : Cert.LibPlainDot.Plain Cert.ReferenceIdeal.dot_S100000x4_S4x2_S100000x2_1_0_0_1_n_n := ⟨rfl, rfl, rfl, rfl, rfl, rfl⟩

/-- The host's layer of the whole arrays. -/
def layer3 (X : FVec Ideal S100000x4 .f32) (B : FVec Ideal S1x4 .f32) (W : FVec Ideal S4x2 .f32) : FVec Ideal S100000x2 .f32 :=
  Host.dotGeneral (F := Ideal) (φ₁ := .f32) (φ₂ := .f32) Cert.ReferenceIdeal.dot_S100000x4_S4x2_S100000x2_1_0_0_1_n_n none
        (maximumf (addf X (broadcastInDim Cert.ReferenceIdeal.S100000x4 ![0, 1] Cert.ReferenceIdeal.Facts₀.bcast_S1x4_S100000x4_0_1 B))
          (broadcastInDim Cert.ReferenceIdeal.S100000x4 ![] Cert.ReferenceIdeal.Facts₀.bcast_S_S100000x4 (constant (F := Ideal) Cert.ReferenceIdeal.S_ .f32 0x00000000#32)))
        W

/-- Entry (p, q) of the block the body computes is entry (P, q) of the host's layer, when row p of the block is row P of the
    array and the block's bias row and weights are the array's. -/
theorem pay3_apply (x : Vec Ideal S2000x4 .f32) (b : Vec Ideal S1x4 .f32) (w : Vec Ideal S4x2 .f32)
    (X : FVec Ideal S100000x4 .f32) (B : FVec Ideal S1x4 .f32) (W : FVec Ideal S4x2 .f32)
    (p : Fin 2000) (P : Fin 100000) (q : Fin 2) (hrow : ∀ k : Fin 4, x (ix2 p k) = X (ix2 P k))
    (hbias : ∀ k : Fin 4, b (ix2 0 k) = B (ix2 0 k)) (hcol : ∀ k : Fin 4, w (ix2 k q) = W (ix2 k q)) :
    k3_pay1 x b w (ix2 p q) = layer3 X B W (ix2 P q) := by
  unfold k3_pay1 layer3
  exact Cert.LinearEntry.blockRelu_eq_host _ plainBlock3 _ plainHost3 x b w X B W _ _ _ _ _ _ p P q hrow hbias hcol

/-- The printed index maps, decided over the grid: the input and the output move together down the rows, at block index
    the point's number; the bias row and the weights stay. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the host's layer of the arrays as the region finds them. -/
theorem flushed3_eq (c : Dev nD) (t : Fin cfg3.N) :
    (dat3 (F := Ideal) V c).flushed 3 t
      = ((cfg3.win 3).blk t).view.read (Elt Ideal) (layer3 (V c main_v77) (V c main_v78) (V c main_arg8)) := by
  show (cfg3.win 3).cut (grid3.coords t) ((dat3 (F := Ideal) V c).after 3 t) = _
  rw [after3_3]
  unfold out3_3
  rw [View.canon_unit_zero zeroOffsets3]
  simp only [View.ld_unit_zero (S := S2000x4) zeroOffsets3, View.ld_unit_zero (S := S1x4) zeroOffsets3,
    View.ld_unit_zero (S := S4x2) zeroOffsets3]
  obtain ⟨e0, e1, e2, e3, e4, e5, e6, e7⟩ := blockIndex3 t
  have ht : t.val < 50 := t.isLt
  funext j
  have hj0 : (j 0).val < 2000 := (j 0).isLt
  have hj1 : (j 1).val < 2 := (j 1).isLt
  show k3_pay1 (iblk3 V c 0 t) (iblk3 V c 1 t) (iblk3 V c 2 t) (j : S2000x2.Idx)
    = layer3 (V c main_v77) (V c main_v78) (V c main_arg8) (((cfg3.win 3).blk t).view.emb j)
  have ej : (j : S2000x2.Idx) = ix2 (⟨(j 0).val, hj0⟩ : Fin 2000) (⟨(j 1).val, hj1⟩ : Fin 2) := by
    funext a
    match a with
    | ⟨0, _⟩ => rfl
    | ⟨1, _⟩ => rfl
  have ei : ((cfg3.win 3).blk t).view.emb j
      = ix2 (⟨t.val * 2000 + (j 0).val, by omega⟩ : Fin 100000) (⟨(j 1).val, hj1⟩ : Fin 2) := by
    funext a; apply Fin.ext
    match a with
    | ⟨0, _⟩ => show win3_3.index t (0 : Fin 2) * 2000 + 1 * (j 0).val = t.val * 2000 + (j 0).val; omega
    | ⟨1, _⟩ => show win3_3.index t (1 : Fin 2) * 2 + 1 * (j 1).val = (j 1).val; omega
  refine (congrArg (k3_pay1 (iblk3 V c 0 t) (iblk3 V c 1 t) (iblk3 V c 2 t)) ej).trans ?_
  refine Eq.trans ?_ (congrArg (layer3 (V c main_v77) (V c main_v78) (V c main_arg8)) ei.symm)
  refine pay3_apply (iblk3 V c 0 t) (iblk3 V c 1 t) (iblk3 V c 2 t) (V c main_v77) (V c main_v78) (V c main_arg8) _ _ _ (fun k => ?_) (fun k => ?_) (fun k => ?_)
  · have hk : k.val < 4 := k.isLt
    show V c main_v77 (((cfg3.win 0).blk t).view.emb (ix2 (⟨(j 0).val, hj0⟩ : Fin 2000) k)) = _
    refine congrArg (V c main_v77) (funext fun a => Fin.ext ?_)
    match a with
    | ⟨0, _⟩ => show win3_0.index t (0 : Fin 2) * 2000 + 1 * (j 0).val = t.val * 2000 + (j 0).val; omega
    | ⟨1, _⟩ => show win3_0.index t (1 : Fin 2) * 4 + 1 * k.val = k.val; omega
  · have hk : k.val < 4 := k.isLt
    show V c main_v78 (((cfg3.win 1).blk t).view.emb (ix2 (0 : Fin 1) k)) = _
    refine congrArg (V c main_v78) (funext fun a => Fin.ext ?_)
    match a with
    | ⟨0, _⟩ => show win3_1.index t (0 : Fin 2) * 1 + 1 * 0 = 0; omega
    | ⟨1, _⟩ => show win3_1.index t (1 : Fin 2) * 4 + 1 * k.val = k.val; omega
  · have hk : k.val < 4 := k.isLt
    show V c main_arg8 (((cfg3.win 2).blk t).view.emb (ix2 k (⟨(j 1).val, hj1⟩ : Fin 2))) = _
    refine congrArg (V c main_arg8) (funext fun a => Fin.ext ?_)
    match a with
    | ⟨0, _⟩ => show win3_2.index t (0 : Fin 2) * 4 + 1 * k.val = k.val; omega
    | ⟨1, _⟩ => show win3_2.index t (1 : Fin 2) * 2 + 1 * (j 1).val = (j 1).val; omega

/-- An index of the output array is in point t's block iff each coordinate is in the block's range on its axis. -/
theorem mem_block3 (t : Fin cfg3.N) (i : S100000x2.Idx) :
    i ∈ ((cfg3.win 3).blk t).view.set ↔ ∀ a : Fin 2, win3_3.index t a * S2000x2.size a ≤ (i a).val
      ∧ (i a).val < win3_3.index t a * S2000x2.size a + S2000x2.size a := by
  show i ∈ ((View.whole main_v79).slice (win3_3.rect t)).set ↔ _
  rw [View.set_slice_whole, Rect.mem_set_unit]
  exact Iff.rfl

/-- Row r of the output array is in the block of point r / 2000, which writes back. -/
theorem cover3 (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hlt : (i 0).val / 2000 < cfg3.N := by show (i 0).val / 2000 < 50; omega
  obtain ⟨-, -, -, -, -, -, e6, e7⟩ := blockIndex3 ⟨(i 0).val / 2000, hlt⟩
  refine ⟨⟨(i 0).val / 2000, hlt⟩, flush3_3 _, ?_⟩
  rw [mem_block3]
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    have e6' : win3_3.index ⟨(i 0).val / 2000, hlt⟩ (0 : Fin 2) = (i 0).val / 2000 := e6
    omega
  | ⟨1, _⟩ =>
    show win3_3.index ⟨(i 0).val / 2000, hlt⟩ (1 : Fin 2) * 2 ≤ (i 1).val
      ∧ (i 1).val < win3_3.index ⟨(i 0).val / 2000, hlt⟩ (1 : Fin 2) * 2 + 2
    omega

/-- The output array after the region: the host's layer of the arrays as the region finds them. -/
theorem region3 (c : Dev nD) :
    ((dat3 (F := Ideal) V c).arrAt 3 cfg3.N : FVec Ideal S100000x2 .f32) =
      Host.dotGeneral (F := Ideal) (φ₁ := .f32) (φ₂ := .f32) Cert.ReferenceIdeal.dot_S100000x4_S4x2_S100000x2_1_0_0_1_n_n none
        (maximumf (addf (V c main_v77 : FVec Ideal S100000x4 .f32) (broadcastInDim Cert.ReferenceIdeal.S100000x4 ![0, 1] Cert.ReferenceIdeal.Facts₀.bcast_S1x4_S100000x4_0_1 (V c main_v78 : FVec Ideal S1x4 .f32)))
          (broadcastInDim Cert.ReferenceIdeal.S100000x4 ![] Cert.ReferenceIdeal.Facts₀.bcast_S_S100000x4 (constant (F := Ideal) Cert.ReferenceIdeal.S_ .f32 0x00000000#32)))
        (V c main_arg8 : FVec Ideal S4x2 .f32) :=
  (dat3 (F := Ideal) V c).arrAt_eq_of_cover 3 (layer3 (V c main_v77) (V c main_v78) (V c main_arg8))
    (fun t _ => flushed3_eq V c t) (cover3)

end Cert.KernelIdeal.RegionValue

end
-- ==== Proof.Region4.lean ====
/-
  Region 4: the fourth layer's second output array.

  The region's pipeline visits 50 points; point t fetches rows 2000·t … 2000·t + 1999 of the input array, the whole bias
  row and the whole weight matrix, and writes back the same rows of the output array. What the body leaves at a point is
  the rectified, biased product of its input block with the weights on the matrix unit, so entry (y, q) of the block written at t is entry (2000·t + y, q) of
  the host's rectified, biased product of the whole arrays; the 50 blocks cover the output
  array, which therefore ends holding that array.
-/
import proofs.«153102_j63814624084747_1_alg».proof.Proof.Gen.KernelIdeal.Frame
import proofs.«153102_j63814624084747_1_alg».proof.Proof.Gen.ReferenceIdeal
import Idealize.ShloMosaic.PureOps.Ideal
import Idealize.ShloMosaic.Lib.Pipeline.Value
import proofs.«153102_j63814624084747_1_alg».proof.Proof.LibLinearEntry

noncomputable section

namespace Cert.KernelIdeal.RegionValue

open Idealize.ShloMosaic Idealize.ShloMosaic.TcCoe Idealize.SL.Sem Cert.KernelIdeal Cert.KernelIdeal.Gen
open Cert.KernelIdeal.Facts₀ Cert.KernelIdeal.Facts
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeroOffsets4 : (![0, 0] : Fin 2 → Nat) = fun _ => 0 := funext fun a => by fin_cases a <;> rfl

/-- The block product's and the host product's dimension numbers are plain. -/
theorem plainBlock4 : Cert.LibPlainDot.Plain dot_S2000x4_S4x2_S2000x2_1_0_0_1_n_n := ⟨rfl, rfl, rfl, rfl, rfl, rfl⟩
theorem plainHost4 : Cert.LibPlainDot.Plain Cert.ReferenceIdeal.dot_S100000x4_S4x2_S100000x2_1_0_0_1_n_n := ⟨rfl, rfl, rfl, rfl, rfl, rfl⟩

/-- The host's layer of the whole arrays. -/
def layer4 (X : FVec Ideal S100000x4 .f32) (B : FVec Ideal S1x4 .f32) (W : FVec Ideal S4x2 .f32) : FVec Ideal S100000x2 .f32 :=
  Host.dotGeneral (F := Ideal) (φ₁ := .f32) (φ₂ := .f32) Cert.ReferenceIdeal.dot_S100000x4_S4x2_S100000x2_1_0_0_1_n_n none
        (maximumf (addf X (broadcastInDim Cert.ReferenceIdeal.S100000x4 ![0, 1] Cert.ReferenceIdeal.Facts₀.bcast_S1x4_S100000x4_0_1 B))
          (broadcastInDim Cert.ReferenceIdeal.S100000x4 ![] Cert.ReferenceIdeal.Facts₀.bcast_S_S100000x4 (constant (F := Ideal) Cert.ReferenceIdeal.S_ .f32 0x00000000#32)))
        W

/-- Entry (p, q) of the block the body computes is entry (P, q) of the host's layer, when row p of the block is row P of the
    array and the block's bias row and weights are the array's. -/
theorem pay4_apply (x : Vec Ideal S2000x4 .f32) (b : Vec Ideal S1x4 .f32) (w : Vec Ideal S4x2 .f32)
    (X : FVec Ideal S100000x4 .f32) (B : FVec Ideal S1x4 .f32) (W : FVec Ideal S4x2 .f32)
    (p : Fin 2000) (P : Fin 100000) (q : Fin 2) (hrow : ∀ k : Fin 4, x (ix2 p k) = X (ix2 P k))
    (hbias : ∀ k : Fin 4, b (ix2 0 k) = B (ix2 0 k)) (hcol : ∀ k : Fin 4, w (ix2 k q) = W (ix2 k q)) :
    k4_pay1 x b w (ix2 p q) = layer4 X B W (ix2 P q) := by
  unfold k4_pay1 layer4
  exact Cert.LinearEntry.blockRelu_eq_host _ plainBlock4 _ plainHost4 x b w X B W _ _ _ _ _ _ p P q hrow hbias hcol

/-- The printed index maps, decided over the grid: the input and the output move together down the rows, at block index
    the point's number; the bias row and the weights stay. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the host's layer of the arrays as the region finds them. -/
theorem flushed4_eq (c : Dev nD) (t : Fin cfg4.N) :
    (dat4 (F := Ideal) V c).flushed 3 t
      = ((cfg4.win 3).blk t).view.read (Elt Ideal) (layer4 (V c main_v77) (V c main_v93) (V c main_arg10)) := by
  show (cfg4.win 3).cut (grid4.coords t) ((dat4 (F := Ideal) V c).after 3 t) = _
  rw [after4_3]
  unfold out4_3
  rw [View.canon_unit_zero zeroOffsets4]
  simp only [View.ld_unit_zero (S := S2000x4) zeroOffsets4, View.ld_unit_zero (S := S1x4) zeroOffsets4,
    View.ld_unit_zero (S := S4x2) zeroOffsets4]
  obtain ⟨e0, e1, e2, e3, e4, e5, e6, e7⟩ := blockIndex4 t
  have ht : t.val < 50 := t.isLt
  funext j
  have hj0 : (j 0).val < 2000 := (j 0).isLt
  have hj1 : (j 1).val < 2 := (j 1).isLt
  show k4_pay1 (iblk4 V c 0 t) (iblk4 V c 1 t) (iblk4 V c 2 t) (j : S2000x2.Idx)
    = layer4 (V c main_v77) (V c main_v93) (V c main_arg10) (((cfg4.win 3).blk t).view.emb j)
  have ej : (j : S2000x2.Idx) = ix2 (⟨(j 0).val, hj0⟩ : Fin 2000) (⟨(j 1).val, hj1⟩ : Fin 2) := by
    funext a
    match a with
    | ⟨0, _⟩ => rfl
    | ⟨1, _⟩ => rfl
  have ei : ((cfg4.win 3).blk t).view.emb j
      = ix2 (⟨t.val * 2000 + (j 0).val, by omega⟩ : Fin 100000) (⟨(j 1).val, hj1⟩ : Fin 2) := by
    funext a; apply Fin.ext
    match a with
    | ⟨0, _⟩ => show win4_3.index t (0 : Fin 2) * 2000 + 1 * (j 0).val = t.val * 2000 + (j 0).val; omega
    | ⟨1, _⟩ => show win4_3.index t (1 : Fin 2) * 2 + 1 * (j 1).val = (j 1).val; omega
  refine (congrArg (k4_pay1 (iblk4 V c 0 t) (iblk4 V c 1 t) (iblk4 V c 2 t)) ej).trans ?_
  refine Eq.trans ?_ (congrArg (layer4 (V c main_v77) (V c main_v93) (V c main_arg10)) ei.symm)
  refine pay4_apply (iblk4 V c 0 t) (iblk4 V c 1 t) (iblk4 V c 2 t) (V c main_v77) (V c main_v93) (V c main_arg10) _ _ _ (fun k => ?_) (fun k => ?_) (fun k => ?_)
  · have hk : k.val < 4 := k.isLt
    show V c main_v77 (((cfg4.win 0).blk t).view.emb (ix2 (⟨(j 0).val, hj0⟩ : Fin 2000) k)) = _
    refine congrArg (V c main_v77) (funext fun a => Fin.ext ?_)
    match a with
    | ⟨0, _⟩ => show win4_0.index t (0 : Fin 2) * 2000 + 1 * (j 0).val = t.val * 2000 + (j 0).val; omega
    | ⟨1, _⟩ => show win4_0.index t (1 : Fin 2) * 4 + 1 * k.val = k.val; omega
  · have hk : k.val < 4 := k.isLt
    show V c main_v93 (((cfg4.win 1).blk t).view.emb (ix2 (0 : Fin 1) k)) = _
    refine congrArg (V c main_v93) (funext fun a => Fin.ext ?_)
    match a with
    | ⟨0, _⟩ => show win4_1.index t (0 : Fin 2) * 1 + 1 * 0 = 0; omega
    | ⟨1, _⟩ => show win4_1.index t (1 : Fin 2) * 4 + 1 * k.val = k.val; omega
  · have hk : k.val < 4 := k.isLt
    show V c main_arg10 (((cfg4.win 2).blk t).view.emb (ix2 k (⟨(j 1).val, hj1⟩ : Fin 2))) = _
    refine congrArg (V c main_arg10) (funext fun a => Fin.ext ?_)
    match a with
    | ⟨0, _⟩ => show win4_2.index t (0 : Fin 2) * 4 + 1 * k.val = k.val; omega
    | ⟨1, _⟩ => show win4_2.index t (1 : Fin 2) * 2 + 1 * (j 1).val = (j 1).val; omega

/-- An index of the output array is in point t's block iff each coordinate is in the block's range on its axis. -/
theorem mem_block4 (t : Fin cfg4.N) (i : S100000x2.Idx) :
    i ∈ ((cfg4.win 3).blk t).view.set ↔ ∀ a : Fin 2, win4_3.index t a * S2000x2.size a ≤ (i a).val
      ∧ (i a).val < win4_3.index t a * S2000x2.size a + S2000x2.size a := by
  show i ∈ ((View.whole main_v94).slice (win4_3.rect t)).set ↔ _
  rw [View.set_slice_whole, Rect.mem_set_unit]
  exact Iff.rfl

/-- Row r of the output array is in the block of point r / 2000, which writes back. -/
theorem cover4 (i : S100000x2.Idx) :
    ∃ t : Fin cfg4.N, (cfg4.win 3).flush t = true ∧ i ∈ ((cfg4.win 3).blk t).view.set := by
  have hi0 : (i 0).val < 100000 := (i 0).isLt
  have hi1 : (i 1).val < 2 := (i 1).isLt
  have hlt : (i 0).val / 2000 < cfg4.N := by show (i 0).val / 2000 < 50; omega
  obtain ⟨-, -, -, -, -, -, e6, e7⟩ := blockIndex4 ⟨(i 0).val / 2000, hlt⟩
  refine ⟨⟨(i 0).val / 2000, hlt⟩, flush4_3 _, ?_⟩
  rw [mem_block4]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    have e6' : win4_3.index ⟨(i 0).val / 2000, hlt⟩ (0 : Fin 2) = (i 0).val / 2000 := e6
    omega
  | ⟨1, _⟩ =>
    show win4_3.index ⟨(i 0).val / 2000, hlt⟩ (1 : Fin 2) * 2 ≤ (i 1).val
      ∧ (i 1).val < win4_3.index ⟨(i 0).val / 2000, hlt⟩ (1 : Fin 2) * 2 + 2
    omega

/-- The output array after the region: the host's layer of the arrays as the region finds them. -/
theorem region4 (c : Dev nD) :
    ((dat4 (F := Ideal) V c).arrAt 3 cfg4.N : FVec Ideal S100000x2 .f32) =
      Host.dotGeneral (F := Ideal) (φ₁ := .f32) (φ₂ := .f32) Cert.ReferenceIdeal.dot_S100000x4_S4x2_S100000x2_1_0_0_1_n_n none
        (maximumf (addf (V c main_v77 : FVec Ideal S100000x4 .f32) (broadcastInDim Cert.ReferenceIdeal.S100000x4 ![0, 1] Cert.ReferenceIdeal.Facts₀.bcast_S1x4_S100000x4_0_1 (V c main_v93 : FVec Ideal S1x4 .f32)))
          (broadcastInDim Cert.ReferenceIdeal.S100000x4 ![] Cert.ReferenceIdeal.Facts₀.bcast_S_S100000x4 (constant (F := Ideal) Cert.ReferenceIdeal.S_ .f32 0x00000000#32)))
        (V c main_arg10 : FVec Ideal S4x2 .f32) :=
  (dat4 (F := Ideal) V c).arrAt_eq_of_cover 3 (layer4 (V c main_v77) (V c main_v93) (V c main_arg10))
    (fun t _ => flushed4_eq V c t) (cover4)

end Cert.KernelIdeal.RegionValue

end
-- ==== Proof.LibSameOps.lean ====
/-
  Kernel-side vector operations and the host's operations that compute the same array.

  A Pallas kernel body and a jnp reference spell one mathematical step in two vocabularies: a lane
  reduction (`vector.multi_reduction`) against `stablehlo.reduce`; a `vector.shape_cast` that adds a
  unit axis, or a `vector.broadcast`, against `stablehlo.broadcast_in_dim`; a scalar splat against the
  broadcast of a rank-0 constant. Read at the extended reals each pair is ONE function of the operand
  array. The lemmas below state that, as equalities of whole arrays, generic in the extents, so that a
  proof about two programs that take the same steps in the same order can rewrite one vocabulary into the
  other and compare terms.
-/
import Idealize.ShloMosaic.PureOps.Ideal.Laws
import Idealize.ShloMosaic.Lib.Pipeline.Value
import Idealize.ShloMosaic.Lib.ValueIdx

noncomputable section

namespace Cert.SameOps

open Idealize.ShloMosaic

variable {α : Type}

/-! ## Reductions over one axis

  A printed reduction carries a proof that its accumulator word is the operation's neutral word; printed, that
  proof is of the word's equality with itself, and the lemmas below take it in that form. -/

/-- The sum over one axis from the zero word: the kernel's lane sum is the host's `reduce` with an `add`
    body from the rank-0 zero. Both are, at each kept index, the exact sum over the dropped coordinate. -/
theorem laneSum_eq_hostSum {s t u : Shape} {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32) h' hu := by
  funext j
  refine (Ideal.multiReduction_add_single src _ h hφ hacc j).trans ?_
  simp only [Host.reduceAdd, Ideal.hostReduceAdd_def]
  rw [Ideal.hostReduceAdd_single h' h]
  show _ = Ideal.ofBits .f32 0x00000000#32 + _
  rw [Ideal.ofBits_zero_f32, zero_add]

/-- The minimum over one axis from +∞: the kernel's lane minimum is the host's `reduce` with a `minimum`
    body from the rank-0 constant +∞: the fold of `min` from the seed over the dropped coordinate, in any
    order. -/
theorem laneMin_eq_hostMin {s t u : Shape} {a : Fin s.rank} (src : FVec Ideal s .f32)
    (h : s.Reduces [a] t) (hφ : FKind.Formats .f32) (hacc : (0x7F800000#32 : BitVec 32) = 0x7F800000#32)
    (h' : s.ReducesTo [a] t) (hu : 0 < u.numel) :
    multiReduction .minimumf [a] t src 0x7F800000#32 h hφ hacc
      = Host.reduce FloatOps.minimumf src (constant u .f32 0x7F800000#32) h' hu := by
  funext j
  refine (multiReduction_minimumf_eq_fold src _ h hφ hacc j).trans ?_
  rw [h.fold_filter_drop_single, Host.reduce_eq_fold_single FloatOps.minimumf src _ h' h hu]
  rfl

/-- The maximum over one axis from −∞, likewise. -/
theorem laneMax_eq_hostMax {s t u : Shape} {a : Fin s.rank} (src : FVec Ideal s .f32)
    (h : s.Reduces [a] t) (hφ : FKind.Formats .f32) (hacc : (0xFF800000#32 : BitVec 32) = 0xFF800000#32)
    (h' : s.ReducesTo [a] t) (hu : 0 < u.numel) :
    multiReduction .maximumf [a] t src 0xFF800000#32 h hφ hacc
      = Host.reduce FloatOps.maximumf src (constant u .f32 0xFF800000#32) h' hu := by
  funext j
  refine (multiReduction_maximumf_eq_fold src _ h hφ hacc j).trans ?_
  rw [h.fold_filter_drop_single, Host.reduce_eq_fold_single FloatOps.maximumf src _ h' h hu]
  rfl

/-! ## Unit axes and broadcasts -/

/-- A vector of `a` entries as a column: the shape cast [a] → [a, 1] is the broadcast along new axis 1
    (`dims = [0]`): entry (p, 0) is entry p. -/
theorem castCol_eq_bcast {a : Nat} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v h = broadcastInDim ⟨2, ![a, 1]⟩ ![0] hb v := by
  funext j
  have h1 : (j 1).val < 1 := (j 1).isLt
  have h0 : (j 0).val < a := (j 0).isLt
  rw [shapeCast_apply v h j (ValueIdx.ix1 (⟨(j 0).val, h0⟩ : Fin a)) (by
      rw [Shape.rowMajor_val_one, Shape.rowMajor_val_two]
      show (j 0).val = (j 0).val * 1 + (j 1).val
      omega),
    broadcastInDim_apply ![0] hb v j (ValueIdx.ix1 (⟨(j 0).val, h0⟩ : Fin a)) (fun b => by
      match b with
      | ⟨0, _⟩ =>
        show (j 0).val = if a = 1 then 0 else (j 0).val
        split_ifs with e
        · omega
        · rfl)]

/-- A vector of `b` entries as a row: the shape cast [b] → [1, b] is the broadcast along new axis 0
    (`dims = [1]`): entry (0, q) is entry q. -/
theorem castRow_eq_bcast {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  have h0 : (j 0).val < 1 := (j 0).isLt
  have h1 : (j 1).val < b := (j 1).isLt
  rw [shapeCast_apply v h j (ValueIdx.ix1 (⟨(j 1).val, h1⟩ : Fin b)) (by
      rw [Shape.rowMajor_val_one, Shape.rowMajor_val_two]
      show (j 1).val = (j 0).val * b + (j 1).val
      have : (j 0).val = 0 := by omega
      rw [this, Nat.zero_mul, Nat.zero_add]),
    broadcastInDim_apply ![1] hb v j (ValueIdx.ix1 (⟨(j 1).val, h1⟩ : Fin b)) (fun c => by
      match c with
      | ⟨0, _⟩ =>
        show (j 1).val = if b = 1 then 0 else (j 1).val
        split_ifs with e
        · omega
        · rfl)]

/-- Between two rank-2 shapes a `vector.broadcast` is the `broadcast_in_dim` with `dims = [0, 1]`: each
    unit axis of the operand is read at 0, each other axis at the result's coordinate. -/
theorem broadcastTo_eq_inDim2 {d e : Fin 2 → Nat} (v : (⟨2, d⟩ : Shape).Idx → α)
    (h : (⟨2, d⟩ : Shape).Broadcasts ⟨2, e⟩) (hb : (⟨2, d⟩ : Shape).BroadcastsInDim ⟨2, e⟩ ![0, 1]) :
    broadcastTo ⟨2, e⟩ v h = broadcastInDim ⟨2, e⟩ ![0, 1] hb v := by
  funext j
  unfold broadcastTo broadcastInDim
  refine congrArg v (funext fun a => ?_)
  by_cases h1 : (⟨2, d⟩ : Shape).size a = 1
  · rw [dif_pos h1, dif_pos h1]
  · rw [dif_neg h1, dif_neg h1]
    apply Fin.ext
    match a with
    | ⟨0, _⟩ => rfl
    | ⟨1, _⟩ => rfl

/-- A scalar splat is the broadcast of the rank-0 constant of the same word. -/
theorem splat_eq_bcast {t : Shape} (w : BitVec 32) (hb : (⟨0, ![]⟩ : Shape).BroadcastsInDim t ![]) :
    broadcast t (Scalar.ofBits (F := Ideal) .f32 w) = broadcastInDim t ![] hb (constant (F := Ideal) ⟨0, ![]⟩ .f32 w) := by
  funext j
  rfl

/-- A shape cast to the same shape changes nothing. -/
theorem shapeCast_same {s : Shape} (v : s.Idx → α) (h : s.ShapeCasts s) : shapeCast s v h = v :=
  shapeCast_self v h

/-! ## Elementwise operations: one spelling in a kernel body, another on the host -/

variable {s : Shape}

theorem sqrt_eq_host (v : FVec Ideal s .f32) : sqrt v = Host.sqrt v := rfl
theorem exp_eq_host (v : FVec Ideal s .f32) : exp v = Host.exp v := rfl
theorem tanh_eq_host (v : FVec Ideal s .f32) : tanh v = Host.tanh v := rfl
theorem divf_eq_host (v w : FVec Ideal s .f32) : divf v w = Host.divf v w := rfl

/-! ## Products with one contracted axis -/

/-- A `tpu.matmul` into the zero accumulator, read at an entry: the sum over the one contracted
    coordinate of the products of the operands at the indices the caller names (`li`, `ri`). -/
theorem matmul_zero_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    matmul d none l r (constant so .f32 0x00000000#32) j = ∑ k : Fin n, l (li k) * r (ri k) := by
  simp only [matmul]
  rw [Ideal.matmul_constant_zero_apply, ← Equiv.sum_comp (ValueIdx.contrEquiv1 d n hr hs).symm]
  exact Finset.sum_congr rfl fun k _ => by rw [hl k, hri k]

/-- The host's `dot_general`, read at an entry, likewise. -/
theorem hostDot_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    Host.dotGeneral d none l r j = ∑ k : Fin n, l (li k) * r (ri k) := by
  simp only [Host.dotGeneral]
  rw [Ideal.dotGeneral_apply, ← Equiv.sum_comp (ValueIdx.contrEquiv1 d n hr hs).symm]
  exact Finset.sum_congr rfl fun k _ => by rw [hl k, hri k]

end Cert.SameOps

end
-- ==== Proof.KernelChain.lean ====
/-
  The kernel program's two results as the network's function of the arguments.

  Walking the segments in order: the host operations before the first region compute the edge lists, the inverse
  square-root degrees and the edge normalisation; each region's output array is the layer's linear map of what the
  previous aggregation left (bias and max(·, 0) applied on the way in; the first region adds an all-zero row); each
  stretch between regions aggregates over the edges and lays the next bias out as a row (a [K] vector viewed as [1, K]
  is the vector broadcast along a new leading axis); the last stretch aggregates once more and adds the output biases.
-/
import proofs.«153102_j63814624084747_1_alg».proof.Proof.KernelStretches
import proofs.«153102_j63814624084747_1_alg».proof.Proof.Carried
import proofs.«153102_j63814624084747_1_alg».proof.Proof.Region0
import proofs.«153102_j63814624084747_1_alg».proof.Proof.Region1
import proofs.«153102_j63814624084747_1_alg».proof.Proof.Region2
import proofs.«153102_j63814624084747_1_alg».proof.Proof.Region3
import proofs.«153102_j63814624084747_1_alg».proof.Proof.Region4
import proofs.«153102_j63814624084747_1_alg».proof.Proof.LibSameOps

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Gcn Cert.KernelIdeal.RegionValue

variable (m : (ℓ : Loc nD τ sig) → Buf (Elt Ideal) ℓ) (ρ : Dev nD → PrngReg) (c : Dev nD)

/-- The arguments as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)
abbrev A11 := m ((c.tc : Thread nD τ).loc main_arg11)
/-- The edge sources, destinations and normalisation of the launched edge list. -/
abbrev S : IArr S3300000 := srcOf (A1 m c)
abbrev D : IArr S3300000 := dstOf (A1 m c)
abbrev N : FArr S3300000 := normOf (dinvOf (D m c)) (S m c) (D m c)

/-! ## Before the first region -/

theorem src1 : W1 m ρ c (Proc.devRef .tc main_v3) = S m c := k_src (W0 m ρ c)
theorem dst1 : W1 m ρ c (Proc.devRef .tc main_v6) = D m c := k_dst (W0 m ρ c)

theorem dinv2 : W2 m ρ c (Proc.devRef .tc main_v16) = dinvOf (D m c) := by
  refine (k_dinv (W1 m ρ c)).trans ?_
  rw [show W1 m ρ c (Proc.devRef .tc main_v12) = _ from k_mask (W0 m ρ c), show W1 m ρ c (Proc.devRef .tc main_v15) = _ from k_rsqrt (W0 m ρ c),
    show W1 m ρ c (Proc.devRef .tc main_cst_3) = _ from k_zero (W0 m ρ c)]
  rfl

theorem norm3 : W3 m ρ c (Proc.devRef .tc main_v31) = N m c := by
  refine (k_norm (W2 m ρ c)).trans ?_
  rw [dinv2 m ρ c, show W2 m ρ c (Proc.devRef .tc main_v3) = _ from (keep0_1 (W1 m ρ c) main_v3 (by decide)).trans (src1 m ρ c),
    show W2 m ρ c (Proc.devRef .tc main_v6) = _ from (keep0_1 (W1 m ρ c) main_v6 (by decide)).trans (dst1 m ρ c)]

/-- What every later boundary carries holds at the first region's entry. -/
theorem kept3 : Kept m c (S m c) (D m c) (N m c) (W3 m ρ c) where
  src := (keep0_2 (W2 m ρ c) main_v3 (by decide)).trans ((keep0_1 (W1 m ρ c) main_v3 (by decide)).trans (src1 m ρ c))
  dst := (keep0_2 (W2 m ρ c) main_v6 (by decide)).trans ((keep0_1 (W1 m ρ c) main_v6 (by decide)).trans (dst1 m ρ c))
  norm := norm3 m ρ c
  a0 := (keep0_2 (W2 m ρ c) main_arg0 (by decide)).trans ((keep0_1 (W1 m ρ c) main_arg0 (by decide)).trans (keep0 (W0 m ρ c) main_arg0 (by decide)))
  a1 := (keep0_2 (W2 m ρ c) main_arg1 (by decide)).trans ((keep0_1 (W1 m ρ c) main_arg1 (by decide)).trans (keep0 (W0 m ρ c) main_arg1 (by decide)))
  a2 := (keep0_2 (W2 m ρ c) main_arg2 (by decide)).trans ((keep0_1 (W1 m ρ c) main_arg2 (by decide)).trans (keep0 (W0 m ρ c) main_arg2 (by decide)))
  a3 := (keep0_2 (W2 m ρ c) main_arg3 (by decide)).trans ((keep0_1 (W1 m ρ c) main_arg3 (by decide)).trans (keep0 (W0 m ρ c) main_arg3 (by decide)))
  a4 := (keep0_2 (W2 m ρ c) main_arg4 (by decide)).trans ((keep0_1 (W1 m ρ c) main_arg4 (by decide)).trans (keep0 (W0 m ρ c) main_arg4 (by decide)))
  a5 := (keep0_2 (W2 m ρ c) main_arg5 (by decide)).trans ((keep0_1 (W1 m ρ c) main_arg5 (by decide)).trans (keep0 (W0 m ρ c) main_arg5 (by decide)))
  a6 := (keep0_2 (W2 m ρ c) main_arg6 (by decide)).trans ((keep0_1 (W1 m ρ c) main_arg6 (by decide)).trans (keep0 (W0 m ρ c) main_arg6 (by decide)))
  a7 := (keep0_2 (W2 m ρ c) main_arg7 (by decide)).trans ((keep0_1 (W1 m ρ c) main_arg7 (by decide)).trans (keep0 (W0 m ρ c) main_arg7 (by decide)))
  a8 := (keep0_2 (W2 m ρ c) main_arg8 (by decide)).trans ((keep0_1 (W1 m ρ c) main_arg8 (by decide)).trans (keep0 (W0 m ρ c) main_arg8 (by decide)))
  a9 := (keep0_2 (W2 m ρ c) main_arg9 (by decide)).trans ((keep0_1 (W1 m ρ c) main_arg9 (by decide)).trans (keep0 (W0 m ρ c) main_arg9 (by decide)))
  a10 := (keep0_2 (W2 m ρ c) main_arg10 (by decide)).trans ((keep0_1 (W1 m ρ c) main_arg10 (by decide)).trans (keep0 (W0 m ρ c) main_arg10 (by decide)))
  a11 := (keep0_2 (W2 m ρ c) main_arg11 (by decide)).trans ((keep0_1 (W1 m ρ c) main_arg11 (by decide)).trans (keep0 (W0 m ρ c) main_arg11 (by decide)))

/-- The first layer's bias row is all zeros. -/
theorem zrow3 (j : S1x512.Idx) : (V3 m ρ c main_v33 : FVec Ideal S1x512 .f32) j = (0 : EReal) := by
  have h := k_zrow (W2 m ρ c)
  have h' := congrFun h j
  refine h'.trans ?_
  show Ideal.ofBits .f32 0x00000000#32 = 0
  exact Ideal.ofBits_zero_f32

/-! ## Layer 1 -/

theorem kept4 : Kept m c (S m c) (D m c) (N m c) (W4 m ρ c) := (kept3 m ρ c).region0

theorem lin4 : W4 m ρ c (Proc.devRef .tc main_v34) = lin0 (A0 m c) (A2 m c) := by
  refine (W4_arr m ρ c 3).trans ?_
  refine (region0 (V3 m ρ) c (zrow3 m ρ c)).trans ?_
  rw [show (V3 m ρ c main_arg0 : FVec Ideal S100000x512 .f32) = _ from (kept3 m ρ c).a0, show (V3 m ρ c main_arg2 : FVec Ideal S512x64 .f32) = _ from (kept3 m ρ c).a2]
  rfl

theorem kept5 : Kept m c (S m c) (D m c) (N m c) (W5 m ρ c) := (kept4 m ρ c).host1

theorem agg5 : W5 m ρ c (Proc.devRef .tc main_v47) = agg64 (lin0 (A0 m c) (A2 m c)) (S m c) (D m c) (N m c) := by
  refine (k_agg1 (W4 m ρ c)).trans ?_
  rw [lin4 m ρ c, (kept4 m ρ c).src, (kept4 m ρ c).dst, (kept4 m ρ c).norm]

theorem row5 : W5 m ρ c (Proc.devRef .tc main_v48) = broadcastInDim S1x64 ![1] Cert.ReferenceIdeal.Facts₀.bcast_S64_S1x64_1 (A3 m c) := by
  refine (k_row1 (W4 m ρ c)).trans ?_
  rw [(kept4 m ρ c).a3]
  exact Cert.SameOps.castRow_eq_bcast _ _ _

/-! ## Layer 2 -/

theorem kept6 : Kept m c (S m c) (D m c) (N m c) (W6 m ρ c) := (kept5 m ρ c).region1

theorem lin6 : W6 m ρ c (Proc.devRef .tc main_v49) = lin1 (agg64 (lin0 (A0 m c) (A2 m c)) (S m c) (D m c) (N m c)) (A3 m c) (A4 m c) := by
  refine (W6_arr m ρ c 3).trans ?_
  refine (region1 (V5 m ρ) c).trans ?_
  rw [show (V5 m ρ c main_v47 : FVec Ideal S100000x64 .f32) = _ from agg5 m ρ c, show (V5 m ρ c main_v48 : FVec Ideal S1x64 .f32) = _ from row5 m ρ c,
    show (V5 m ρ c main_arg4 : FVec Ideal S64x8 .f32) = _ from (kept5 m ρ c).a4]
  rfl

theorem kept7 : Kept m c (S m c) (D m c) (N m c) (W7 m ρ c) := (kept6 m ρ c).host2

/-- The node features after two layers' linear maps and the first layer's aggregation. -/
abbrev H2 : FArr S100000x8 := lin1 (agg64 (lin0 (A0 m c) (A2 m c)) (S m c) (D m c) (N m c)) (A3 m c) (A4 m c)

theorem agg7 : W7 m ρ c (Proc.devRef .tc main_v62) = agg8 (H2 m c) (S m c) (D m c) (N m c) := by
  refine (k_agg2 (W6 m ρ c)).trans ?_
  rw [lin6 m ρ c, (kept6 m ρ c).src, (kept6 m ρ c).dst, (kept6 m ρ c).norm]

theorem row7 : W7 m ρ c (Proc.devRef .tc main_v63) = broadcastInDim S1x8 ![1] Cert.ReferenceIdeal.Facts₀.bcast_S8_S1x8_1 (A5 m c) := by
  refine (k_row2 (W6 m ρ c)).trans ?_
  rw [(kept6 m ρ c).a5]
  exact Cert.SameOps.castRow_eq_bcast _ _ _

/-! ## Layer 3 -/

theorem kept8 : Kept m c (S m c) (D m c) (N m c) (W8 m ρ c) := (kept7 m ρ c).region2

abbrev H3 : FArr S100000x4 := lin2 (agg8 (H2 m c) (S m c) (D m c) (N m c)) (A5 m c) (A6 m c)

theorem lin8 : W8 m ρ c (Proc.devRef .tc main_v64) = H3 m c := by
  refine (W8_arr m ρ c 3).trans ?_
  refine (region2 (V7 m ρ) c).trans ?_
  rw [show (V7 m ρ c main_v62 : FVec Ideal S100000x8 .f32) = _ from agg7 m ρ c, show (V7 m ρ c main_v63 : FVec Ideal S1x8 .f32) = _ from row7 m ρ c,
    show (V7 m ρ c main_arg6 : FVec Ideal S8x4 .f32) = _ from (kept7 m ρ c).a6]
  rfl

theorem kept9 : Kept m c (S m c) (D m c) (N m c) (W9 m ρ c) := (kept8 m ρ c).host3

theorem agg9 : W9 m ρ c (Proc.devRef .tc main_v77) = agg4 (H3 m c) (S m c) (D m c) (N m c) := by
  refine (k_agg3 (W8 m ρ c)).trans ?_
  rw [lin8 m ρ c, (kept8 m ρ c).src, (kept8 m ρ c).dst, (kept8 m ρ c).norm]

theorem row9 : W9 m ρ c (Proc.devRef .tc main_v78) = broadcastInDim S1x4 ![1] Cert.ReferenceIdeal.Facts₀.bcast_S4_S1x4_1 (A7 m c) := by
  refine (k_row3 (W8 m ρ c)).trans ?_
  rw [(kept8 m ρ c).a7]
  exact Cert.SameOps.castRow_eq_bcast _ _ _

/-! ## The first output head -/

theorem kept10 : Kept m c (S m c) (D m c) (N m c) (W10 m ρ c) := (kept9 m ρ c).region3

/-- What both output heads read: three layers, aggregated. -/
abbrev G3 : FArr S100000x4 := agg4 (H3 m c) (S m c) (D m c) (N m c)

theorem hid_eq : G3 m c = hidden (A0 m c) (A1 m c) (A2 m c) (A3 m c) (A4 m c) (A5 m c) (A6 m c) := rfl

theorem lin10 : W10 m ρ c (Proc.devRef .tc main_v79) = lin3 (G3 m c) (A7 m c) (A8 m c) := by
  refine (W10_arr m ρ c 3).trans ?_
  refine (region3 (V9 m ρ) c).trans ?_
  rw [show (V9 m ρ c main_v77 : FVec Ideal S100000x4 .f32) = _ from agg9 m ρ c, show (V9 m ρ c main_v78 : FVec Ideal S1x4 .f32) = _ from row9 m ρ c,
    show (V9 m ρ c main_arg8 : FVec Ideal S4x2 .f32) = _ from (kept9 m ρ c).a8]
  rfl

/-- Region 3 reads the aggregated features and leaves them as they were. -/
theorem feat10 : W10 m ρ c (Proc.devRef .tc main_v77) = G3 m c :=
  ((W10_arr m ρ c 0).trans (((dat3 (V9 m ρ) c).arrAt_in 0 rfl _).trans (A_eq3 (V9 m ρ) c 0))).trans (agg9 m ρ c)

theorem kept11 : Kept m c (S m c) (D m c) (N m c) (W11 m ρ c) := (kept10 m ρ c).host4

theorem agg11 : W11 m ρ c (Proc.devRef .tc main_v92) = agg2 (lin3 (G3 m c) (A7 m c) (A8 m c)) (S m c) (D m c) (N m c) := by
  refine (k_agg4 (W10 m ρ c)).trans ?_
  rw [lin10 m ρ c, (kept10 m ρ c).src, (kept10 m ρ c).dst, (kept10 m ρ c).norm]

theorem row11 : W11 m ρ c (Proc.devRef .tc main_v93) = broadcastInDim S1x4 ![1] Cert.ReferenceIdeal.Facts₀.bcast_S4_S1x4_1 (A7 m c) := by
  refine (k_row4 (W10 m ρ c)).trans ?_
  rw [(kept10 m ρ c).a7]
  exact Cert.SameOps.castRow_eq_bcast _ _ _

theorem feat11 : W11 m ρ c (Proc.devRef .tc main_v77) = G3 m c :=
  (keep4 (W10 m ρ c) main_v77 (by decide)).trans (feat10 m ρ c)

/-! ## The second output head -/

theorem kept12 : Kept m c (S m c) (D m c) (N m c) (W12 m ρ c) := (kept11 m ρ c).region4

theorem lin12 : W12 m ρ c (Proc.devRef .tc main_v94) = lin3 (G3 m c) (A7 m c) (A10 m c) := by
  refine (W12_arr m ρ c 3).trans ?_
  refine (region4 (V11 m ρ) c).trans ?_
  rw [show (V11 m ρ c main_v77 : FVec Ideal S100000x4 .f32) = _ from feat11 m ρ c, show (V11 m ρ c main_v93 : FVec Ideal S1x4 .f32) = _ from row11 m ρ c,
    show (V11 m ρ c main_arg10 : FVec Ideal S4x2 .f32) = _ from (kept11 m ρ c).a10]
  rfl

theorem agg12 : W12 m ρ c (Proc.devRef .tc main_v92) = agg2 (lin3 (G3 m c) (A7 m c) (A8 m c)) (S m c) (D m c) (N m c) :=
  (W12_of_ne m ρ c main_v92 (by decide)).trans (agg11 m ρ c)

/-! ## The results -/

theorem result0 : W13 m ρ c (Proc.devRef .tc main_v110)
    = head (A0 m c) (A1 m c) (A2 m c) (A3 m c) (A4 m c) (A5 m c) (A6 m c) (A7 m c) (A8 m c) (A9 m c) := by
  refine (k_out0 (W12 m ρ c)).trans ?_
  rw [agg12 m ρ c, (kept12 m ρ c).a9]
  rfl

theorem result1 : W13 m ρ c (Proc.devRef .tc main_v113)
    = head (A0 m c) (A1 m c) (A2 m c) (A3 m c) (A4 m c) (A5 m c) (A6 m c) (A7 m c) (A10 m c) (A11 m c) := by
  refine (k_out1 (W12 m ρ c)).trans ?_
  rw [lin12 m ρ c, (kept12 m ρ c).src, (kept12 m ρ c).dst, (kept12 m ρ c).norm, (kept12 m ρ c).a11]
  rfl

end Cert.KernelIdeal.Chain

end
-- ==== Proof.RefRun.lean ====
/-
  The reference program's run: its @main is a straight line of 228 host operations, so every weakly fair execution
  ends, and in the final memory each buffer holds what the operations, folded in order over the launch contents, leave
  there. The line is cut into thirteen consecutive stretches — the edge lists and the inverse square-root degrees; the
  first linear map; then per layer the aggregation over the edges and the bias / max(·,0) / linear map that follows —
  so that the fold can be read stretch by stretch.
-/
import proofs.«153102_j63814624084747_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 228 operations, in order (a called function's operations stand in its call's place). -/
abbrev ops : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    binary main_arg0 main_arg2 main_v17 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v16 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v6 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    unary main_v32 main_v33 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v17 main_v39 main_v40 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v33 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v40 main_v41 main_v42 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x8_S100000x8_1_0_0_1_n_n none l r) : (⟨S100000x64, .f32⟩ : BufTy).Contents (Elt F) → (⟨S64x8, .f32⟩ : BufTy).Contents (Elt F) → (⟨S100000x8, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v16 main_v56 main_v57 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_12 (constantI S_ 32 0#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v60 (broadcastInDim S3300000 ![] bcast_S_S3300000 : (⟨S_, .i32⟩ : BufTy).Contents (Elt F) → (⟨S3300000, .i32⟩ : BufTy).Contents (Elt F)),
    binary main_v6 main_v60 main_v61 (addi : (⟨S3300000, .i32⟩ : BufTy).Contents (Elt F) → (⟨S3300000, .i32⟩ : BufTy).Contents (Elt F) → (⟨S3300000, .i32⟩ : BufTy).Contents (Elt F)),
    ternary main_v59 main_v61 main_v6 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v62 main_v63 (broadcastInDim S3300000x1 ![0] bcast_S3300000_S3300000x1_0 : (⟨S3300000, .i32⟩ : BufTy).Contents (Elt F) → (⟨S3300000x1, .i32⟩ : BufTy).Contents (Elt F)),
    binary main_v16 main_v63 main_v64 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v57 main_v64 main_v65 (mulf : (⟨S3300000, .f32⟩ : BufTy).Contents (Elt F) → (⟨S3300000, .f32⟩ : BufTy).Contents (Elt F) → (⟨S3300000, .f32⟩ : BufTy).Contents (Elt F)),
    unary main_v65 main_v66 (broadcastInDim S3300000x1 ![0] bcast_S3300000_S3300000x1_0 : (⟨S3300000, .f32⟩ : BufTy).Contents (Elt F) → (⟨S3300000x1, .f32⟩ : BufTy).Contents (Elt F)),
    nullary main_c_14 (constantI S_ 32 0#32),
    unary main_c_14 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_15 (constantI S_ 32 100000#32),
    unary main_c_15 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v50 main_v72 main_v73 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v66 main_v74 (broadcastInDim S3300000x8 ![0, 1] bcast_S3300000x1_S3300000x8_0_1 : (⟨S3300000x1, .f32⟩ : BufTy).Contents (Elt F) → (⟨S3300000x8, .f32⟩ : BufTy).Contents (Elt F)),
    binary main_v73 main_v74 main_v75 (mulf : (⟨S3300000x8, .f32⟩ : BufTy).Contents (Elt F) → (⟨S3300000x8, .f32⟩ : BufTy).Contents (Elt F) → (⟨S3300000x8, .f32⟩ : BufTy).Contents (Elt F)),
    nullary main_cst_16 (constant S_ .f32 0x00000000#32),
    unary main_cst_16 main_v76 (broadcastInDim S100000x8 ![] bcast_S_S100000x8 : (⟨S_, .f32⟩ : BufTy).Contents (Elt F) → (⟨S100000x8, .f32⟩ : BufTy).Contents (Elt F)),
    unary main_v6 main_v77 (broadcastInDim S3300000x1 ![0] bcast_S3300000_S3300000x1_0 : (⟨S3300000, .i32⟩ : BufTy).Contents (Elt F) → (⟨S3300000x1, .i32⟩ : BufTy).Contents (Elt F)),
    ternary main_v76 main_v77 main_v75 main_v78 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v79 (broadcastInDim S1x8 ![1] bcast_S8_S1x8_1 : (⟨S8, .f32⟩ : BufTy).Contents (Elt F) → (⟨S1x8, .f32⟩ : BufTy).Contents (Elt F)),
    unary main_v79 main_v80 (broadcastInDim S100000x8 ![0, 1] bcast_S1x8_S100000x8_0_1 : (⟨S1x8, .f32⟩ : BufTy).Contents (Elt F) → (⟨S100000x8, .f32⟩ : BufTy).Contents (Elt F)),
    binary main_v78 main_v80 main_v81 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x8, .f32⟩) main_call2_v0) (broadcastInDim S100000x8 ![] bcast_S_S100000x8),
    TRef.binary (TRef.of (T := ⟨S100000x8, .f32⟩) main_v81) (TRef.of (T := ⟨S100000x8, .f32⟩) main_call2_v0) (TRef.of (T := ⟨S100000x8, .f32⟩) main_v82) maximumf,
    binary main_v82 main_arg6 main_v83 ((fun l r => Host.dotGeneral dot_S100000x8_S8x4_S100000x4_1_0_0_1_n_n none l r) : (⟨S100000x8, .f32⟩ : BufTy).Contents (Elt F) → (⟨S8x4, .f32⟩ : BufTy).Contents (Elt F) → (⟨S100000x4, .f32⟩ : BufTy).Contents (Elt F)),
    nullary main_c_17 (constantI S_ 32 0#32),
    unary main_c_17 main_v84 (broadcastInDim S3300000 ![] bcast_S_S3300000 : (⟨S_, .i32⟩ : BufTy).Contents (Elt F) → (⟨S3300000, .i32⟩ : BufTy).Contents (Elt F)),
    binary main_v3 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v86 (broadcastInDim S3300000 ![] bcast_S_S3300000 : (⟨S_, .i32⟩ : BufTy).Contents (Elt F) → (⟨S3300000, .i32⟩ : BufTy).Contents (Elt F)),
    binary main_v3 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v3 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v16 main_v89 main_v90 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_19 (constantI S_ 32 0#32),
    unary main_c_19 main_v91 (broadcastInDim S3300000 ![] bcast_S_S3300000 : (⟨S_, .i32⟩ : BufTy).Contents (Elt F) → (⟨S3300000, .i32⟩ : BufTy).Contents (Elt F)),
    binary main_v6 main_v91 main_v92 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v93 (broadcastInDim S3300000 ![] bcast_S_S3300000 : (⟨S_, .i32⟩ : BufTy).Contents (Elt F) → (⟨S3300000, .i32⟩ : BufTy).Contents (Elt F)),
    binary main_v6 main_v93 main_v94 (addi : (⟨S3300000, .i32⟩ : BufTy).Contents (Elt F) → (⟨S3300000, .i32⟩ : BufTy).Contents (Elt F) → (⟨S3300000, .i32⟩ : BufTy).Contents (Elt F)),
    ternary main_v92 main_v94 main_v6 main_v95 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v95 main_v96 (broadcastInDim S3300000x1 ![0] bcast_S3300000_S3300000x1_0 : (⟨S3300000, .i32⟩ : BufTy).Contents (Elt F) → (⟨S3300000x1, .i32⟩ : BufTy).Contents (Elt F)),
    binary main_v16 main_v96 main_v97 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v90 main_v97 main_v98 (mulf : (⟨S3300000, .f32⟩ : BufTy).Contents (Elt F) → (⟨S3300000, .f32⟩ : BufTy).Contents (Elt F) → (⟨S3300000, .f32⟩ : BufTy).Contents (Elt F)),
    unary main_v98 main_v99 (broadcastInDim S3300000x1 ![0] bcast_S3300000_S3300000x1_0 : (⟨S3300000, .f32⟩ : BufTy).Contents (Elt F) → (⟨S3300000x1, .f32⟩ : BufTy).Contents (Elt F)),
    nullary main_c_21 (constantI S_ 32 0#32),
    unary main_c_21 main_v100 (broadcastInDim S3300000 ![] bcast_S_S3300000 : (⟨S_, .i32⟩ : BufTy).Contents (Elt F) → (⟨S3300000, .i32⟩ : BufTy).Contents (Elt F)),
    binary main_v3 main_v100 main_v101 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v102 (broadcastInDim S3300000 ![] bcast_S_S3300000 : (⟨S_, .i32⟩ : BufTy).Contents (Elt F) → (⟨S3300000, .i32⟩ : BufTy).Contents (Elt F)),
    binary main_v3 main_v102 main_v103 (addi : (⟨S3300000, .i32⟩ : BufTy).Contents (Elt F) → (⟨S3300000, .i32⟩ : BufTy).Contents (Elt F) → (⟨S3300000, .i32⟩ : BufTy).Contents (Elt F)),
    ternary main_v101 main_v103 main_v3 main_v104 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v104 main_v105 (broadcastInDim S3300000x1 ![0] bcast_S3300000_S3300000x1_0 : (⟨S3300000, .i32⟩ : BufTy).Contents (Elt F) → (⟨S3300000x1, .i32⟩ : BufTy).Contents (Elt F)),
    binary main_v83 main_v105 main_v106 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    unary main_v99 main_v107 (broadcastInDim S3300000x4 ![0, 1] bcast_S3300000x1_S3300000x4_0_1 : (⟨S3300000x1, .f32⟩ : BufTy).Contents (Elt F) → (⟨S3300000x4, .f32⟩ : BufTy).Contents (Elt F)),
    binary main_v106 main_v107 main_v108 (mulf : (⟨S3300000x4, .f32⟩ : BufTy).Contents (Elt F) → (⟨S3300000x4, .f32⟩ : BufTy).Contents (Elt F) → (⟨S3300000x4, .f32⟩ : BufTy).Contents (Elt F)),
    nullary main_cst_23 (constant S_ .f32 0x00000000#32),
    unary main_cst_23 main_v109 (broadcastInDim S100000x4 ![] bcast_S_S100000x4 : (⟨S_, .f32⟩ : BufTy).Contents (Elt F) → (⟨S100000x4, .f32⟩ : BufTy).Contents (Elt F)),
    unary main_v6 main_v110 (broadcastInDim S3300000x1 ![0] bcast_S3300000_S3300000x1_0 : (⟨S3300000, .i32⟩ : BufTy).Contents (Elt F) → (⟨S3300000x1, .i32⟩ : BufTy).Contents (Elt F)),
    ternary main_v109 main_v110 main_v108 main_v111 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    unary main_arg7 main_v112 (broadcastInDim S1x4 ![1] bcast_S4_S1x4_1 : (⟨S4, .f32⟩ : BufTy).Contents (Elt F) → (⟨S1x4, .f32⟩ : BufTy).Contents (Elt F)),
    unary main_v112 main_v113 (broadcastInDim S100000x4 ![0, 1] bcast_S1x4_S100000x4_0_1 : (⟨S1x4, .f32⟩ : BufTy).Contents (Elt F) → (⟨S100000x4, .f32⟩ : BufTy).Contents (Elt F)),
    binary main_v111 main_v113 main_v114 (addf : (⟨S100000x4, .f32⟩ : BufTy).Contents (Elt F) → (⟨S100000x4, .f32⟩ : BufTy).Contents (Elt F) → (⟨S100000x4, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x4, .f32⟩) main_call3_v0) (broadcastInDim S100000x4 ![] bcast_S_S100000x4),
    TRef.binary (TRef.of (T := ⟨S100000x4, .f32⟩) main_v114) (TRef.of (T := ⟨S100000x4, .f32⟩) main_call3_v0) (TRef.of (T := ⟨S100000x4, .f32⟩) main_v115) maximumf,
    binary main_v115 main_arg8 main_v116 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)),
    nullary main_c_24 (constantI S_ 32 0#32),
    unary main_c_24 main_v117 (broadcastInDim S3300000 ![] bcast_S_S3300000 : (⟨S_, .i32⟩ : BufTy).Contents (Elt F) → (⟨S3300000, .i32⟩ : BufTy).Contents (Elt F)),
    binary main_v3 main_v117 main_v118 (cmpi .slt : (⟨S3300000, .i32⟩ : BufTy).Contents (Elt F) → (⟨S3300000, .i32⟩ : BufTy).Contents (Elt F) → (⟨S3300000, .i1⟩ : BufTy).Contents (Elt F)),
    nullary main_c_25 (constantI S_ 32 100000#32),
    unary main_c_25 main_v119 (broadcastInDim S3300000 ![] bcast_S_S3300000 : (⟨S_, .i32⟩ : BufTy).Contents (Elt F) → (⟨S3300000, .i32⟩ : BufTy).Contents (Elt F)),
    binary main_v3 main_v119 main_v120 (addi : (⟨S3300000, .i32⟩ : BufTy).Contents (Elt F) → (⟨S3300000, .i32⟩ : BufTy).Contents (Elt F) → (⟨S3300000, .i32⟩ : BufTy).Contents (Elt F)),
    ternary main_v118 main_v120 main_v3 main_v121 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v121 main_v122 (broadcastInDim S3300000x1 ![0] bcast_S3300000_S3300000x1_0 : (⟨S3300000, .i32⟩ : BufTy).Contents (Elt F) → (⟨S3300000x1, .i32⟩ : BufTy).Contents (Elt F)),
    binary main_v16 main_v122 main_v123 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_26 (constantI S_ 32 0#32),
    unary main_c_26 main_v124 (broadcastInDim S3300000 ![] bcast_S_S3300000 : (⟨S_, .i32⟩ : BufTy).Contents (Elt F) → (⟨S3300000, .i32⟩ : BufTy).Contents (Elt F)),
    binary main_v6 main_v124 main_v125 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v126 (broadcastInDim S3300000 ![] bcast_S_S3300000 : (⟨S_, .i32⟩ : BufTy).Contents (Elt F) → (⟨S3300000, .i32⟩ : BufTy).Contents (Elt F)),
    binary main_v6 main_v126 main_v127 (addi : (⟨S3300000, .i32⟩ : BufTy).Contents (Elt F) → (⟨S3300000, .i32⟩ : BufTy).Contents (Elt F) → (⟨S3300000, .i32⟩ : BufTy).Contents (Elt F)),
    ternary main_v125 main_v127 main_v6 main_v128 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v128 main_v129 (broadcastInDim S3300000x1 ![0] bcast_S3300000_S3300000x1_0 : (⟨S3300000, .i32⟩ : BufTy).Contents (Elt F) → (⟨S3300000x1, .i32⟩ : BufTy).Contents (Elt F)),
    binary main_v16 main_v129 main_v130 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v123 main_v130 main_v131 (mulf : (⟨S3300000, .f32⟩ : BufTy).Contents (Elt F) → (⟨S3300000, .f32⟩ : BufTy).Contents (Elt F) → (⟨S3300000, .f32⟩ : BufTy).Contents (Elt F)),
    unary main_v131 main_v132 (broadcastInDim S3300000x1 ![0] bcast_S3300000_S3300000x1_0 : (⟨S3300000, .f32⟩ : BufTy).Contents (Elt F) → (⟨S3300000x1, .f32⟩ : BufTy).Contents (Elt F)),
    nullary main_c_28 (constantI S_ 32 0#32),
    unary main_c_28 main_v133 (broadcastInDim S3300000 ![] bcast_S_S3300000 : (⟨S_, .i32⟩ : BufTy).Contents (Elt F) → (⟨S3300000, .i32⟩ : BufTy).Contents (Elt F)),
    binary main_v3 main_v133 main_v134 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v135 (broadcastInDim S3300000 ![] bcast_S_S3300000 : (⟨S_, .i32⟩ : BufTy).Contents (Elt F) → (⟨S3300000, .i32⟩ : BufTy).Contents (Elt F)),
    binary main_v3 main_v135 main_v136 (addi : (⟨S3300000, .i32⟩ : BufTy).Contents (Elt F) → (⟨S3300000, .i32⟩ : BufTy).Contents (Elt F) → (⟨S3300000, .i32⟩ : BufTy).Contents (Elt F)),
    ternary main_v134 main_v136 main_v3 main_v137 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v137 main_v138 (broadcastInDim S3300000x1 ![0] bcast_S3300000_S3300000x1_0 : (⟨S3300000, .i32⟩ : BufTy).Contents (Elt F) → (⟨S3300000x1, .i32⟩ : BufTy).Contents (Elt F)),
    binary main_v116 main_v138 main_v139 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v132 main_v140 (broadcastInDim S3300000x2 ![0, 1] bcast_S3300000x1_S3300000x2_0_1 : (⟨S3300000x1, .f32⟩ : BufTy).Contents (Elt F) → (⟨S3300000x2, .f32⟩ : BufTy).Contents (Elt F)),
    binary main_v139 main_v140 main_v141 (mulf : (⟨S3300000x2, .f32⟩ : BufTy).Contents (Elt F) → (⟨S3300000x2, .f32⟩ : BufTy).Contents (Elt F) → (⟨S3300000x2, .f32⟩ : BufTy).Contents (Elt F)),
    nullary main_cst_30 (constant S_ .f32 0x00000000#32),
    unary main_cst_30 main_v142 (broadcastInDim S100000x2 ![] bcast_S_S100000x2 : (⟨S_, .f32⟩ : BufTy).Contents (Elt F) → (⟨S100000x2, .f32⟩ : BufTy).Contents (Elt F)),
    unary main_v6 main_v143 (broadcastInDim S3300000x1 ![0] bcast_S3300000_S3300000x1_0 : (⟨S3300000, .i32⟩ : BufTy).Contents (Elt F) → (⟨S3300000x1, .i32⟩ : BufTy).Contents (Elt F)),
    ternary main_v142 main_v143 main_v141 main_v144 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg9 main_v145 (broadcastInDim S1x2 ![1] bcast_S2_S1x2_1 : (⟨S2, .f32⟩ : BufTy).Contents (Elt F) → (⟨S1x2, .f32⟩ : BufTy).Contents (Elt F)),
    unary main_v145 main_v146 (broadcastInDim S100000x2 ![0, 1] bcast_S1x2_S100000x2_0_1 : (⟨S1x2, .f32⟩ : BufTy).Contents (Elt F) → (⟨S100000x2, .f32⟩ : BufTy).Contents (Elt F)),
    binary main_v144 main_v146 main_v147 (addf : (⟨S100000x2, .f32⟩ : BufTy).Contents (Elt F) → (⟨S100000x2, .f32⟩ : BufTy).Contents (Elt F) → (⟨S100000x2, .f32⟩ : BufTy).Contents (Elt F)),
    binary main_v115 main_arg10 main_v148 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)),
    nullary main_c_31 (constantI S_ 32 0#32),
    unary main_c_31 main_v149 (broadcastInDim S3300000 ![] bcast_S_S3300000 : (⟨S_, .i32⟩ : BufTy).Contents (Elt F) → (⟨S3300000, .i32⟩ : BufTy).Contents (Elt F)),
    binary main_v3 main_v149 main_v150 (cmpi .slt : (⟨S3300000, .i32⟩ : BufTy).Contents (Elt F) → (⟨S3300000, .i32⟩ : BufTy).Contents (Elt F) → (⟨S3300000, .i1⟩ : BufTy).Contents (Elt F)),
    nullary main_c_32 (constantI S_ 32 100000#32),
    unary main_c_32 main_v151 (broadcastInDim S3300000 ![] bcast_S_S3300000 : (⟨S_, .i32⟩ : BufTy).Contents (Elt F) → (⟨S3300000, .i32⟩ : BufTy).Contents (Elt F)),
    binary main_v3 main_v151 main_v152 (addi : (⟨S3300000, .i32⟩ : BufTy).Contents (Elt F) → (⟨S3300000, .i32⟩ : BufTy).Contents (Elt F) → (⟨S3300000, .i32⟩ : BufTy).Contents (Elt F)),
    ternary main_v150 main_v152 main_v3 main_v153 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v153 main_v154 (broadcastInDim S3300000x1 ![0] bcast_S3300000_S3300000x1_0 : (⟨S3300000, .i32⟩ : BufTy).Contents (Elt F) → (⟨S3300000x1, .i32⟩ : BufTy).Contents (Elt F)),
    binary main_v16 main_v154 main_v155 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_33 (constantI S_ 32 0#32),
    unary main_c_33 main_v156 (broadcastInDim S3300000 ![] bcast_S_S3300000 : (⟨S_, .i32⟩ : BufTy).Contents (Elt F) → (⟨S3300000, .i32⟩ : BufTy).Contents (Elt F)),
    binary main_v6 main_v156 main_v157 (cmpi .slt : (⟨S3300000, .i32⟩ : BufTy).Contents (Elt F) → (⟨S3300000, .i32⟩ : BufTy).Contents (Elt F) → (⟨S3300000, .i1⟩ : BufTy).Contents (Elt F)),
    nullary main_c_34 (constantI S_ 32 100000#32),
    unary main_c_34 main_v158 (broadcastInDim S3300000 ![] bcast_S_S3300000 : (⟨S_, .i32⟩ : BufTy).Contents (Elt F) → (⟨S3300000, .i32⟩ : BufTy).Contents (Elt F)),
    binary main_v6 main_v158 main_v159 (addi : (⟨S3300000, .i32⟩ : BufTy).Contents (Elt F) → (⟨S3300000, .i32⟩ : BufTy).Contents (Elt F) → (⟨S3300000, .i32⟩ : BufTy).Contents (Elt F)),
    ternary main_v157 main_v159 main_v6 main_v160 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v160 main_v161 (broadcastInDim S3300000x1 ![0] bcast_S3300000_S3300000x1_0 : (⟨S3300000, .i32⟩ : BufTy).Contents (Elt F) → (⟨S3300000x1, .i32⟩ : BufTy).Contents (Elt F)),
    binary main_v16 main_v161 main_v162 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v155 main_v162 main_v163 (mulf : (⟨S3300000, .f32⟩ : BufTy).Contents (Elt F) → (⟨S3300000, .f32⟩ : BufTy).Contents (Elt F) → (⟨S3300000, .f32⟩ : BufTy).Contents (Elt F)),
    unary main_v163 main_v164 (broadcastInDim S3300000x1 ![0] bcast_S3300000_S3300000x1_0 : (⟨S3300000, .f32⟩ : BufTy).Contents (Elt F) → (⟨S3300000x1, .f32⟩ : BufTy).Contents (Elt F)),
    nullary main_c_35 (constantI S_ 32 0#32),
    unary main_c_35 main_v165 (broadcastInDim S3300000 ![] bcast_S_S3300000 : (⟨S_, .i32⟩ : BufTy).Contents (Elt F) → (⟨S3300000, .i32⟩ : BufTy).Contents (Elt F)),
    binary main_v3 main_v165 main_v166 (cmpi .slt : (⟨S3300000, .i32⟩ : BufTy).Contents (Elt F) → (⟨S3300000, .i32⟩ : BufTy).Contents (Elt F) → (⟨S3300000, .i1⟩ : BufTy).Contents (Elt F)),
    nullary main_c_36 (constantI S_ 32 100000#32),
    unary main_c_36 main_v167 (broadcastInDim S3300000 ![] bcast_S_S3300000 : (⟨S_, .i32⟩ : BufTy).Contents (Elt F) → (⟨S3300000, .i32⟩ : BufTy).Contents (Elt F)),
    binary main_v3 main_v167 main_v168 (addi : (⟨S3300000, .i32⟩ : BufTy).Contents (Elt F) → (⟨S3300000, .i32⟩ : BufTy).Contents (Elt F) → (⟨S3300000, .i32⟩ : BufTy).Contents (Elt F)),
    ternary main_v166 main_v168 main_v3 main_v169 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v169 main_v170 (broadcastInDim S3300000x1 ![0] bcast_S3300000_S3300000x1_0 : (⟨S3300000, .i32⟩ : BufTy).Contents (Elt F) → (⟨S3300000x1, .i32⟩ : BufTy).Contents (Elt F)),
    binary main_v148 main_v170 main_v171 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v164 main_v172 (broadcastInDim S3300000x2 ![0, 1] bcast_S3300000x1_S3300000x2_0_1 : (⟨S3300000x1, .f32⟩ : BufTy).Contents (Elt F) → (⟨S3300000x2, .f32⟩ : BufTy).Contents (Elt F)),
    binary main_v171 main_v172 main_v173 (mulf : (⟨S3300000x2, .f32⟩ : BufTy).Contents (Elt F) → (⟨S3300000x2, .f32⟩ : BufTy).Contents (Elt F) → (⟨S3300000x2, .f32⟩ : BufTy).Contents (Elt F)),
    nullary main_cst_37 (constant S_ .f32 0x00000000#32),
    unary main_cst_37 main_v174 (broadcastInDim S100000x2 ![] bcast_S_S100000x2 : (⟨S_, .f32⟩ : BufTy).Contents (Elt F) → (⟨S100000x2, .f32⟩ : BufTy).Contents (Elt F)),
    unary main_v6 main_v175 (broadcastInDim S3300000x1 ![0] bcast_S3300000_S3300000x1_0 : (⟨S3300000, .i32⟩ : BufTy).Contents (Elt F) → (⟨S3300000x1, .i32⟩ : BufTy).Contents (Elt F)),
    ternary main_v174 main_v175 main_v173 main_v176 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg11 main_v177 (broadcastInDim S1x2 ![1] bcast_S2_S1x2_1 : (⟨S2, .f32⟩ : BufTy).Contents (Elt F) → (⟨S1x2, .f32⟩ : BufTy).Contents (Elt F)),
    unary main_v177 main_v178 (broadcastInDim S100000x2 ![0, 1] bcast_S1x2_S100000x2_0_1 : (⟨S1x2, .f32⟩ : BufTy).Contents (Elt F) → (⟨S100000x2, .f32⟩ : BufTy).Contents (Elt F)),
    binary main_v176 main_v178 main_v179 (addf : (⟨S100000x2, .f32⟩ : BufTy).Contents (Elt F) → (⟨S100000x2, .f32⟩ : BufTy).Contents (Elt F) → (⟨S100000x2, .f32⟩ : BufTy).Contents (Elt F)) ]

/-- Operations 1 … 24 of @main. -/
abbrev ops_pre : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- Operations 25 … 25 of @main. -/
abbrev ops_l0 : List (HloOp τ sig (Elt F)) :=
  [
    binary main_arg0 main_arg2 main_v17 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)) ]

/-- Operations 26 … 60 of @main. -/
abbrev ops_a1 : List (HloOp τ sig (Elt F)) :=
  [
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v16 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v6 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    unary main_v32 main_v33 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v17 main_v39 main_v40 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v33 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v40 main_v41 main_v42 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- Operations 61 … 67 of @main. -/
abbrev ops_b1 : List (HloOp τ sig (Elt F)) :=
  [
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x8_S100000x8_1_0_0_1_n_n none l r) : (⟨S100000x64, .f32⟩ : BufTy).Contents (Elt F) → (⟨S64x8, .f32⟩ : BufTy).Contents (Elt F) → (⟨S100000x8, .f32⟩ : BufTy).Contents (Elt F)) ]

/-- Operations 68 … 102 of @main. -/
abbrev ops_a2 : List (HloOp τ sig (Elt F)) :=
  [
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v16 main_v56 main_v57 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_12 (constantI S_ 32 0#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v60 (broadcastInDim S3300000 ![] bcast_S_S3300000 : (⟨S_, .i32⟩ : BufTy).Contents (Elt F) → (⟨S3300000, .i32⟩ : BufTy).Contents (Elt F)),
    binary main_v6 main_v60 main_v61 (addi : (⟨S3300000, .i32⟩ : BufTy).Contents (Elt F) → (⟨S3300000, .i32⟩ : BufTy).Contents (Elt F) → (⟨S3300000, .i32⟩ : BufTy).Contents (Elt F)),
    ternary main_v59 main_v61 main_v6 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v62 main_v63 (broadcastInDim S3300000x1 ![0] bcast_S3300000_S3300000x1_0 : (⟨S3300000, .i32⟩ : BufTy).Contents (Elt F) → (⟨S3300000x1, .i32⟩ : BufTy).Contents (Elt F)),
    binary main_v16 main_v63 main_v64 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v57 main_v64 main_v65 (mulf : (⟨S3300000, .f32⟩ : BufTy).Contents (Elt F) → (⟨S3300000, .f32⟩ : BufTy).Contents (Elt F) → (⟨S3300000, .f32⟩ : BufTy).Contents (Elt F)),
    unary main_v65 main_v66 (broadcastInDim S3300000x1 ![0] bcast_S3300000_S3300000x1_0 : (⟨S3300000, .f32⟩ : BufTy).Contents (Elt F) → (⟨S3300000x1, .f32⟩ : BufTy).Contents (Elt F)),
    nullary main_c_14 (constantI S_ 32 0#32),
    unary main_c_14 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_15 (constantI S_ 32 100000#32),
    unary main_c_15 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v50 main_v72 main_v73 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v66 main_v74 (broadcastInDim S3300000x8 ![0, 1] bcast_S3300000x1_S3300000x8_0_1 : (⟨S3300000x1, .f32⟩ : BufTy).Contents (Elt F) → (⟨S3300000x8, .f32⟩ : BufTy).Contents (Elt F)),
    binary main_v73 main_v74 main_v75 (mulf : (⟨S3300000x8, .f32⟩ : BufTy).Contents (Elt F) → (⟨S3300000x8, .f32⟩ : BufTy).Contents (Elt F) → (⟨S3300000x8, .f32⟩ : BufTy).Contents (Elt F)),
    nullary main_cst_16 (constant S_ .f32 0x00000000#32),
    unary main_cst_16 main_v76 (broadcastInDim S100000x8 ![] bcast_S_S100000x8 : (⟨S_, .f32⟩ : BufTy).Contents (Elt F) → (⟨S100000x8, .f32⟩ : BufTy).Contents (Elt F)),
    unary main_v6 main_v77 (broadcastInDim S3300000x1 ![0] bcast_S3300000_S3300000x1_0 : (⟨S3300000, .i32⟩ : BufTy).Contents (Elt F) → (⟨S3300000x1, .i32⟩ : BufTy).Contents (Elt F)),
    ternary main_v76 main_v77 main_v75 main_v78 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)) ]

/-- Operations 103 … 109 of @main. -/
abbrev ops_b2 : List (HloOp τ sig (Elt F)) :=
  [
    unary main_arg5 main_v79 (broadcastInDim S1x8 ![1] bcast_S8_S1x8_1 : (⟨S8, .f32⟩ : BufTy).Contents (Elt F) → (⟨S1x8, .f32⟩ : BufTy).Contents (Elt F)),
    unary main_v79 main_v80 (broadcastInDim S100000x8 ![0, 1] bcast_S1x8_S100000x8_0_1 : (⟨S1x8, .f32⟩ : BufTy).Contents (Elt F) → (⟨S100000x8, .f32⟩ : BufTy).Contents (Elt F)),
    binary main_v78 main_v80 main_v81 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x8, .f32⟩) main_call2_v0) (broadcastInDim S100000x8 ![] bcast_S_S100000x8),
    TRef.binary (TRef.of (T := ⟨S100000x8, .f32⟩) main_v81) (TRef.of (T := ⟨S100000x8, .f32⟩) main_call2_v0) (TRef.of (T := ⟨S100000x8, .f32⟩) main_v82) maximumf,
    binary main_v82 main_arg6 main_v83 ((fun l r => Host.dotGeneral dot_S100000x8_S8x4_S100000x4_1_0_0_1_n_n none l r) : (⟨S100000x8, .f32⟩ : BufTy).Contents (Elt F) → (⟨S8x4, .f32⟩ : BufTy).Contents (Elt F) → (⟨S100000x4, .f32⟩ : BufTy).Contents (Elt F)) ]

/-- Operations 110 … 144 of @main. -/
abbrev ops_a3 : List (HloOp τ sig (Elt F)) :=
  [
    nullary main_c_17 (constantI S_ 32 0#32),
    unary main_c_17 main_v84 (broadcastInDim S3300000 ![] bcast_S_S3300000 : (⟨S_, .i32⟩ : BufTy).Contents (Elt F) → (⟨S3300000, .i32⟩ : BufTy).Contents (Elt F)),
    binary main_v3 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v86 (broadcastInDim S3300000 ![] bcast_S_S3300000 : (⟨S_, .i32⟩ : BufTy).Contents (Elt F) → (⟨S3300000, .i32⟩ : BufTy).Contents (Elt F)),
    binary main_v3 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v3 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v16 main_v89 main_v90 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_19 (constantI S_ 32 0#32),
    unary main_c_19 main_v91 (broadcastInDim S3300000 ![] bcast_S_S3300000 : (⟨S_, .i32⟩ : BufTy).Contents (Elt F) → (⟨S3300000, .i32⟩ : BufTy).Contents (Elt F)),
    binary main_v6 main_v91 main_v92 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v93 (broadcastInDim S3300000 ![] bcast_S_S3300000 : (⟨S_, .i32⟩ : BufTy).Contents (Elt F) → (⟨S3300000, .i32⟩ : BufTy).Contents (Elt F)),
    binary main_v6 main_v93 main_v94 (addi : (⟨S3300000, .i32⟩ : BufTy).Contents (Elt F) → (⟨S3300000, .i32⟩ : BufTy).Contents (Elt F) → (⟨S3300000, .i32⟩ : BufTy).Contents (Elt F)),
    ternary main_v92 main_v94 main_v6 main_v95 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v95 main_v96 (broadcastInDim S3300000x1 ![0] bcast_S3300000_S3300000x1_0 : (⟨S3300000, .i32⟩ : BufTy).Contents (Elt F) → (⟨S3300000x1, .i32⟩ : BufTy).Contents (Elt F)),
    binary main_v16 main_v96 main_v97 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v90 main_v97 main_v98 (mulf : (⟨S3300000, .f32⟩ : BufTy).Contents (Elt F) → (⟨S3300000, .f32⟩ : BufTy).Contents (Elt F) → (⟨S3300000, .f32⟩ : BufTy).Contents (Elt F)),
    unary main_v98 main_v99 (broadcastInDim S3300000x1 ![0] bcast_S3300000_S3300000x1_0 : (⟨S3300000, .f32⟩ : BufTy).Contents (Elt F) → (⟨S3300000x1, .f32⟩ : BufTy).Contents (Elt F)),
    nullary main_c_21 (constantI S_ 32 0#32),
    unary main_c_21 main_v100 (broadcastInDim S3300000 ![] bcast_S_S3300000 : (⟨S_, .i32⟩ : BufTy).Contents (Elt F) → (⟨S3300000, .i32⟩ : BufTy).Contents (Elt F)),
    binary main_v3 main_v100 main_v101 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v102 (broadcastInDim S3300000 ![] bcast_S_S3300000 : (⟨S_, .i32⟩ : BufTy).Contents (Elt F) → (⟨S3300000, .i32⟩ : BufTy).Contents (Elt F)),
    binary main_v3 main_v102 main_v103 (addi : (⟨S3300000, .i32⟩ : BufTy).Contents (Elt F) → (⟨S3300000, .i32⟩ : BufTy).Contents (Elt F) → (⟨S3300000, .i32⟩ : BufTy).Contents (Elt F)),
    ternary main_v101 main_v103 main_v3 main_v104 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v104 main_v105 (broadcastInDim S3300000x1 ![0] bcast_S3300000_S3300000x1_0 : (⟨S3300000, .i32⟩ : BufTy).Contents (Elt F) → (⟨S3300000x1, .i32⟩ : BufTy).Contents (Elt F)),
    binary main_v83 main_v105 main_v106 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    unary main_v99 main_v107 (broadcastInDim S3300000x4 ![0, 1] bcast_S3300000x1_S3300000x4_0_1 : (⟨S3300000x1, .f32⟩ : BufTy).Contents (Elt F) → (⟨S3300000x4, .f32⟩ : BufTy).Contents (Elt F)),
    binary main_v106 main_v107 main_v108 (mulf : (⟨S3300000x4, .f32⟩ : BufTy).Contents (Elt F) → (⟨S3300000x4, .f32⟩ : BufTy).Contents (Elt F) → (⟨S3300000x4, .f32⟩ : BufTy).Contents (Elt F)),
    nullary main_cst_23 (constant S_ .f32 0x00000000#32),
    unary main_cst_23 main_v109 (broadcastInDim S100000x4 ![] bcast_S_S100000x4 : (⟨S_, .f32⟩ : BufTy).Contents (Elt F) → (⟨S100000x4, .f32⟩ : BufTy).Contents (Elt F)),
    unary main_v6 main_v110 (broadcastInDim S3300000x1 ![0] bcast_S3300000_S3300000x1_0 : (⟨S3300000, .i32⟩ : BufTy).Contents (Elt F) → (⟨S3300000x1, .i32⟩ : BufTy).Contents (Elt F)),
    ternary main_v109 main_v110 main_v108 main_v111 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)) ]

/-- Operations 145 … 151 of @main. -/
abbrev ops_b3 : List (HloOp τ sig (Elt F)) :=
  [
    unary main_arg7 main_v112 (broadcastInDim S1x4 ![1] bcast_S4_S1x4_1 : (⟨S4, .f32⟩ : BufTy).Contents (Elt F) → (⟨S1x4, .f32⟩ : BufTy).Contents (Elt F)),
    unary main_v112 main_v113 (broadcastInDim S100000x4 ![0, 1] bcast_S1x4_S100000x4_0_1 : (⟨S1x4, .f32⟩ : BufTy).Contents (Elt F) → (⟨S100000x4, .f32⟩ : BufTy).Contents (Elt F)),
    binary main_v111 main_v113 main_v114 (addf : (⟨S100000x4, .f32⟩ : BufTy).Contents (Elt F) → (⟨S100000x4, .f32⟩ : BufTy).Contents (Elt F) → (⟨S100000x4, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x4, .f32⟩) main_call3_v0) (broadcastInDim S100000x4 ![] bcast_S_S100000x4),
    TRef.binary (TRef.of (T := ⟨S100000x4, .f32⟩) main_v114) (TRef.of (T := ⟨S100000x4, .f32⟩) main_call3_v0) (TRef.of (T := ⟨S100000x4, .f32⟩) main_v115) maximumf,
    binary main_v115 main_arg8 main_v116 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)) ]

/-- Operations 152 … 186 of @main. -/
abbrev ops_a4 : List (HloOp τ sig (Elt F)) :=
  [
    nullary main_c_24 (constantI S_ 32 0#32),
    unary main_c_24 main_v117 (broadcastInDim S3300000 ![] bcast_S_S3300000 : (⟨S_, .i32⟩ : BufTy).Contents (Elt F) → (⟨S3300000, .i32⟩ : BufTy).Contents (Elt F)),
    binary main_v3 main_v117 main_v118 (cmpi .slt : (⟨S3300000, .i32⟩ : BufTy).Contents (Elt F) → (⟨S3300000, .i32⟩ : BufTy).Contents (Elt F) → (⟨S3300000, .i1⟩ : BufTy).Contents (Elt F)),
    nullary main_c_25 (constantI S_ 32 100000#32),
    unary main_c_25 main_v119 (broadcastInDim S3300000 ![] bcast_S_S3300000 : (⟨S_, .i32⟩ : BufTy).Contents (Elt F) → (⟨S3300000, .i32⟩ : BufTy).Contents (Elt F)),
    binary main_v3 main_v119 main_v120 (addi : (⟨S3300000, .i32⟩ : BufTy).Contents (Elt F) → (⟨S3300000, .i32⟩ : BufTy).Contents (Elt F) → (⟨S3300000, .i32⟩ : BufTy).Contents (Elt F)),
    ternary main_v118 main_v120 main_v3 main_v121 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v121 main_v122 (broadcastInDim S3300000x1 ![0] bcast_S3300000_S3300000x1_0 : (⟨S3300000, .i32⟩ : BufTy).Contents (Elt F) → (⟨S3300000x1, .i32⟩ : BufTy).Contents (Elt F)),
    binary main_v16 main_v122 main_v123 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_26 (constantI S_ 32 0#32),
    unary main_c_26 main_v124 (broadcastInDim S3300000 ![] bcast_S_S3300000 : (⟨S_, .i32⟩ : BufTy).Contents (Elt F) → (⟨S3300000, .i32⟩ : BufTy).Contents (Elt F)),
    binary main_v6 main_v124 main_v125 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v126 (broadcastInDim S3300000 ![] bcast_S_S3300000 : (⟨S_, .i32⟩ : BufTy).Contents (Elt F) → (⟨S3300000, .i32⟩ : BufTy).Contents (Elt F)),
    binary main_v6 main_v126 main_v127 (addi : (⟨S3300000, .i32⟩ : BufTy).Contents (Elt F) → (⟨S3300000, .i32⟩ : BufTy).Contents (Elt F) → (⟨S3300000, .i32⟩ : BufTy).Contents (Elt F)),
    ternary main_v125 main_v127 main_v6 main_v128 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v128 main_v129 (broadcastInDim S3300000x1 ![0] bcast_S3300000_S3300000x1_0 : (⟨S3300000, .i32⟩ : BufTy).Contents (Elt F) → (⟨S3300000x1, .i32⟩ : BufTy).Contents (Elt F)),
    binary main_v16 main_v129 main_v130 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v123 main_v130 main_v131 (mulf : (⟨S3300000, .f32⟩ : BufTy).Contents (Elt F) → (⟨S3300000, .f32⟩ : BufTy).Contents (Elt F) → (⟨S3300000, .f32⟩ : BufTy).Contents (Elt F)),
    unary main_v131 main_v132 (broadcastInDim S3300000x1 ![0] bcast_S3300000_S3300000x1_0 : (⟨S3300000, .f32⟩ : BufTy).Contents (Elt F) → (⟨S3300000x1, .f32⟩ : BufTy).Contents (Elt F)),
    nullary main_c_28 (constantI S_ 32 0#32),
    unary main_c_28 main_v133 (broadcastInDim S3300000 ![] bcast_S_S3300000 : (⟨S_, .i32⟩ : BufTy).Contents (Elt F) → (⟨S3300000, .i32⟩ : BufTy).Contents (Elt F)),
    binary main_v3 main_v133 main_v134 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v135 (broadcastInDim S3300000 ![] bcast_S_S3300000 : (⟨S_, .i32⟩ : BufTy).Contents (Elt F) → (⟨S3300000, .i32⟩ : BufTy).Contents (Elt F)),
    binary main_v3 main_v135 main_v136 (addi : (⟨S3300000, .i32⟩ : BufTy).Contents (Elt F) → (⟨S3300000, .i32⟩ : BufTy).Contents (Elt F) → (⟨S3300000, .i32⟩ : BufTy).Contents (Elt F)),
    ternary main_v134 main_v136 main_v3 main_v137 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v137 main_v138 (broadcastInDim S3300000x1 ![0] bcast_S3300000_S3300000x1_0 : (⟨S3300000, .i32⟩ : BufTy).Contents (Elt F) → (⟨S3300000x1, .i32⟩ : BufTy).Contents (Elt F)),
    binary main_v116 main_v138 main_v139 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v132 main_v140 (broadcastInDim S3300000x2 ![0, 1] bcast_S3300000x1_S3300000x2_0_1 : (⟨S3300000x1, .f32⟩ : BufTy).Contents (Elt F) → (⟨S3300000x2, .f32⟩ : BufTy).Contents (Elt F)),
    binary main_v139 main_v140 main_v141 (mulf : (⟨S3300000x2, .f32⟩ : BufTy).Contents (Elt F) → (⟨S3300000x2, .f32⟩ : BufTy).Contents (Elt F) → (⟨S3300000x2, .f32⟩ : BufTy).Contents (Elt F)),
    nullary main_cst_30 (constant S_ .f32 0x00000000#32),
    unary main_cst_30 main_v142 (broadcastInDim S100000x2 ![] bcast_S_S100000x2 : (⟨S_, .f32⟩ : BufTy).Contents (Elt F) → (⟨S100000x2, .f32⟩ : BufTy).Contents (Elt F)),
    unary main_v6 main_v143 (broadcastInDim S3300000x1 ![0] bcast_S3300000_S3300000x1_0 : (⟨S3300000, .i32⟩ : BufTy).Contents (Elt F) → (⟨S3300000x1, .i32⟩ : BufTy).Contents (Elt F)),
    ternary main_v142 main_v143 main_v141 main_v144 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Operations 187 … 189 of @main. -/
abbrev ops_o4 : List (HloOp τ sig (Elt F)) :=
  [
    unary main_arg9 main_v145 (broadcastInDim S1x2 ![1] bcast_S2_S1x2_1 : (⟨S2, .f32⟩ : BufTy).Contents (Elt F) → (⟨S1x2, .f32⟩ : BufTy).Contents (Elt F)),
    unary main_v145 main_v146 (broadcastInDim S100000x2 ![0, 1] bcast_S1x2_S100000x2_0_1 : (⟨S1x2, .f32⟩ : BufTy).Contents (Elt F) → (⟨S100000x2, .f32⟩ : BufTy).Contents (Elt F)),
    binary main_v144 main_v146 main_v147 (addf : (⟨S100000x2, .f32⟩ : BufTy).Contents (Elt F) → (⟨S100000x2, .f32⟩ : BufTy).Contents (Elt F) → (⟨S100000x2, .f32⟩ : BufTy).Contents (Elt F)) ]

/-- Operations 190 … 190 of @main. -/
abbrev ops_l5 : List (HloOp τ sig (Elt F)) :=
  [
    binary main_v115 main_arg10 main_v148 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)) ]

/-- Operations 191 … 225 of @main. -/
abbrev ops_a5 : List (HloOp τ sig (Elt F)) :=
  [
    nullary main_c_31 (constantI S_ 32 0#32),
    unary main_c_31 main_v149 (broadcastInDim S3300000 ![] bcast_S_S3300000 : (⟨S_, .i32⟩ : BufTy).Contents (Elt F) → (⟨S3300000, .i32⟩ : BufTy).Contents (Elt F)),
    binary main_v3 main_v149 main_v150 (cmpi .slt : (⟨S3300000, .i32⟩ : BufTy).Contents (Elt F) → (⟨S3300000, .i32⟩ : BufTy).Contents (Elt F) → (⟨S3300000, .i1⟩ : BufTy).Contents (Elt F)),
    nullary main_c_32 (constantI S_ 32 100000#32),
    unary main_c_32 main_v151 (broadcastInDim S3300000 ![] bcast_S_S3300000 : (⟨S_, .i32⟩ : BufTy).Contents (Elt F) → (⟨S3300000, .i32⟩ : BufTy).Contents (Elt F)),
    binary main_v3 main_v151 main_v152 (addi : (⟨S3300000, .i32⟩ : BufTy).Contents (Elt F) → (⟨S3300000, .i32⟩ : BufTy).Contents (Elt F) → (⟨S3300000, .i32⟩ : BufTy).Contents (Elt F)),
    ternary main_v150 main_v152 main_v3 main_v153 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v153 main_v154 (broadcastInDim S3300000x1 ![0] bcast_S3300000_S3300000x1_0 : (⟨S3300000, .i32⟩ : BufTy).Contents (Elt F) → (⟨S3300000x1, .i32⟩ : BufTy).Contents (Elt F)),
    binary main_v16 main_v154 main_v155 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_33 (constantI S_ 32 0#32),
    unary main_c_33 main_v156 (broadcastInDim S3300000 ![] bcast_S_S3300000 : (⟨S_, .i32⟩ : BufTy).Contents (Elt F) → (⟨S3300000, .i32⟩ : BufTy).Contents (Elt F)),
    binary main_v6 main_v156 main_v157 (cmpi .slt : (⟨S3300000, .i32⟩ : BufTy).Contents (Elt F) → (⟨S3300000, .i32⟩ : BufTy).Contents (Elt F) → (⟨S3300000, .i1⟩ : BufTy).Contents (Elt F)),
    nullary main_c_34 (constantI S_ 32 100000#32),
    unary main_c_34 main_v158 (broadcastInDim S3300000 ![] bcast_S_S3300000 : (⟨S_, .i32⟩ : BufTy).Contents (Elt F) → (⟨S3300000, .i32⟩ : BufTy).Contents (Elt F)),
    binary main_v6 main_v158 main_v159 (addi : (⟨S3300000, .i32⟩ : BufTy).Contents (Elt F) → (⟨S3300000, .i32⟩ : BufTy).Contents (Elt F) → (⟨S3300000, .i32⟩ : BufTy).Contents (Elt F)),
    ternary main_v157 main_v159 main_v6 main_v160 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v160 main_v161 (broadcastInDim S3300000x1 ![0] bcast_S3300000_S3300000x1_0 : (⟨S3300000, .i32⟩ : BufTy).Contents (Elt F) → (⟨S3300000x1, .i32⟩ : BufTy).Contents (Elt F)),
    binary main_v16 main_v161 main_v162 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v155 main_v162 main_v163 (mulf : (⟨S3300000, .f32⟩ : BufTy).Contents (Elt F) → (⟨S3300000, .f32⟩ : BufTy).Contents (Elt F) → (⟨S3300000, .f32⟩ : BufTy).Contents (Elt F)),
    unary main_v163 main_v164 (broadcastInDim S3300000x1 ![0] bcast_S3300000_S3300000x1_0 : (⟨S3300000, .f32⟩ : BufTy).Contents (Elt F) → (⟨S3300000x1, .f32⟩ : BufTy).Contents (Elt F)),
    nullary main_c_35 (constantI S_ 32 0#32),
    unary main_c_35 main_v165 (broadcastInDim S3300000 ![] bcast_S_S3300000 : (⟨S_, .i32⟩ : BufTy).Contents (Elt F) → (⟨S3300000, .i32⟩ : BufTy).Contents (Elt F)),
    binary main_v3 main_v165 main_v166 (cmpi .slt : (⟨S3300000, .i32⟩ : BufTy).Contents (Elt F) → (⟨S3300000, .i32⟩ : BufTy).Contents (Elt F) → (⟨S3300000, .i1⟩ : BufTy).Contents (Elt F)),
    nullary main_c_36 (constantI S_ 32 100000#32),
    unary main_c_36 main_v167 (broadcastInDim S3300000 ![] bcast_S_S3300000 : (⟨S_, .i32⟩ : BufTy).Contents (Elt F) → (⟨S3300000, .i32⟩ : BufTy).Contents (Elt F)),
    binary main_v3 main_v167 main_v168 (addi : (⟨S3300000, .i32⟩ : BufTy).Contents (Elt F) → (⟨S3300000, .i32⟩ : BufTy).Contents (Elt F) → (⟨S3300000, .i32⟩ : BufTy).Contents (Elt F)),
    ternary main_v166 main_v168 main_v3 main_v169 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v169 main_v170 (broadcastInDim S3300000x1 ![0] bcast_S3300000_S3300000x1_0 : (⟨S3300000, .i32⟩ : BufTy).Contents (Elt F) → (⟨S3300000x1, .i32⟩ : BufTy).Contents (Elt F)),
    binary main_v148 main_v170 main_v171 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v164 main_v172 (broadcastInDim S3300000x2 ![0, 1] bcast_S3300000x1_S3300000x2_0_1 : (⟨S3300000x1, .f32⟩ : BufTy).Contents (Elt F) → (⟨S3300000x2, .f32⟩ : BufTy).Contents (Elt F)),
    binary main_v171 main_v172 main_v173 (mulf : (⟨S3300000x2, .f32⟩ : BufTy).Contents (Elt F) → (⟨S3300000x2, .f32⟩ : BufTy).Contents (Elt F) → (⟨S3300000x2, .f32⟩ : BufTy).Contents (Elt F)),
    nullary main_cst_37 (constant S_ .f32 0x00000000#32),
    unary main_cst_37 main_v174 (broadcastInDim S100000x2 ![] bcast_S_S100000x2 : (⟨S_, .f32⟩ : BufTy).Contents (Elt F) → (⟨S100000x2, .f32⟩ : BufTy).Contents (Elt F)),
    unary main_v6 main_v175 (broadcastInDim S3300000x1 ![0] bcast_S3300000_S3300000x1_0 : (⟨S3300000, .i32⟩ : BufTy).Contents (Elt F) → (⟨S3300000x1, .i32⟩ : BufTy).Contents (Elt F)),
    ternary main_v174 main_v175 main_v173 main_v176 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Operations 226 … 228 of @main. -/
abbrev ops_o5 : List (HloOp τ sig (Elt F)) :=
  [
    unary main_arg11 main_v177 (broadcastInDim S1x2 ![1] bcast_S2_S1x2_1 : (⟨S2, .f32⟩ : BufTy).Contents (Elt F) → (⟨S1x2, .f32⟩ : BufTy).Contents (Elt F)),
    unary main_v177 main_v178 (broadcastInDim S100000x2 ![0, 1] bcast_S1x2_S100000x2_0_1 : (⟨S1x2, .f32⟩ : BufTy).Contents (Elt F) → (⟨S100000x2, .f32⟩ : BufTy).Contents (Elt F)),
    binary main_v176 main_v178 main_v179 (addf : (⟨S100000x2, .f32⟩ : BufTy).Contents (Elt F) → (⟨S100000x2, .f32⟩ : BufTy).Contents (Elt F) → (⟨S100000x2, .f32⟩ : BufTy).Contents (Elt F)) ]

set_option maxRecDepth 8192 in
/-- The line is its thirteen stretches, one after the other. -/
theorem ops_split : (ops : List (HloOp τ sig (Elt F))) = ops_pre ++ (ops_l0 ++ (ops_a1 ++ (ops_b1 ++ (ops_a2 ++ (ops_b2 ++ (ops_a3 ++ (ops_b3 ++ (ops_a4 ++ (ops_o4 ++ (ops_l5 ++ (ops_a5 ++ (ops_o5)))))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- Two stretches run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- On every device, from any memory with zero counters: every weakly fair execution of @main ends with each buffer at
    the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefStretches.lean ====
/-
  The reference program's thirteen stretches, each read as one function of the buffers it finds: the edge lists and
  the inverse square-root degrees; a linear map; per layer the edge normalisation recomputed and the aggregation over
  the edges; bias, max(·, 0) and the next linear map; the output biases.
-/
import proofs.«153102_j63814624084747_1_alg».proof.Proof.RefRun
import proofs.«153102_j63814624084747_1_alg».proof.Proof.Spec
set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.Gcn

variable (V : Valuation τ sig (Elt Ideal))

set_option maxHeartbeats 2000000 in
theorem r_src : StableHlo.after ops_pre V (Proc.devRef .tc main_v3) = srcOf (V (Proc.devRef .tc main_arg1)) := by
  after_results_simp
  try rfl

set_option maxHeartbeats 2000000 in
theorem r_dst : StableHlo.after ops_pre V (Proc.devRef .tc main_v6) = dstOf (V (Proc.devRef .tc main_arg1)) := by
  after_results_simp
  try rfl

/-- The first stretch up to the degree mask and the inverse square root, and the three operations of the masked
    selection that follow. -/
abbrev ops_pre_a {F : FTy → Type} [FloatOps F] : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]
abbrev ops_pre_b {F : FTy → Type} [FloatOps F] : List (HloOp τ sig (Elt F)) :=
  [
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]
theorem ops_pre_split {F : FTy → Type} [FloatOps F] : (ops_pre : List (HloOp τ sig (Elt F))) = ops_pre_a ++ ops_pre_b := rfl

set_option maxHeartbeats 2000000 in
theorem r_mask : StableHlo.after ops_pre_a V (Proc.devRef .tc main_v12) = cmpf (F := Ideal) .ogt (degOf (dstOf (V (Proc.devRef .tc main_arg1)))) (broadcastInDim S100000 ![] Cert.ReferenceIdeal.Facts₀.bcast_S_S100000 (constant (F := Ideal) S_ .f32 0x00000000#32)) := by
  after_results_simp
  try rfl

set_option maxHeartbeats 2000000 in
theorem r_rsqrt : StableHlo.after ops_pre_a V (Proc.devRef .tc main_v15) = Host.rsqrt (F := Ideal) (φ := .f32) (maximumf (F := Ideal) (φ := .f32) (degOf (dstOf (V (Proc.devRef .tc main_arg1)))) (broadcastInDim S100000 ![] Cert.ReferenceIdeal.Facts₀.bcast_S_S100000 (constant (F := Ideal) S_ .f32 0x3F800000#32))) := by
  after_results_simp
  try rfl

set_option maxHeartbeats 2000000 in
theorem r_zero : StableHlo.after ops_pre_a V (Proc.devRef .tc main_cst_3) = constant (F := Ideal) S_ .f32 0x00000000#32 := by
  after_results_simp
  try rfl

set_option maxHeartbeats 2000000 in
theorem r_sel : StableHlo.after ops_pre_b V (Proc.devRef .tc main_v16) = select (V (Proc.devRef .tc main_v12)) (V (Proc.devRef .tc main_v15)) (broadcastInDim S100000 ![] Cert.ReferenceIdeal.Facts₀.bcast_S_S100000 (id (V (Proc.devRef .tc main_cst_3)))) := by
  after_results_simp
  try rfl

theorem r_dinv : StableHlo.after ops_pre V (Proc.devRef .tc main_v16) = dinvOf (dstOf (V (Proc.devRef .tc main_arg1))) := by
  rw [ops_pre_split, after_append]
  refine (r_sel (StableHlo.after ops_pre_a V)).trans ?_
  rw [r_mask V, r_rsqrt V, r_zero V]
  rfl

set_option maxHeartbeats 2000000 in
theorem r_lin0 : StableHlo.after ops_l0 V (Proc.devRef .tc main_v17) = lin0 (V (Proc.devRef .tc main_arg0)) (V (Proc.devRef .tc main_arg2)) := by
  after_results_simp
  try rfl

set_option maxHeartbeats 8000000 in
theorem r_a1 : StableHlo.after ops_a1 V (Proc.devRef .tc main_v45) = agg64 (V (Proc.devRef .tc main_v17)) (V (Proc.devRef .tc main_v3)) (V (Proc.devRef .tc main_v6)) (normOf (V (Proc.devRef .tc main_v16)) (V (Proc.devRef .tc main_v3)) (V (Proc.devRef .tc main_v6))) := by
  after_results_simp
  try rfl

set_option maxHeartbeats 8000000 in
theorem r_a2 : StableHlo.after ops_a2 V (Proc.devRef .tc main_v78) = agg8 (V (Proc.devRef .tc main_v50)) (V (Proc.devRef .tc main_v3)) (V (Proc.devRef .tc main_v6)) (normOf (V (Proc.devRef .tc main_v16)) (V (Proc.devRef .tc main_v3)) (V (Proc.devRef .tc main_v6))) := by
  after_results_simp
  try rfl

set_option maxHeartbeats 8000000 in
theorem r_a3 : StableHlo.after ops_a3 V (Proc.devRef .tc main_v111) = agg4 (V (Proc.devRef .tc main_v83)) (V (Proc.devRef .tc main_v3)) (V (Proc.devRef .tc main_v6)) (normOf (V (Proc.devRef .tc main_v16)) (V (Proc.devRef .tc main_v3)) (V (Proc.devRef .tc main_v6))) := by
  after_results_simp
  try rfl

set_option maxHeartbeats 8000000 in
theorem r_a4 : StableHlo.after ops_a4 V (Proc.devRef .tc main_v144) = agg2 (V (Proc.devRef .tc main_v116)) (V (Proc.devRef .tc main_v3)) (V (Proc.devRef .tc main_v6)) (normOf (V (Proc.devRef .tc main_v16)) (V (Proc.devRef .tc main_v3)) (V (Proc.devRef .tc main_v6))) := by
  after_results_simp
  try rfl

set_option maxHeartbeats 8000000 in
theorem r_a5 : StableHlo.after ops_a5 V (Proc.devRef .tc main_v176) = agg2 (V (Proc.devRef .tc main_v148)) (V (Proc.devRef .tc main_v3)) (V (Proc.devRef .tc main_v6)) (normOf (V (Proc.devRef .tc main_v16)) (V (Proc.devRef .tc main_v3)) (V (Proc.devRef .tc main_v6))) := by
  after_results_simp
  try rfl

set_option maxHeartbeats 2000000 in
theorem r_b1 : StableHlo.after ops_b1 V (Proc.devRef .tc main_v50) = lin1 (V (Proc.devRef .tc main_v45)) (V (Proc.devRef .tc main_arg3)) (V (Proc.devRef .tc main_arg4)) := by
  after_results_simp
  try rfl

set_option maxHeartbeats 2000000 in
theorem r_b2 : StableHlo.after ops_b2 V (Proc.devRef .tc main_v83) = lin2 (V (Proc.devRef .tc main_v78)) (V (Proc.devRef .tc main_arg5)) (V (Proc.devRef .tc main_arg6)) := by
  after_results_simp
  try rfl

set_option maxHeartbeats 2000000 in
theorem r_b3 : StableHlo.after ops_b3 V (Proc.devRef .tc main_v116) = lin3 (V (Proc.devRef .tc main_v111)) (V (Proc.devRef .tc main_arg7)) (V (Proc.devRef .tc main_arg8)) := by
  after_results_simp
  try rfl

set_option maxHeartbeats 2000000 in
theorem r_act3 : StableHlo.after ops_b3 V (Proc.devRef .tc main_v115) = act4 (V (Proc.devRef .tc main_v111)) (V (Proc.devRef .tc main_arg7)) := by
  after_results_simp
  try rfl

set_option maxHeartbeats 2000000 in
theorem r_o4 : StableHlo.after ops_o4 V (Proc.devRef .tc main_v147) = addBias2 (V (Proc.devRef .tc main_v144)) (V (Proc.devRef .tc main_arg9)) := by
  after_results_simp
  try rfl

set_option maxHeartbeats 2000000 in
theorem r_l5 : StableHlo.after ops_l5 V (Proc.devRef .tc main_v148) = Host.dotGeneral (F := Ideal) (φ₁ := .f32) (φ₂ := .f32) dot_S100000x4_S4x2_S100000x2_1_0_0_1_n_n none (V (Proc.devRef .tc main_v115)) (V (Proc.devRef .tc main_arg10)) := by
  after_results_simp
  try rfl

set_option maxHeartbeats 2000000 in
theorem r_o5 : StableHlo.after ops_o5 V (Proc.devRef .tc main_v179) = addBias2 (V (Proc.devRef .tc main_v176)) (V (Proc.devRef .tc main_arg11)) := by
  after_results_simp
  try rfl

end Cert.ReferenceIdeal.Hand

end
-- ==== Proof.RefCarried.lean ====
/-
  What the reference's later stretches leave untouched: the edge sources and destinations, the inverse square-root
  degrees and the twelve arguments are written by the first stretch or never, so every later stretch finds them as
  they were.
-/
import proofs.«153102_j63814624084747_1_alg».proof.Proof.RefRun
import Idealize.ShloMosaic.PureOps.Ideal

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

/-- An operation that writes one listed buffer writes only listed buffers. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt Ideal) ℓ) (c : Dev nD)

/-- The buffers every later stretch finds as the first left them. -/
def carried : List (Ref sig .tc) := [main_v3, main_v6, main_v16, main_arg0, main_arg1, main_arg2, main_arg3, main_arg4, main_arg5, main_arg6, main_arg7, main_arg8, main_arg9, main_arg10, main_arg11]

/-- At the contents `W`: the edge sources, the edge destinations and the inverse square-root degrees are the given
    arrays, and every argument is as launched. -/
structure Kept (s d : (⟨S3300000, .i32⟩ : BufTy).Contents (Elt Ideal)) (v : (⟨S100000, .f32⟩ : BufTy).Contents (Elt Ideal))
    (W : Valuation τ sig (Elt Ideal)) : Prop where
  src : W (Proc.devRef .tc main_v3) = s
  dst : W (Proc.devRef .tc main_v6) = d
  dinv : W (Proc.devRef .tc main_v16) = v
  a0 : W (Proc.devRef .tc main_arg0) = m ((c.tc : Thread nD τ).loc main_arg0)
  a1 : W (Proc.devRef .tc main_arg1) = m ((c.tc : Thread nD τ).loc main_arg1)
  a2 : W (Proc.devRef .tc main_arg2) = m ((c.tc : Thread nD τ).loc main_arg2)
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)
  a8 : W (Proc.devRef .tc main_arg8) = m ((c.tc : Thread nD τ).loc main_arg8)
  a9 : W (Proc.devRef .tc main_arg9) = m ((c.tc : Thread nD τ).loc main_arg9)
  a10 : W (Proc.devRef .tc main_arg10) = m ((c.tc : Thread nD τ).loc main_arg10)
  a11 : W (Proc.devRef .tc main_arg11) = m ((c.tc : Thread nD τ).loc main_arg11)

variable {m c}
variable {s d : (⟨S3300000, .i32⟩ : BufTy).Contents (Elt Ideal)} {v : (⟨S100000, .f32⟩ : BufTy).Contents (Elt Ideal)}

/-- A stretch that writes none of the carried buffers keeps them. -/
theorem Kept.host {W : Valuation τ sig (Elt Ideal)} (h : Kept m c s d v W) (ops : List (HloOp τ sig (Elt Ideal))) (w : List (Ref sig .tc))
    (hw : ops.Forall fun op => op.writes ⊆ (w.map (Proc.devRef (τ := τ) .tc)).toFinset) (hfree : ∀ r ∈ carried, r ∉ w) :
    Kept m c s d v (StableHlo.after ops W) where
  src := (StableHlo.after_of_writes_sub ops W hw (hfree main_v3 (by decide))).trans h.src
  dst := (StableHlo.after_of_writes_sub ops W hw (hfree main_v6 (by decide))).trans h.dst
  dinv := (StableHlo.after_of_writes_sub ops W hw (hfree main_v16 (by decide))).trans h.dinv
  a0 := (StableHlo.after_of_writes_sub ops W hw (hfree main_arg0 (by decide))).trans h.a0
  a1 := (StableHlo.after_of_writes_sub ops W hw (hfree main_arg1 (by decide))).trans h.a1
  a2 := (StableHlo.after_of_writes_sub ops W hw (hfree main_arg2 (by decide))).trans h.a2
  a3 := (StableHlo.after_of_writes_sub ops W hw (hfree main_arg3 (by decide))).trans h.a3
  a4 := (StableHlo.after_of_writes_sub ops W hw (hfree main_arg4 (by decide))).trans h.a4
  a5 := (StableHlo.after_of_writes_sub ops W hw (hfree main_arg5 (by decide))).trans h.a5
  a6 := (StableHlo.after_of_writes_sub ops W hw (hfree main_arg6 (by decide))).trans h.a6
  a7 := (StableHlo.after_of_writes_sub ops W hw (hfree main_arg7 (by decide))).trans h.a7
  a8 := (StableHlo.after_of_writes_sub ops W hw (hfree main_arg8 (by decide))).trans h.a8
  a9 := (StableHlo.after_of_writes_sub ops W hw (hfree main_arg9 (by decide))).trans h.a9
  a10 := (StableHlo.after_of_writes_sub ops W hw (hfree main_arg10 (by decide))).trans h.a10
  a11 := (StableHlo.after_of_writes_sub ops W hw (hfree main_arg11 (by decide))).trans h.a11

/-- The buffers the stretch `ops_pre` writes, in order. -/
def written_pre : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16]

theorem writes_sub_pre : (ops_pre : List (HloOp τ sig (Elt Ideal))).Forall fun op => op.writes ⊆ ((written_pre).map (Proc.devRef (τ := τ) .tc)).toFinset := by
  simp only [ops_pre, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_pre (V : Valuation τ sig (Elt Ideal)) (r : Ref sig .tc) (hr : r ∉ written_pre) :
    StableHlo.after ops_pre V (Proc.devRef .tc r) = V (Proc.devRef .tc r) :=
  StableHlo.after_of_writes_sub ops_pre V writes_sub_pre hr

/-- The buffers the stretch `ops_l0` writes, in order. -/
def written_l0 : List (Ref sig .tc) := [main_v17]

theorem writes_sub_l0 : (ops_l0 : List (HloOp τ sig (Elt Ideal))).Forall fun op => op.writes ⊆ ((written_l0).map (Proc.devRef (τ := τ) .tc)).toFinset := by
  simp only [ops_l0, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_l0 (V : Valuation τ sig (Elt Ideal)) (r : Ref sig .tc) (hr : r ∉ written_l0) :
    StableHlo.after ops_l0 V (Proc.devRef .tc r) = V (Proc.devRef .tc r) :=
  StableHlo.after_of_writes_sub ops_l0 V writes_sub_l0 hr

theorem Kept.host_l0 {W : Valuation τ sig (Elt Ideal)} (h : Kept m c s d v W) : Kept m c s d v (StableHlo.after ops_l0 W) :=
  h.host ops_l0 written_l0 writes_sub_l0 (by decide)

/-- The buffers the stretch `ops_a1` writes, in order. -/
def written_a1 : List (Ref sig .tc) := [main_c, main_v18, main_v19, main_c_4, main_v20, main_v21, main_v22, main_v23, main_v24, main_c_5, main_v25, main_v26, main_c_6, main_v27, main_v28, main_v29, main_v30, main_v31, main_v32, main_v33, main_c_7, main_v34, main_v35, main_c_8, main_v36, main_v37, main_v38, main_v39, main_v40, main_v41, main_v42, main_cst_9, main_v43, main_v44, main_v45]

theorem writes_sub_a1 : (ops_a1 : List (HloOp τ sig (Elt Ideal))).Forall fun op => op.writes ⊆ ((written_a1).map (Proc.devRef (τ := τ) .tc)).toFinset := by
  simp only [ops_a1, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_a1 (V : Valuation τ sig (Elt Ideal)) (r : Ref sig .tc) (hr : r ∉ written_a1) :
    StableHlo.after ops_a1 V (Proc.devRef .tc r) = V (Proc.devRef .tc r) :=
  StableHlo.after_of_writes_sub ops_a1 V writes_sub_a1 hr

theorem Kept.host_a1 {W : Valuation τ sig (Elt Ideal)} (h : Kept m c s d v W) : Kept m c s d v (StableHlo.after ops_a1 W) :=
  h.host ops_a1 written_a1 writes_sub_a1 (by decide)

/-- The buffers the stretch `ops_b1` writes, in order. -/
def written_b1 : List (Ref sig .tc) := [main_v46, main_v47, main_v48, main_call1_cst, main_call1_v0, main_v49, main_v50]

theorem writes_sub_b1 : (ops_b1 : List (HloOp τ sig (Elt Ideal))).Forall fun op => op.writes ⊆ ((written_b1).map (Proc.devRef (τ := τ) .tc)).toFinset := by
  simp only [ops_b1, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_b1 (V : Valuation τ sig (Elt Ideal)) (r : Ref sig .tc) (hr : r ∉ written_b1) :
    StableHlo.after ops_b1 V (Proc.devRef .tc r) = V (Proc.devRef .tc r) :=
  StableHlo.after_of_writes_sub ops_b1 V writes_sub_b1 hr

theorem Kept.host_b1 {W : Valuation τ sig (Elt Ideal)} (h : Kept m c s d v W) : Kept m c s d v (StableHlo.after ops_b1 W) :=
  h.host ops_b1 written_b1 writes_sub_b1 (by decide)

/-- The buffers the stretch `ops_a2` writes, in order. -/
def written_a2 : List (Ref sig .tc) := [main_c_10, main_v51, main_v52, main_c_11, main_v53, main_v54, main_v55, main_v56, main_v57, main_c_12, main_v58, main_v59, main_c_13, main_v60, main_v61, main_v62, main_v63, main_v64, main_v65, main_v66, main_c_14, main_v67, main_v68, main_c_15, main_v69, main_v70, main_v71, main_v72, main_v73, main_v74, main_v75, main_cst_16, main_v76, main_v77, main_v78]

theorem writes_sub_a2 : (ops_a2 : List (HloOp τ sig (Elt Ideal))).Forall fun op => op.writes ⊆ ((written_a2).map (Proc.devRef (τ := τ) .tc)).toFinset := by
  simp only [ops_a2, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_a2 (V : Valuation τ sig (Elt Ideal)) (r : Ref sig .tc) (hr : r ∉ written_a2) :
    StableHlo.after ops_a2 V (Proc.devRef .tc r) = V (Proc.devRef .tc r) :=
  StableHlo.after_of_writes_sub ops_a2 V writes_sub_a2 hr

theorem Kept.host_a2 {W : Valuation τ sig (Elt Ideal)} (h : Kept m c s d v W) : Kept m c s d v (StableHlo.after ops_a2 W) :=
  h.host ops_a2 written_a2 writes_sub_a2 (by decide)

/-- The buffers the stretch `ops_b2` writes, in order. -/
def written_b2 : List (Ref sig .tc) := [main_v79, main_v80, main_v81, main_call2_cst, main_call2_v0, main_v82, main_v83]

theorem writes_sub_b2 : (ops_b2 : List (HloOp τ sig (Elt Ideal))).Forall fun op => op.writes ⊆ ((written_b2).map (Proc.devRef (τ := τ) .tc)).toFinset := by
  simp only [ops_b2, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_b2 (V : Valuation τ sig (Elt Ideal)) (r : Ref sig .tc) (hr : r ∉ written_b2) :
    StableHlo.after ops_b2 V (Proc.devRef .tc r) = V (Proc.devRef .tc r) :=
  StableHlo.after_of_writes_sub ops_b2 V writes_sub_b2 hr

theorem Kept.host_b2 {W : Valuation τ sig (Elt Ideal)} (h : Kept m c s d v W) : Kept m c s d v (StableHlo.after ops_b2 W) :=
  h.host ops_b2 written_b2 writes_sub_b2 (by decide)

/-- The buffers the stretch `ops_a3` writes, in order. -/
def written_a3 : List (Ref sig .tc) := [main_c_17, main_v84, main_v85, main_c_18, main_v86, main_v87, main_v88, main_v89, main_v90, main_c_19, main_v91, main_v92, main_c_20, main_v93, main_v94, main_v95, main_v96, main_v97, main_v98, main_v99, main_c_21, main_v100, main_v101, main_c_22, main_v102, main_v103, main_v104, main_v105, main_v106, main_v107, main_v108, main_cst_23, main_v109, main_v110, main_v111]

theorem writes_sub_a3 : (ops_a3 : List (HloOp τ sig (Elt Ideal))).Forall fun op => op.writes ⊆ ((written_a3).map (Proc.devRef (τ := τ) .tc)).toFinset := by
  simp only [ops_a3, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_a3 (V : Valuation τ sig (Elt Ideal)) (r : Ref sig .tc) (hr : r ∉ written_a3) :
    StableHlo.after ops_a3 V (Proc.devRef .tc r) = V (Proc.devRef .tc r) :=
  StableHlo.after_of_writes_sub ops_a3 V writes_sub_a3 hr

theorem Kept.host_a3 {W : Valuation τ sig (Elt Ideal)} (h : Kept m c s d v W) : Kept m c s d v (StableHlo.after ops_a3 W) :=
  h.host ops_a3 written_a3 writes_sub_a3 (by decide)

/-- The buffers the stretch `ops_b3` writes, in order. -/
def written_b3 : List (Ref sig .tc) := [main_v112, main_v113, main_v114, main_call3_cst, main_call3_v0, main_v115, main_v116]

theorem writes_sub_b3 : (ops_b3 : List (HloOp τ sig (Elt Ideal))).Forall fun op => op.writes ⊆ ((written_b3).map (Proc.devRef (τ := τ) .tc)).toFinset := by
  simp only [ops_b3, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_b3 (V : Valuation τ sig (Elt Ideal)) (r : Ref sig .tc) (hr : r ∉ written_b3) :
    StableHlo.after ops_b3 V (Proc.devRef .tc r) = V (Proc.devRef .tc r) :=
  StableHlo.after_of_writes_sub ops_b3 V writes_sub_b3 hr

theorem Kept.host_b3 {W : Valuation τ sig (Elt Ideal)} (h : Kept m c s d v W) : Kept m c s d v (StableHlo.after ops_b3 W) :=
  h.host ops_b3 written_b3 writes_sub_b3 (by decide)

/-- The buffers the stretch `ops_a4` writes, in order. -/
def written_a4 : List (Ref sig .tc) := [main_c_24, main_v117, main_v118, main_c_25, main_v119, main_v120, main_v121, main_v122, main_v123, main_c_26, main_v124, main_v125, main_c_27, main_v126, main_v127, main_v128, main_v129, main_v130, main_v131, main_v132, main_c_28, main_v133, main_v134, main_c_29, main_v135, main_v136, main_v137, main_v138, main_v139, main_v140, main_v141, main_cst_30, main_v142, main_v143, main_v144]

theorem writes_sub_a4 : (ops_a4 : List (HloOp τ sig (Elt Ideal))).Forall fun op => op.writes ⊆ ((written_a4).map (Proc.devRef (τ := τ) .tc)).toFinset := by
  simp only [ops_a4, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_a4 (V : Valuation τ sig (Elt Ideal)) (r : Ref sig .tc) (hr : r ∉ written_a4) :
    StableHlo.after ops_a4 V (Proc.devRef .tc r) = V (Proc.devRef .tc r) :=
  StableHlo.after_of_writes_sub ops_a4 V writes_sub_a4 hr

theorem Kept.host_a4 {W : Valuation τ sig (Elt Ideal)} (h : Kept m c s d v W) : Kept m c s d v (StableHlo.after ops_a4 W) :=
  h.host ops_a4 written_a4 writes_sub_a4 (by decide)

/-- The buffers the stretch `ops_o4` writes, in order. -/
def written_o4 : List (Ref sig .tc) := [main_v145, main_v146, main_v147]

theorem writes_sub_o4 : (ops_o4 : List (HloOp τ sig (Elt Ideal))).Forall fun op => op.writes ⊆ ((written_o4).map (Proc.devRef (τ := τ) .tc)).toFinset := by
  simp only [ops_o4, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_o4 (V : Valuation τ sig (Elt Ideal)) (r : Ref sig .tc) (hr : r ∉ written_o4) :
    StableHlo.after ops_o4 V (Proc.devRef .tc r) = V (Proc.devRef .tc r) :=
  StableHlo.after_of_writes_sub ops_o4 V writes_sub_o4 hr

theorem Kept.host_o4 {W : Valuation τ sig (Elt Ideal)} (h : Kept m c s d v W) : Kept m c s d v (StableHlo.after ops_o4 W) :=
  h.host ops_o4 written_o4 writes_sub_o4 (by decide)

/-- The buffers the stretch `ops_l5` writes, in order. -/
def written_l5 : List (Ref sig .tc) := [main_v148]

theorem writes_sub_l5 : (ops_l5 : List (HloOp τ sig (Elt Ideal))).Forall fun op => op.writes ⊆ ((written_l5).map (Proc.devRef (τ := τ) .tc)).toFinset := by
  simp only [ops_l5, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_l5 (V : Valuation τ sig (Elt Ideal)) (r : Ref sig .tc) (hr : r ∉ written_l5) :
    StableHlo.after ops_l5 V (Proc.devRef .tc r) = V (Proc.devRef .tc r) :=
  StableHlo.after_of_writes_sub ops_l5 V writes_sub_l5 hr

theorem Kept.host_l5 {W : Valuation τ sig (Elt Ideal)} (h : Kept m c s d v W) : Kept m c s d v (StableHlo.after ops_l5 W) :=
  h.host ops_l5 written_l5 writes_sub_l5 (by decide)

/-- The buffers the stretch `ops_a5` writes, in order. -/
def written_a5 : List (Ref sig .tc) := [main_c_31, main_v149, main_v150, main_c_32, main_v151, main_v152, main_v153, main_v154, main_v155, main_c_33, main_v156, main_v157, main_c_34, main_v158, main_v159, main_v160, main_v161, main_v162, main_v163, main_v164, main_c_35, main_v165, main_v166, main_c_36, main_v167, main_v168, main_v169, main_v170, main_v171, main_v172, main_v173, main_cst_37, main_v174, main_v175, main_v176]

theorem writes_sub_a5 : (ops_a5 : List (HloOp τ sig (Elt Ideal))).Forall fun op => op.writes ⊆ ((written_a5).map (Proc.devRef (τ := τ) .tc)).toFinset := by
  simp only [ops_a5, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_a5 (V : Valuation τ sig (Elt Ideal)) (r : Ref sig .tc) (hr : r ∉ written_a5) :
    StableHlo.after ops_a5 V (Proc.devRef .tc r) = V (Proc.devRef .tc r) :=
  StableHlo.after_of_writes_sub ops_a5 V writes_sub_a5 hr

theorem Kept.host_a5 {W : Valuation τ sig (Elt Ideal)} (h : Kept m c s d v W) : Kept m c s d v (StableHlo.after ops_a5 W) :=
  h.host ops_a5 written_a5 writes_sub_a5 (by decide)

/-- The buffers the stretch `ops_o5` writes, in order. -/
def written_o5 : List (Ref sig .tc) := [main_v177, main_v178, main_v179]

theorem writes_sub_o5 : (ops_o5 : List (HloOp τ sig (Elt Ideal))).Forall fun op => op.writes ⊆ ((written_o5).map (Proc.devRef (τ := τ) .tc)).toFinset := by
  simp only [ops_o5, List.Forall, StableHlo.nullary_writes, StableHlo.unary_writes, StableHlo.binary_writes, StableHlo.ternary_writes, StableHlo.reshape_writes]
  repeat' apply And.intro
  all_goals exact single_sub_of_mem (by decide)

/-- A buffer the stretch does not write is as before. -/
theorem keep_o5 (V : Valuation τ sig (Elt Ideal)) (r : Ref sig .tc) (hr : r ∉ written_o5) :
    StableHlo.after ops_o5 V (Proc.devRef .tc r) = V (Proc.devRef .tc r) :=
  StableHlo.after_of_writes_sub ops_o5 V writes_sub_o5 hr

theorem Kept.host_o5 {W : Valuation τ sig (Elt Ideal)} (h : Kept m c s d v W) : Kept m c s d v (StableHlo.after ops_o5 W) :=
  h.host ops_o5 written_o5 writes_sub_o5 (by decide)

end Cert.ReferenceIdeal.Hand

end
-- ==== Proof.RefChain.lean ====
/-
  The reference program's two results as the network's function of the arguments: the same walk as the kernel's, over
  thirteen stretches of one straight line. The reference recomputes the edge normalisation in every layer from the
  inverse square-root degrees, so it carries those instead.
-/
import proofs.«153102_j63814624084747_1_alg».proof.Proof.RefStretches
import proofs.«153102_j63814624084747_1_alg».proof.Proof.RefCarried

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.Gcn

variable (m : (ℓ : Loc nD τ sig) → Buf (Elt Ideal) ℓ) (c : Dev nD)

/-- The arguments as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)
abbrev A11 := m ((c.tc : Thread nD τ).loc main_arg11)
abbrev S : IArr Cert.KernelIdeal.S3300000 := srcOf (A1 m c)
abbrev D : IArr Cert.KernelIdeal.S3300000 := dstOf (A1 m c)
abbrev Dinv : FArr Cert.KernelIdeal.S100000 := dinvOf (D m c)
abbrev N : FArr Cert.KernelIdeal.S3300000 := normOf (Dinv m c) (S m c) (D m c)

/-- The buffer contents after each stretch. -/
abbrev U0 : Valuation τ sig (Elt Ideal) := launchContents m c
abbrev U1 : Valuation τ sig (Elt Ideal) := StableHlo.after ops_pre (U0 m c)
abbrev U2 : Valuation τ sig (Elt Ideal) := StableHlo.after ops_l0 (U1 m c)
abbrev U3 : Valuation τ sig (Elt Ideal) := StableHlo.after ops_a1 (U2 m c)
abbrev U4 : Valuation τ sig (Elt Ideal) := StableHlo.after ops_b1 (U3 m c)
abbrev U5 : Valuation τ sig (Elt Ideal) := StableHlo.after ops_a2 (U4 m c)
abbrev U6 : Valuation τ sig (Elt Ideal) := StableHlo.after ops_b2 (U5 m c)
abbrev U7 : Valuation τ sig (Elt Ideal) := StableHlo.after ops_a3 (U6 m c)
abbrev U8 : Valuation τ sig (Elt Ideal) := StableHlo.after ops_b3 (U7 m c)
abbrev U9 : Valuation τ sig (Elt Ideal) := StableHlo.after ops_a4 (U8 m c)
abbrev U10 : Valuation τ sig (Elt Ideal) := StableHlo.after ops_o4 (U9 m c)
abbrev U11 : Valuation τ sig (Elt Ideal) := StableHlo.after ops_l5 (U10 m c)
abbrev U12 : Valuation τ sig (Elt Ideal) := StableHlo.after ops_a5 (U11 m c)
abbrev U13 : Valuation τ sig (Elt Ideal) := StableHlo.after ops_o5 (U12 m c)

/-- The whole line is the thirteen stretches in turn. -/
theorem after_ops : StableHlo.after ops (launchContents m c) = U13 m c := by
  rw [ops_split]
  simp only [after_append]

theorem kept1 : Kept m c (S m c) (D m c) (Dinv m c) (U1 m c) where
  src := r_src (U0 m c)
  dst := r_dst (U0 m c)
  dinv := r_dinv (U0 m c)
  a0 := keep_pre (U0 m c) main_arg0 (by decide)
  a1 := keep_pre (U0 m c) main_arg1 (by decide)
  a2 := keep_pre (U0 m c) main_arg2 (by decide)
  a3 := keep_pre (U0 m c) main_arg3 (by decide)
  a4 := keep_pre (U0 m c) main_arg4 (by decide)
  a5 := keep_pre (U0 m c) main_arg5 (by decide)
  a6 := keep_pre (U0 m c) main_arg6 (by decide)
  a7 := keep_pre (U0 m c) main_arg7 (by decide)
  a8 := keep_pre (U0 m c) main_arg8 (by decide)
  a9 := keep_pre (U0 m c) main_arg9 (by decide)
  a10 := keep_pre (U0 m c) main_arg10 (by decide)
  a11 := keep_pre (U0 m c) main_arg11 (by decide)

theorem kept2 : Kept m c (S m c) (D m c) (Dinv m c) (U2 m c) := (kept1 m c).host_l0
theorem kept3 : Kept m c (S m c) (D m c) (Dinv m c) (U3 m c) := (kept2 m c).host_a1
theorem kept4 : Kept m c (S m c) (D m c) (Dinv m c) (U4 m c) := (kept3 m c).host_b1
theorem kept5 : Kept m c (S m c) (D m c) (Dinv m c) (U5 m c) := (kept4 m c).host_a2
theorem kept6 : Kept m c (S m c) (D m c) (Dinv m c) (U6 m c) := (kept5 m c).host_b2
theorem kept7 : Kept m c (S m c) (D m c) (Dinv m c) (U7 m c) := (kept6 m c).host_a3
theorem kept8 : Kept m c (S m c) (D m c) (Dinv m c) (U8 m c) := (kept7 m c).host_b3
theorem kept9 : Kept m c (S m c) (D m c) (Dinv m c) (U9 m c) := (kept8 m c).host_a4
theorem kept10 : Kept m c (S m c) (D m c) (Dinv m c) (U10 m c) := (kept9 m c).host_o4
theorem kept11 : Kept m c (S m c) (D m c) (Dinv m c) (U11 m c) := (kept10 m c).host_l5
theorem kept12 : Kept m c (S m c) (D m c) (Dinv m c) (U12 m c) := (kept11 m c).host_a5

theorem kept13 : Kept m c (S m c) (D m c) (Dinv m c) (U13 m c) := (kept12 m c).host_o5

/-- After the whole line the arguments are as launched. -/
theorem args_kept : Kept m c (S m c) (D m c) (Dinv m c) (StableHlo.after ops (launchContents m c)) := by
  rw [after_ops m c]
  exact kept13 m c

theorem lin2' : U2 m c (Proc.devRef .tc main_v17) = lin0 (A0 m c) (A2 m c) := by
  refine (r_lin0 (U1 m c)).trans ?_
  rw [(kept1 m c).a0, (kept1 m c).a2]

theorem agg3 : U3 m c (Proc.devRef .tc main_v45) = agg64 (lin0 (A0 m c) (A2 m c)) (S m c) (D m c) (N m c) := by
  refine (r_a1 (U2 m c)).trans ?_
  rw [lin2' m c, (kept2 m c).src, (kept2 m c).dst, (kept2 m c).dinv]

abbrev H2 : FArr Cert.KernelIdeal.S100000x8 := lin1 (agg64 (lin0 (A0 m c) (A2 m c)) (S m c) (D m c) (N m c)) (A3 m c) (A4 m c)

theorem lin4 : U4 m c (Proc.devRef .tc main_v50) = H2 m c := by
  refine (r_b1 (U3 m c)).trans ?_
  rw [agg3 m c, (kept3 m c).a3, (kept3 m c).a4]

theorem agg5 : U5 m c (Proc.devRef .tc main_v78) = agg8 (H2 m c) (S m c) (D m c) (N m c) := by
  refine (r_a2 (U4 m c)).trans ?_
  rw [lin4 m c, (kept4 m c).src, (kept4 m c).dst, (kept4 m c).dinv]

abbrev H3 : FArr Cert.KernelIdeal.S100000x4 := lin2 (agg8 (H2 m c) (S m c) (D m c) (N m c)) (A5 m c) (A6 m c)

theorem lin6 : U6 m c (Proc.devRef .tc main_v83) = H3 m c := by
  refine (r_b2 (U5 m c)).trans ?_
  rw [agg5 m c, (kept5 m c).a5, (kept5 m c).a6]

abbrev G3 : FArr Cert.KernelIdeal.S100000x4 := agg4 (H3 m c) (S m c) (D m c) (N m c)

theorem agg7 : U7 m c (Proc.devRef .tc main_v111) = G3 m c := by
  refine (r_a3 (U6 m c)).trans ?_
  rw [lin6 m c, (kept6 m c).src, (kept6 m c).dst, (kept6 m c).dinv]

theorem lin8 : U8 m c (Proc.devRef .tc main_v116) = lin3 (G3 m c) (A7 m c) (A8 m c) := by
  refine (r_b3 (U7 m c)).trans ?_
  rw [agg7 m c, (kept7 m c).a7, (kept7 m c).a8]

theorem act8' : U8 m c (Proc.devRef .tc main_v115) = act4 (G3 m c) (A7 m c) := by
  refine (r_act3 (U7 m c)).trans ?_
  rw [agg7 m c, (kept7 m c).a7]

theorem agg9 : U9 m c (Proc.devRef .tc main_v144) = agg2 (lin3 (G3 m c) (A7 m c) (A8 m c)) (S m c) (D m c) (N m c) := by
  refine (r_a4 (U8 m c)).trans ?_
  rw [lin8 m c, (kept8 m c).src, (kept8 m c).dst, (kept8 m c).dinv]

theorem out10 : U10 m c (Proc.devRef .tc main_v147)
    = head (A0 m c) (A1 m c) (A2 m c) (A3 m c) (A4 m c) (A5 m c) (A6 m c) (A7 m c) (A8 m c) (A9 m c) := by
  refine (r_o4 (U9 m c)).trans ?_
  rw [agg9 m c, (kept9 m c).a9]
  rfl

theorem act10 : U10 m c (Proc.devRef .tc main_v115) = act4 (G3 m c) (A7 m c) :=
  (keep_o4 (U9 m c) main_v115 (by decide)).trans ((keep_a4 (U8 m c) main_v115 (by decide)).trans (act8' m c))

theorem lin11 : U11 m c (Proc.devRef .tc main_v148) = lin3 (G3 m c) (A7 m c) (A10 m c) := by
  refine (r_l5 (U10 m c)).trans ?_
  rw [act10 m c, (kept10 m c).a10]
  rfl

theorem agg12 : U12 m c (Proc.devRef .tc main_v176) = agg2 (lin3 (G3 m c) (A7 m c) (A10 m c)) (S m c) (D m c) (N m c) := by
  refine (r_a5 (U11 m c)).trans ?_
  rw [lin11 m c, (kept11 m c).src, (kept11 m c).dst, (kept11 m c).dinv]

/-- The first result. -/
theorem result0 : StableHlo.after ops (launchContents m c) (Proc.devRef .tc main_v147)
    = head (A0 m c) (A1 m c) (A2 m c) (A3 m c) (A4 m c) (A5 m c) (A6 m c) (A7 m c) (A8 m c) (A9 m c) := by
  rw [after_ops m c]
  exact (keep_o5 (U12 m c) main_v147 (by decide)).trans ((keep_a5 (U11 m c) main_v147 (by decide)).trans
    ((keep_l5 (U10 m c) main_v147 (by decide)).trans (out10 m c)))

/-- The second result. -/
theorem result1 : StableHlo.after ops (launchContents m c) (Proc.devRef .tc main_v179)
    = head (A0 m c) (A1 m c) (A2 m c) (A3 m c) (A4 m c) (A5 m c) (A6 m c) (A7 m c) (A10 m c) (A11 m c) := by
  rw [after_ops m c]
  refine (r_o5 (U12 m c)).trans ?_
  rw [agg12 m c, (kept12 m c).a11]
  rfl

end Cert.ReferenceIdeal.Hand

end
-- ==== Proof.lean ====
/-
  The kernel: a five-layer graph-convolution network on 100000 nodes and 3300000 edges (the given edges and one self
  loop per node). Each layer is a linear map of the node features, the per-edge scaling by 1/√(deg src · deg dst), the
  sum over the edges into their destination nodes, and the bias, with max(·, 0) between layers; the last two layers are
  two output heads over the same hidden features. The kernel program computes every layer's linear map in a tiled
  matrix-product region (2000 rows per grid point, the previous layer's bias and max(·, 0) applied to the block on the
  way in, operands cast to bf16 — the identity on exact reals) and everything else with host operations; the reference
  program is host operations only.

  At the extended reals both programs compute the same function of the arguments, stage by stage: a tiled product read
  at entry (p, q) of block i is the sum over k of act(x(2000·i + p, k) + b(k)) · w(k, q), which is the host product's
  entry (2000·i + p, q), and the blocks cover the array; the host operations around the products are the same operations
  in both programs. No law of the extended reals beyond x + 0 = x is used, so the precondition is not opened.

  The three frames: the two kernel programs' by the generated frame; the reference's is its run with the values dropped.
  The idealisation rewrote nothing, so `preserves` is trivial.
-/
import proofs.«153102_j63814624084747_1_alg».proof.Defs
import proofs.«153102_j63814624084747_1_alg».proof.Proof.Gen.Kernel
import proofs.«153102_j63814624084747_1_alg».proof.Proof.Gen.Kernel.Skeleton
import proofs.«153102_j63814624084747_1_alg».proof.Proof.Gen.Kernel.Launch
import proofs.«153102_j63814624084747_1_alg».proof.Proof.Gen.Kernel.Points
import proofs.«153102_j63814624084747_1_alg».proof.Proof.Gen.Kernel.Frame
import proofs.«153102_j63814624084747_1_alg».proof.Proof.Gen.KernelIdeal
import proofs.«153102_j63814624084747_1_alg».proof.Proof.Gen.KernelIdeal.Skeleton
import proofs.«153102_j63814624084747_1_alg».proof.Proof.Gen.KernelIdeal.Launch
import proofs.«153102_j63814624084747_1_alg».proof.Proof.Gen.KernelIdeal.Points
import proofs.«153102_j63814624084747_1_alg».proof.Proof.Gen.KernelIdeal.Frame
import proofs.«153102_j63814624084747_1_alg».proof.Proof.Gen.ReferenceIdeal
import proofs.«153102_j63814624084747_1_alg».proof.Proof.Gen.Pre_finite_inputs
import proofs.«153102_j63814624084747_1_alg».proof.Proof.KernelRun
import proofs.«153102_j63814624084747_1_alg».proof.Proof.KernelChain
import proofs.«153102_j63814624084747_1_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the values dropped: the arguments end as launched. -/
theorem frame_referenceIdeal : Cert.frame_ReferenceIdeal := fun m ρ _ =>
  (θ_run Cert.ReferenceIdeal.defs _ _).mono (fun r h c =>
    have k := Cert.ReferenceIdeal.Hand.args_kept m c
    ⟨(h c Cert.ReferenceIdeal.main_arg0).trans k.a0,
     (h c Cert.ReferenceIdeal.main_arg1).trans k.a1,
     (h c Cert.ReferenceIdeal.main_arg2).trans k.a2,
     (h c Cert.ReferenceIdeal.main_arg3).trans k.a3,
     (h c Cert.ReferenceIdeal.main_arg4).trans k.a4,
     (h c Cert.ReferenceIdeal.main_arg5).trans k.a5,
     (h c Cert.ReferenceIdeal.main_arg6).trans k.a6,
     (h c Cert.ReferenceIdeal.main_arg7).trans k.a7,
     (h c Cert.ReferenceIdeal.main_arg8).trans k.a8,
     (h c Cert.ReferenceIdeal.main_arg9).trans k.a9,
     (h c Cert.ReferenceIdeal.main_arg10).trans k.a10,
     (h c Cert.ReferenceIdeal.main_arg11).trans k.a11⟩)
    (Cert.ReferenceIdeal.Hand.run (F := Ideal) m ρ)

/-- Run from memories that agree on the arguments, both programs end with each result at the network's function of
    the arguments. -/
theorem algebraic : Cert.algebraic_KernelIdeal_ReferenceIdeal := by
  intro m ρ m' ρ' _ hagree
  refine ⟨fun c => Cert.KernelIdeal.Gen.W13 m ρ c (Proc.devRef .tc Cert.KernelIdeal.main_v110),
    fun c => Cert.KernelIdeal.Gen.W13 m ρ c (Proc.devRef .tc Cert.KernelIdeal.main_v113),
    Cert.KernelIdeal.Gen.run_results m ρ, ?_⟩
  refine (θ_run Cert.ReferenceIdeal.defs _ _).mono (fun r h c => ?_) (Cert.ReferenceIdeal.Hand.run (F := Ideal) m' ρ')
  obtain ⟨e0, e1, e2, e3, e4, e5, e6, e7, e8, e9, e10, e11⟩ := hagree c
  have k := Cert.ReferenceIdeal.Hand.args_kept m' c
  refine ⟨?_, ?_, (h c Cert.ReferenceIdeal.main_arg0).trans k.a0,
    (h c Cert.ReferenceIdeal.main_arg1).trans k.a1,
    (h c Cert.ReferenceIdeal.main_arg2).trans k.a2,
    (h c Cert.ReferenceIdeal.main_arg3).trans k.a3,
    (h c Cert.ReferenceIdeal.main_arg4).trans k.a4,
    (h c Cert.ReferenceIdeal.main_arg5).trans k.a5,
    (h c Cert.ReferenceIdeal.main_arg6).trans k.a6,
    (h c Cert.ReferenceIdeal.main_arg7).trans k.a7,
    (h c Cert.ReferenceIdeal.main_arg8).trans k.a8,
    (h c Cert.ReferenceIdeal.main_arg9).trans k.a9,
    (h c Cert.ReferenceIdeal.main_arg10).trans k.a10,
    (h c Cert.ReferenceIdeal.main_arg11).trans k.a11⟩
  · refine (h c Cert.ReferenceIdeal.main_v147).trans ((Cert.ReferenceIdeal.Hand.result0 m' c).trans ?_)
    refine Eq.trans ?_ (Cert.KernelIdeal.Chain.result0 m ρ c).symm
    show Cert.Gcn.head (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      = Cert.Gcn.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    rw [e0, e1, e2, e3, e4, e5, e6, e7, e8, e9]
  · refine (h c Cert.ReferenceIdeal.main_v179).trans ((Cert.ReferenceIdeal.Hand.result1 m' c).trans ?_)
    refine Eq.trans ?_ (Cert.KernelIdeal.Chain.result1 m ρ c).symm
    show Cert.Gcn.head (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.Gcn.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    rw [e0, e1, e2, e3, e4, e5, e6, e7, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
